-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![1024, 512]⟩ ⟨2, ![2048, 512]⟩ (Layout.meshBlock [2, 4, 4] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1024x512 : Shape := ⟨2, ![1024, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel

variable [Facts]

def fn {F : FTy → Type} [FloatOps F] (main_arg0 : FVec F S1024x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  main_v3
-- ==== Pre_finite_inputs_ReferenceIdeal.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)
  reducesTo_S2048x512_S_d0_1 : S2048x512.ReducesTo [0, 1] S_
  h_S_ : 0 < S_.numel

variable [Facts]

def fn {F : FTy → Type} [FloatOps F] (main_arg0 : FVec F S2048x512 .f32) : IVec S_ 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_c : IVec S_ 1 := constantI S_ 1 1#1
  let main_v3 : IVec S_ 1 := (fun x v => Host.reduce IntOp.andi x v reducesTo_S2048x512_S_d0_1 h_S_) main_v2 main_c
  main_v3
-- ==== Kernel.lean ====
abbrev S1024x512 : Shape := ⟨2, ![1024, 512]⟩
abbrev S2048x512 : Shape := ⟨2, ![2048, 512]⟩
abbrev S4 : Shape := ⟨1, ![4]⟩
abbrev S1 : Shape := ⟨1, ![1]⟩
abbrev S_ : Shape := ⟨0, ![]⟩
abbrev S256x512 : Shape := ⟨2, ![256, 512]⟩

abbrev nBuf : Space → Nat
  | .hbm => 2
  | .vmem => 2
  | .smem => 0
  | _ => 0

abbrev bufTy : (tb : Table) → Fin (tcTables nBuf tb) → BufTy
  | .hbm, ⟨0, _⟩ => ⟨S1024x512, .f32⟩
  | .hbm, ⟨1, _⟩ => ⟨S2048x512, .bf16⟩
  | .local _ .vmem, ⟨0, _⟩ => ⟨S2048x512, .bf16⟩
  | .local _ .vmem, ⟨1, _⟩ => ⟨S1024x512, .f32⟩
  | _, _ => ⟨S1024x512, .f32⟩

abbrev bufScoped : (cs : CoreSpace) → Fin (nBuf (.core cs)) → Bool
  | .vmem, ⟨0, _⟩ => true
  | .vmem, ⟨1, _⟩ => true
  | _, _ => false

abbrev semScoped : Fin 1 → Bool
  | ⟨0, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  { ofTc nBuf bufTy 1 13 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_scratch0 : Ref sig .tc := ⟨.vmem, 1, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_20 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_19 : BitVec 32 := 16#32
  let v27 : BitVec 32 := Scalar.muli v9 c16_i32_19
  let v28 : BitVec 32 := Scalar.addi c0_i32_20 v27
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_21 : BitVec 32 := 4#32
  let v29 : BitVec 32 := Scalar.muli v5 c4_i32_21
  let v30 : BitVec 32 := Scalar.addi v28 v29
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_22 : BitVec 32 := 1#32
  let v31 : BitVec 32 := Scalar.muli v8 c1_i32_22
  let v32 : BitVec 32 := Scalar.addi v30 v31
  v32.toNat
def k0_off1 (d0 : Dev nD) (c0_i32_24 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v33 : BitVec 32 := Scalar.muli v2 c1024_i32
  let v34 : BitVec 32 := Scalar.addi v33 c0_i32_24
  let v41 : Index := Scalar.indexCast v34
  let c0_31 : Index := 0#32
  ![v41.toNat, 0]
def k0_off2 (d0 : Dev nD) (c0_i32_24 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c1024_i32 : BitVec 32 := 1024#32
  let v33 : BitVec 32 := Scalar.muli v2 c1024_i32
  let v34 : BitVec 32 := Scalar.addi v33 c0_i32_24
  let c0_i32_38 : BitVec 32 := 0#32
  ![v34.toNat, 0]
def k0_dev2 (d0 : Dev nD) : Nat :=
  let c0_i32_35 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_34 : BitVec 32 := 16#32
  let v43 : BitVec 32 := Scalar.muli v9 c16_i32_34
  let v44 : BitVec 32 := Scalar.addi c0_i32_35 v43
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_36 : BitVec 32 := 4#32
  let v45 : BitVec 32 := Scalar.muli v5 c4_i32_36
  let v46 : BitVec 32 := Scalar.addi v44 v45
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_37 : BitVec 32 := 1#32
  let v47 : BitVec 32 := Scalar.muli v8 c1_i32_37
  let v48 : BitVec 32 := Scalar.addi v46 v47
  v48.toNat
def k0_dev3 (d0 : Dev nD) : Nat :=
  let c0_i32_52 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_51 : BitVec 32 := 16#32
  let v65 : BitVec 32 := Scalar.muli v9 c16_i32_51
  let v66 : BitVec 32 := Scalar.addi c0_i32_52 v65
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_53 : BitVec 32 := 4#32
  let v67 : BitVec 32 := Scalar.muli v5 c4_i32_53
  let v68 : BitVec 32 := Scalar.addi v66 v67
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_54 : BitVec 32 := 1#32
  let v69 : BitVec 32 := Scalar.muli v8 c1_i32_54
  let v70 : BitVec 32 := Scalar.addi v68 v69
  v70.toNat
def k0_dev4 (d0 : Dev nD) : Nat :=
  let c0_i32_69 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_68 : BitVec 32 := 16#32
  let v87 : BitVec 32 := Scalar.muli v9 c16_i32_68
  let v88 : BitVec 32 := Scalar.addi c0_i32_69 v87
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_70 : BitVec 32 := 4#32
  let v89 : BitVec 32 := Scalar.muli v5 c4_i32_70
  let v90 : BitVec 32 := Scalar.addi v88 v89
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_71 : BitVec 32 := 1#32
  let v91 : BitVec 32 := Scalar.muli v8 c1_i32_71
  let v92 : BitVec 32 := Scalar.addi v90 v91
  v92.toNat
def k0_dev5 (d0 : Dev nD) : Nat :=
  let c0_i32_86 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_85 : BitVec 32 := 16#32
  let v109 : BitVec 32 := Scalar.muli v9 c16_i32_85
  let v110 : BitVec 32 := Scalar.addi c0_i32_86 v109
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v111 : BitVec 32 := Scalar.muli v5 c4_i32_87
  let v112 : BitVec 32 := Scalar.addi v110 v111
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_88 : BitVec 32 := 1#32
  let v113 : BitVec 32 := Scalar.muli v8 c1_i32_88
  let v114 : BitVec 32 := Scalar.addi v112 v113
  v114.toNat
abbrev stage0_0 : Fin 1 → Memref sig .tc .vmem S2048x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

class Facts₀ : Prop where
  inb_S4_S1_0 : ∀ a, (![0] : Fin 1 → Nat) a + S1.size a ≤ S4.size a
  squeezes_S1_S_ : S1.Squeezes S_
  inb_S1024x512_S256x512_0_0 : ∀ a, (![0, 0] : Fin 2 → Nat) a + S256x512.size a ≤ S1024x512.size a
  inb_S4_S1_1 : ∀ a, (![1] : Fin 1 → Nat) a + S1.size a ≤ S4.size a
  inb_S1024x512_S256x512_256_0 : ∀ a, (![256, 0] : Fin 2 → Nat) a + S256x512.size a ≤ S1024x512.size a
  inb_S4_S1_2 : ∀ a, (![2] : Fin 1 → Nat) a + S1.size a ≤ S4.size a
  inb_S1024x512_S256x512_512_0 : ∀ a, (![512, 0] : Fin 2 → Nat) a + S256x512.size a ≤ S1024x512.size a
  inb_S4_S1_3 : ∀ a, (![3] : Fin 1 → Nat) a + S1.size a ≤ S4.size a
  inb_S1024x512_S256x512_768_0 : ∀ a, (![768, 0] : Fin 2 → Nat) a + S256x512.size a ≤ S1024x512.size a
  hamt_1 : (1#32 : BitVec 32).msb = false
  h_S256x512 : 0 < S256x512.numel
  bitsLt_bf16_f32 : FTy.bits .bf16 < FTy.bits .f32
  hcc0_scratch1 : 1 + S4.numel ≤ 13
  hcc0_scratch2 : 5 + S4.numel ≤ 13
  hcc0_scratch3 : 9 + S4.numel ≤ 13
  k0_dev1_lt : ∀ d0 : Dev nD, (k0_dev1 d0) < nD
  k0_off1_inb : ∀ d0 : Dev nD, ∀ (r : Fin 4), ∀ a, (k0_off1 d0 (BitVec.ofNat 32 (256 * r.val))) a + S256x512.size a ≤ S2048x512.size a
  k0_off1_packedbf16 : ∀ d0 : Dev nD, ∀ (r : Fin 4), (Rect.unit (s := S2048x512) (k0_off1 d0 (BitVec.ofNat 32 (256 * r.val))) S256x512.size (k0_off1_inb d0 r)).PackedRows (EltTy.packing .bf16)
  k0_off2_inb : ∀ d0 : Dev nD, ∀ (r : Fin 4), ∀ a, (k0_off2 d0 (BitVec.ofNat 32 (256 * r.val))) a + S256x512.size a ≤ S2048x512.size a
  k0_off2_wordsbf16 : ∀ d0 : Dev nD, ∀ (r : Fin 4), (Rect.unit (s := S2048x512) (k0_off2 d0 (BitVec.ofNat 32 (256 * r.val))) S256x512.size (k0_off2_inb d0 r)).WholeWords (EltTy.packing .bf16)
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  hstage0_0 : ∀ j, (stage0_0 j).IsWhole

variable [Facts₀]

abbrev cc0_scratch1 : DmaSems sig S4 := SemArray.consecutive 1 S4 hcc0_scratch1
abbrev cc0_scratch2 : DmaSems sig S4 := SemArray.consecutive 5 S4 hcc0_scratch2
abbrev cc0_scratch3 : DmaSems sig S4 := SemArray.consecutive 9 S4 hcc0_scratch3

abbrev win0_0 : Pipeline.Window sig grid0 :=
  Pipeline.Window.whole (Memref.whole main_v1) true false (stage0_0 0) (sem0_0 0) (Memref.isWhole_whole _) (hstage0_0 0)

abbrev win0 : Fin 1 → Pipeline.Window sig grid0 := fun | 0 => win0_0 | ⟨_ + 1, h⟩ => absurd h (Nat.not_lt.2 (Nat.le_add_left _ _))
abbrev spec0 : Fin 1 → Pipeline.WinSpec sig grid0.rank := fun w => (win0 w).toWinSpec

class Facts : Prop extends Facts₀ where

variable [Facts]
-- ==== ReferenceIdeal.lean ====
abbrev S2048x512 : Shape := ⟨2, ![2048, 512]⟩

abbrev nBuf : Space → Nat
  | .hbm => 2
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .bf16⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]

class Facts₀ : Prop where
  bitsLt_bf16_f32 : FTy.bits .bf16 < FTy.bits .f32

variable [Facts₀]

class Facts : Prop extends Facts₀ where

variable [Facts]
-- ==== Proof.Cells.lean ====
/-
  The pairwise exchange along the mesh's first axis: device `c` and its partner `peer c` (the device whose first
  mesh coordinate is the other one, the other two equal) each cast their own 1024 rows, four chunks of 256 rows at
  a time, into their half of a 2048-row result buffer and copy each chunk into the partner's buffer at the same rows.
  This module names the partner, the memrefs, the thirteen semaphore cells of a device and the chunk rectangles.
-/
import proofs.«900410_g7700000000000411_dist_ag_v7x_xyz2x4x4_x_m1024_n512_bf16_1_alg».proof.Proof.Gen.KernelIdeal
import proofs.«900410_g7700000000000411_dist_ag_v7x_xyz2x4x4_x_m1024_n512_bf16_1_alg».proof.Proof.Gen.KernelIdeal.Skeleton
import proofs.«900410_g7700000000000411_dist_ag_v7x_xyz2x4x4_x_m1024_n512_bf16_1_alg».proof.Proof.Gen.KernelIdeal.Launch
import proofs.«900410_g7700000000000411_dist_ag_v7x_xyz2x4x4_x_m1024_n512_bf16_1_alg».proof.Proof.Gen.KernelIdeal.Points
import Idealize.ShloMosaic.Lib.Pipeline.Launch
import Idealize.ShloMosaic.Lib.Pipeline.Kit
import Idealize.ShloMosaic.Lib.Pipeline.Value
import Idealize.ShloMosaic.Lib.HeldBySlice
import Idealize.ShloMosaic.Lib.Tactic

set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The device whose first mesh coordinate (of two) is the other one: sixteen away. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel

def swap : Dev nD ≃ Dev nD := ⟨peer, peer, peer_peer, peer_peer⟩

/-! ## The memrefs, the chunk rectangles and the cells -/

abbrev argM : Memref sig .tc .hbm S1024x512 .f32 := Memref.whole main_arg0
abbrev stgM : Memref sig .tc .vmem S2048x512 .bf16 := Memref.whole cc0_stg0_0
abbrev scrM : Memref sig .tc .vmem S1024x512 .f32 := Memref.whole cc0_scratch0

/-- Chunk `r`'s first row inside a device's own 1024 rows. -/
abbrev inOff : Fin 4 → Fin 2 → Nat := fun | 0 => ![0, 0] | 1 => ![256, 0] | 2 => ![512, 0] | 3 => ![768, 0]
theorem inOff_inb : ∀ (r : Fin 4) (a : Fin 2), inOff r a + S256x512.size a ≤ S1024x512.size a := by decide
/-- Rows `256 r … 256 r + 255` of a 1024-row array. -/
abbrev inRect (r : Fin 4) : Rect S1024x512 := Rect.unit (s := S1024x512) (inOff r) S256x512.size (inOff_inb r)

/-- The word the printed offsets take for chunk `r`. -/
abbrev rowWord (r : Fin 4) : BitVec 32 := BitVec.ofNat 32 (256 * r.val)
/-- Rows `1024 x + 256 r …` of the 2048-row result buffer, `x` the first mesh coordinate of `d`. -/
abbrev outRect (d : Dev nD) (r : Fin 4) : Rect S2048x512 := Rect.unit (s := S2048x512) (k0_off2 d (rowWord r)) S256x512.size (k0_off2_inb d r)

abbrev inSrc (r : Fin 4) : Memref sig .tc .hbm S256x512 .f32 := argM.slice (inRect r) (fun _ => rfl)
abbrev inDst (r : Fin 4) : Memref sig .tc .vmem S256x512 .f32 := scrM.slice (inRect r) (fun _ => rfl)
abbrev outM (d : Dev nD) (r : Fin 4) : Memref sig .tc .vmem S256x512 .bf16 := stgM.slice (outRect d r) (fun _ => rfl)

abbrev barS : Sem sig := (SemArray.scalar (sig.barrier 0 rfl) : Sems sig S_).sem
abbrev inSem (r : Fin 4) : DmaSem sig := ⟨1 + r.val, (by have := r.isLt; show 1 + r.val < 13; omega)⟩
abbrev sendSem (r : Fin 4) : DmaSem sig := ⟨5 + r.val, (by have := r.isLt; show 5 + r.val < 13; omega)⟩
abbrev recvSem (r : Fin 4) : DmaSem sig := ⟨9 + r.val, (by have := r.isLt; show 9 + r.val < 13; omega)⟩

abbrev barCell (c : Dev nD) : GSem nD τ sig := ((c : Thread nD τ), .reg barS)
abbrev inCell (c : Dev nD) (r : Fin 4) : GSem nD τ sig := ((c : Thread nD τ), .dma (inSem r))
abbrev sendCell (c : Dev nD) (r : Fin 4) : GSem nD τ sig := ((c : Thread nD τ), .dma (sendSem r))
abbrev recvCell (c : Dev nD) (r : Fin 4) : GSem nD τ sig := ((c : Thread nD τ), .dma (recvSem r))

-- checks of spelling against the printed program
example : ((cc0_scratch1.slice (Rect.unit (s := S4) ![2] S1.size inb_S4_S1_2)).squeeze S_ squeezes_S1_S_).sem = inSem 2 := rfl
example : ((cc0_scratch3.slice (Rect.unit (s := S4) ![3] S1.size inb_S4_S1_3)).squeeze S_ squeezes_S1_S_).sem = recvSem 3 := rfl
example (d0 : Dev nD) : Rect.unit (s := S2048x512) (k0_off2 d0 768#32) S256x512.size (k0_off2_inb d0 3) = outRect d0 3 := rfl
example : Rect.unit (s := S1024x512) ![256, 0] S256x512.size inb_S1024x512_S256x512_256_0 = inRect 1 := rfl

abbrev Nin : ℕ := (inDst 0).view.dmaCredit
abbrev Nout : ℕ := (stgM.slice (Rect.unit (s := S2048x512) ![0, 0] S256x512.size (by decide)) (fun _ => rfl)).view.dmaCredit
theorem Nin_pos : 0 < Nin := View.dmaCredit_pos _ (by decide)
theorem Nout_pos : 0 < Nout := View.dmaCredit_pos _ (by decide)
example (r : Fin 4) : (inDst r).view.dmaCredit = Nin := rfl
example (d : Dev nD) (r : Fin 4) : (outM d r).view.dmaCredit = Nout := rfl

variable (m : (ℓ : Loc nD τ sig) → Buf (Elt F) ℓ)

/-- Device `d`'s own rows. -/
abbrev xs (d : Dev nD) : Buf (Elt F) ((d : Thread nD τ).loc main_arg0) := m ((d : Thread nD τ).loc main_arg0)

/-- Chunk `r` of device `d`'s rows, cast to the result's format. -/
def pay (d : Dev nD) (r : Fin 4) : FVec F S256x512 .bf16 := k0_pay1 ((argM.access (inRect r)).read (Elt F) (xs m d))

example (d : Dev nD) (v) : k0_pay3 (F := F) v = k0_pay1 v := rfl

end Cert.KernelIdeal.AG

end
-- ==== Proof.Sched.lean ====
/-
  The exchange's schedule under the rounds discipline. Every cell has ONE round of ONE duty.
  * a device's barrier cell: one unit, paid by its partner; it hands the device the four chunk slots of the partner's
    buffer that the device's copies will fill, with the fact that the partner's four receive cells are at round 0;
  * its four input cells: the local copy of chunk `r` of its own rows into its scratch, paid by itself; it hands back
    the scratch rows holding the chunk and the source rows;
  * its four send cells: paid by itself when chunk `r` of its half of the result has been read; it hands back
    those rows holding the chunk cast;
  * its four receive cells: paid by the partner's copy of ITS chunk `r`; it hands the device those rows of its own
    buffer holding the partner's chunk cast.
  A device therefore owes, at launch, one unit to its partner's barrier and a chunk's credit to each of the partner's
  four receive cells. Levels: barrier cells 1, receive cells 2, all else 0; every wait happens while the waiter
  owes receive credit only.
-/
import proofs.«900410_g7700000000000411_dist_ag_v7x_xyz2x4x4_x_m1024_n512_bf16_1_alg».proof.Proof.Cells
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a duty hands over -/

/-- Chunk `(d, r)` of device `c`'s result buffer, holding `g` there. -/
def outPts (c d : Dev nD) (r : Fin 4) (g : Buf (Elt F) ((outM d r).view.loc (c : Thread nD τ))) : sProp 𝕄 :=
  (outM d r).view.loc (c : Thread nD τ) ↦[(outM d r).view.set]{fullShare} g

/-- Chunk `(d, r)` of device `c`'s result buffer holds chunk `r` of device `d`'s rows, cast. -/
def outHolds (c d : Dev nD) (r : Fin 4) : sProp 𝕄 :=
  iprop(∃ f, outPts c d r ((outM d r).view.write (Elt F) f (pay m d r) Finset.univ))

/-- Rows `r` of device `c`'s scratch hold chunk `r` of its rows; the source rows come back with them. -/
def inPay (c : Dev nD) (r : Fin 4) : sProp 𝕄 :=
  iprop((∃ f, (inDst r).view.loc (c : Thread nD τ) ↦[(inDst r).view.set]{fullShare}
          (inDst r).view.write (Elt F) f ((inSrc r).view.read (Elt F) (xs m c)) Finset.univ)
    ∗ ((inSrc r).view.loc (c : Thread nD τ) ↦[(inSrc r).view.set]{fullShare} xs m c))

def sendPay (c : Dev nD) (r : Fin 4) : sProp 𝕄 := outHolds m c c r
def recvPay (c : Dev nD) (r : Fin 4) : sProp 𝕄 := outHolds m c (peer c) r

/-- The free slot for chunk `r` of `c`'s rows in the partner's buffer, and that the partner's receive cell `r` is at round 0. -/
def slotPay (c : Dev nD) (r : Fin 4) : sProp 𝕄 :=
  iprop((∃ f, outPts (F := F) (peer c) c r f) ∗ reached ER (recvCell (peer c) r) 0)
def barPay (c : Dev nD) : sProp 𝕄 := iprop(slotPay (F := F) c 0 ∗ slotPay (F := F) c 1 ∗ slotPay (F := F) c 2 ∗ slotPay (F := F) c 3)

/-- A DMA cell's payload by its number: 1–4 input, 5–8 send, 9–12 receive. -/
def dmaPay (c : Dev nD) (q : DmaSem sig) : sProp 𝕄 :=
  if h0 : q.val < 1 then iprop(emp)
  else if h4 : q.val < 5 then inPay m c ⟨q.val - 1, by omega⟩
  else if h8 : q.val < 9 then sendPay m c ⟨q.val - 5, by omega⟩
  else recvPay m c ⟨q.val - 9, by have := q.isLt; (have : q.val < 13 := this); omega⟩

/-- The cells of the exchange on a TensorCore: the barrier and DMA semaphores 1–12 (0 is the result's staging cell). -/
def ours : SemLoc sig → Bool
  | .reg _ => true
  | .dma q => decide (1 ≤ q.val)

def agRd : Rounds.Schedule (GSem nD τ sig) Unit 𝕄 where
  duties g r := if r = 0 ∧ g.1.2 = .tc ∧ ours g.2 = true then {()} else ∅
  unitless _ := False
  amount g _ _ := match g.2 with
    | .reg _ => 1
    | .dma q => if q.val < 5 then Nin else Nout
  payload g _ _ := match g.2 with
    | .reg _ => barPay g.1.1
    | .dma q => dmaPay m g.1.1 q
  amount_pos g _ _ _ := by
    rcases g with ⟨t, sm⟩
    cases sm with
    | reg s => exact Nat.one_pos
    | dma q => dsimp only; split
               · exact Nin_pos
               · exact Nout_pos

instance slotPay_storable (c : Dev nD) (r : Fin 4) : BI.Storable (upEmb : UEmb _ 𝕄) (slotPay (F := F) c r) := by
  unfold slotPay outPts; infer_instance
instance barPay_storable (c : Dev nD) : BI.Storable (upEmb : UEmb _ 𝕄) (barPay (F := F) c) := by
  unfold barPay; infer_instance
instance outHolds_storable (c d : Dev nD) (r : Fin 4) : BI.Storable (upEmb : UEmb _ 𝕄) (outHolds m c d r) := by
  unfold outHolds outPts; infer_instance
instance inPay_storable (c : Dev nD) (r : Fin 4) : BI.Storable (upEmb : UEmb _ 𝕄) (inPay m c r) := by
  unfold inPay; infer_instance

instance agRd_payload_storable (g : GSem nD τ sig) (r : ℕ) (d : Unit) :
    BI.Storable (upEmb : UEmb _ 𝕄) ((agRd (F := F) m).payload g r d) := by
  rcases g with ⟨t, sm⟩
  cases sm with
  | reg s => show BI.Storable upEmb (barPay t.1); infer_instance
  | dma q =>
    show BI.Storable upEmb (dmaPay m t.1 q)
    unfold dmaPay sendPay recvPay
    (repeat' split) <;> infer_instance

section Tables
variable (c : Dev nD) (r : Fin 4)

theorem duties_bar : (agRd (F := F) m).duties (barCell c) 0 = {()} := by dsimp only [agRd]; exact if_pos ⟨rfl, rfl, rfl⟩
theorem duties_in : (agRd (F := F) m).duties (inCell c r) 0 = {()} := by
  dsimp only [agRd]; exact if_pos ⟨rfl, rfl, by revert r; decide⟩
theorem duties_send : (agRd (F := F) m).duties (sendCell c r) 0 = {()} := by
  dsimp only [agRd]; exact if_pos ⟨rfl, rfl, by revert r; decide⟩
theorem duties_recv : (agRd (F := F) m).duties (recvCell c r) 0 = {()} := by
  dsimp only [agRd]; exact if_pos ⟨rfl, rfl, by revert r; decide⟩
theorem duties_later (g : GSem nD τ sig) : ∀ r, 1 ≤ r → (agRd (F := F) m).duties g r = ∅ :=
  fun r hr => by dsimp only [agRd]; rw [if_neg fun h => by omega]

theorem amount_bar (d : Unit) : (agRd (F := F) m).amount (barCell c) 0 d = 1 := rfl
theorem amount_in (d : Unit) : (agRd (F := F) m).amount (inCell c r) 0 d = Nin := by
  show (if (inSem r).val < 5 then Nin else Nout) = Nin
  rw [if_pos (by show 1 + r.val < 5; omega)]
theorem amount_send (d : Unit) : (agRd (F := F) m).amount (sendCell c r) 0 d = Nout := by
  show (if (sendSem r).val < 5 then Nin else Nout) = Nout
  rw [if_neg (by show ¬ 5 + r.val < 5; omega)]
theorem amount_recv (d : Unit) : (agRd (F := F) m).amount (recvCell c r) 0 d = Nout := by
  show (if (recvSem r).val < 5 then Nin else Nout) = Nout
  rw [if_neg (by show ¬ 9 + r.val < 5; omega)]

theorem expect_bar : (agRd (F := F) m).expect (barCell c) 0 = 1 := by
  unfold Schedule.expect Schedule.amountOf; rw [duties_bar, Finset.sum_singleton, amount_bar]
theorem expect_in : (agRd (F := F) m).expect (inCell c r) 0 = Nin := by
  unfold Schedule.expect Schedule.amountOf; rw [duties_in, Finset.sum_singleton, amount_in]
theorem expect_send : (agRd (F := F) m).expect (sendCell c r) 0 = Nout := by
  unfold Schedule.expect Schedule.amountOf; rw [duties_send, Finset.sum_singleton, amount_send]
theorem expect_recv : (agRd (F := F) m).expect (recvCell c r) 0 = Nout := by
  unfold Schedule.expect Schedule.amountOf; rw [duties_recv, Finset.sum_singleton, amount_recv]

theorem payload_bar (d : Unit) : (agRd (F := F) m).payload (barCell c) 0 d = barPay c := rfl
theorem payload_in (d : Unit) : (agRd (F := F) m).payload (inCell c r) 0 d = inPay m c r := by
  show dmaPay m c (inSem r) = _
  unfold dmaPay
  rw [dif_neg (by show ¬ 1 + r.val < 1; omega), dif_pos (by show 1 + r.val < 5; omega)]
  congr 1; exact Fin.ext (by show 1 + r.val - 1 = r.val; omega)
theorem payload_send (d : Unit) : (agRd (F := F) m).payload (sendCell c r) 0 d = sendPay m c r := by
  show dmaPay m c (sendSem r) = _
  unfold dmaPay
  rw [dif_neg (by show ¬ 5 + r.val < 1; omega), dif_neg (by show ¬ 5 + r.val < 5; omega), dif_pos (by show 5 + r.val < 9; omega)]
  congr 1; exact Fin.ext (by show 5 + r.val - 5 = r.val; omega)
theorem payload_recv (d : Unit) : (agRd (F := F) m).payload (recvCell c r) 0 d = recvPay m c r := by
  show dmaPay m c (recvSem r) = _
  unfold dmaPay
  rw [dif_neg (by show ¬ 9 + r.val < 1; omega), dif_neg (by show ¬ 9 + r.val < 5; omega), dif_neg (by show ¬ 9 + r.val < 9; omega)]
  congr 1; exact Fin.ext (by show 9 + r.val - 9 = r.val; omega)

theorem rest_bar : bigSep ((agRd (F := F) m).duties (barCell c) 0 \ ∅) (fun d => (agRd (F := F) m).payload (barCell c) 0 d) = barPay c := by
  rw [Finset.sdiff_empty, duties_bar, bigSep_singleton, payload_bar]
theorem rest_in : bigSep ((agRd (F := F) m).duties (inCell c r) 0 \ ∅) (fun d => (agRd (F := F) m).payload (inCell c r) 0 d) = inPay m c r := by
  rw [Finset.sdiff_empty, duties_in, bigSep_singleton, payload_in]
theorem rest_send : bigSep ((agRd (F := F) m).duties (sendCell c r) 0 \ ∅) (fun d => (agRd (F := F) m).payload (sendCell c r) 0 d) = sendPay m c r := by
  rw [Finset.sdiff_empty, duties_send, bigSep_singleton, payload_send]
theorem rest_recv : bigSep ((agRd (F := F) m).duties (recvCell c r) 0 \ ∅) (fun d => (agRd (F := F) m).payload (recvCell c r) 0 d) = recvPay m c r := by
  rw [Finset.sdiff_empty, duties_recv, bigSep_singleton, payload_recv]

end Tables

/-! ## What each device owes at launch; the levels -/

/-- What device `c` still owes before its copy of chunk 3, 2, 1, 0; and at launch. -/
def Q3 (c : Dev nD) : CellTallies nD τ sig Unit := tallyAt (recvCell (peer c) 3) () Nout
def Q2 (c : Dev nD) : CellTallies nD τ sig Unit := Q3 c + tallyAt (recvCell (peer c) 2) () Nout
def Q1 (c : Dev nD) : CellTallies nD τ sig Unit := Q2 c + tallyAt (recvCell (peer c) 1) () Nout
def Q0 (c : Dev nD) : CellTallies nD τ sig Unit := Q1 c + tallyAt (recvCell (peer c) 0) () Nout
def O₀ (c : Dev nD) : CellTallies nD τ sig Unit := Q0 c + tallyAt (barCell (peer c)) () 1

def L (g : GSem nD τ sig) : Finset Unit := if g.1.2 = .tc then {()} else ∅
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (r : Fin 4) : lv (recvCell c r) () = 2 := by
  show (if 9 ≤ (recvSem r).val then 2 else 0) = 2
  rw [if_pos (by show 9 ≤ 9 + r.val; omega)]

/-- Everything in `Q0 c` is a receive cell of the partner. -/
theorem Q0_pos {c : Dev nD} {g : GSem nD τ sig} {u : Unit} (h : 0 < Q0 c g u) : ∃ r, g = recvCell (peer c) r := by
  unfold Q0 Q1 Q2 Q3 at h
  rcases Pipeline.add_pos_cases h with h | h
  · rcases Pipeline.add_pos_cases h with h | h
    · rcases Pipeline.add_pos_cases h with h | h
      · exact ⟨3, (Pipeline.tallyAt_pos h).1⟩
      · exact ⟨2, (Pipeline.tallyAt_pos h).1⟩
    · exact ⟨1, (Pipeline.tallyAt_pos h).1⟩
  · exact ⟨0, (Pipeline.tallyAt_pos h).1⟩

theorem Q1_le (c : Dev nD) {g u} (h : 0 < Q1 c g u) : 0 < Q0 c g u := by
  unfold Q0; rw [Pi.add_apply, Finsupp.add_apply]; omega
theorem Q2_le (c : Dev nD) {g u} (h : 0 < Q2 c g u) : 0 < Q0 c g u := by
  apply Q1_le; unfold Q1; rw [Pi.add_apply, Finsupp.add_apply]; omega
theorem Q3_le (c : Dev nD) {g u} (h : 0 < Q3 c g u) : 0 < Q0 c g u := by
  apply Q2_le; unfold Q2; rw [Pi.add_apply, Finsupp.add_apply]; omega

/-- A wait on a cell below level 2 while owing at most the partner's receive credits. -/
theorem mayWait_low (c : Dev nD) (sm : SemLoc sig) (hsm : lv ((c : Thread nD τ), sm) () < 2) (O : CellTallies nD τ sig Unit)
    (hO : ∀ g u, 0 < O g u → 0 < Q0 c g u) :
    (levAts L lv : sProp 𝕄) ⊢ MayWait (c : Thread nD τ) sm () O :=
  Pipeline.mayWait_of_levAts (by rw [L_tc]; exact Finset.mem_singleton_self _) fun g u hg => by
    obtain ⟨r, rfl⟩ := Q0_pos (hO g u hg)
    exact ⟨by rw [L_tc]; exact Finset.mem_singleton_self _, by rw [lv_recv]; exact hsm⟩

end Cert.KernelIdeal.AG

end
-- ==== Proof.LibPieces.lean ====
/-
  A buffer's elements carved along a list of pairwise disjoint rectangles, all at the same contents, and put back:
  the points-to on the whole view is the points-tos on the rectangles and the points-to on what they leave.
-/
import Idealize.ShloMosaic.Lib.HeldBySlice

noncomputable section

namespace Cert.Pieces

open Idealize.ShloMosaic
open Idealize.SL
open Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Ix : Type} [DecidableEq Ix]
variable {Val : EltTy → Type} {Name : Type} [DecidableEq Name]
variable {U : Type} [URA U] {Lvl : Type}
variable (c : Thread nD τ) {sp : Space} {s : Shape} {e : EltTy}

local notation "𝕄" => MT nD τ sig Ix Val Name U Lvl

/-- The elements of a memref under a list of rectangles. -/
def rectsSet (m : Memref sig c.2.kind sp s e) : List (Rect s) → Finset (Idx (m.view.loc c))
  | [] => ∅
  | r :: L => (m.access r).set ∪ rectsSet m L

/-- Each rectangle of the list held by itself at contents `X`. -/
def heldAt (m : Memref sig c.2.kind sp s e) (q : PosShare TreeShare) (X : Buf Val (m.view.loc c)) : List (Rect s) → sProp 𝕄
  | [] => emp
  | r :: L => iprop(((m.access r).loc c ↦[(m.access r).set]{q} X) ∗ heldAt m q X L)

theorem rectsSet_subset (m : Memref sig c.2.kind sp s e) : ∀ L : List (Rect s), rectsSet c m L ⊆ m.view.set
  | [] => Finset.empty_subset _
  | _ :: L => Finset.union_subset (View.set_slice_subset _ _) (rectsSet_subset m L)

theorem disjoint_rectsSet (m : Memref sig c.2.kind sp s e) (r : Rect s) :
    ∀ L : List (Rect s), (∀ r' ∈ L, Disjoint (m.access r).set (m.access r').set) → Disjoint (m.access r).set (rectsSet c m L)
  | [], _ => Finset.disjoint_empty_right _
  | r' :: L, hd => Finset.disjoint_union_right.mpr
      ⟨hd r' List.mem_cons_self, disjoint_rectsSet m r L fun r'' h => hd r'' (List.mem_cons_of_mem _ h)⟩

/-- The elements under pairwise disjoint rectangles, at `X`, are the rectangles held one by one at `X`. -/
theorem heldAt_of_pointsTo (m : Memref sig c.2.kind sp s e) (q : PosShare TreeShare) (X : Buf Val (m.view.loc c)) :
    ∀ L : List (Rect s), L.Pairwise (fun r r' => Disjoint (m.access r).set (m.access r').set) →
      ((m.view.loc c ↦[rectsSet c m L]{q} X : sProp 𝕄) ⊢ heldAt c m q X L)
  | [], _ => by unfold heldAt rectsSet; rw [pointsTo_empty]
  | r :: L, hp => by
    obtain ⟨hd, hL⟩ := List.pairwise_cons.mp hp
    unfold heldAt rectsSet
    exact (pointsTo_union (disjoint_rectsSet c m r L hd)).1.trans (sep_mono_right (heldAt_of_pointsTo m q X L hL))

/-- And back. -/
theorem pointsTo_of_heldAt (m : Memref sig c.2.kind sp s e) (q : PosShare TreeShare) (X : Buf Val (m.view.loc c)) :
    ∀ L : List (Rect s), L.Pairwise (fun r r' => Disjoint (m.access r).set (m.access r').set) →
      (heldAt c m q X L ⊢ (m.view.loc c ↦[rectsSet c m L]{q} X : sProp 𝕄))
  | [], _ => by unfold heldAt rectsSet; rw [pointsTo_empty]
  | r :: L, hp => by
    obtain ⟨hd, hL⟩ := List.pairwise_cons.mp hp
    unfold heldAt rectsSet
    exact (sep_mono_right (pointsTo_of_heldAt m q X L hL)).trans (pointsTo_union (disjoint_rectsSet c m r L hd)).2

/-- The whole view at `X`: the rectangles one by one and the rest, all at `X`. -/
theorem split (m : Memref sig c.2.kind sp s e) (q : PosShare TreeShare) (X : Buf Val (m.view.loc c)) (L : List (Rect s))
    (hp : L.Pairwise (fun r r' => Disjoint (m.access r).set (m.access r').set)) :
    (m.view.loc c ↦[m.view.set]{q} X : sProp 𝕄) ⊢ iprop(heldAt c m q X L ∗ (m.view.loc c ↦[m.view.set \ rectsSet c m L]{q} X)) :=
  (pointsTo_split_subset (rectsSet_subset c m L)).1.trans (sep_mono_left (heldAt_of_pointsTo c m q X L hp))

theorem join (m : Memref sig c.2.kind sp s e) (q : PosShare TreeShare) (X : Buf Val (m.view.loc c)) (L : List (Rect s))
    (hp : L.Pairwise (fun r r' => Disjoint (m.access r).set (m.access r').set)) :
    iprop(heldAt c m q X L ∗ (m.view.loc c ↦[m.view.set \ rectsSet c m L]{q} X)) ⊢ (m.view.loc c ↦[m.view.set]{q} X : sProp 𝕄) :=
  (sep_mono_left (pointsTo_of_heldAt c m q X L hp)).trans (pointsTo_split_subset (rectsSet_subset c m L)).2

/-- info: 'Cert.Pieces.split' depends on axioms: [propext, Classical.choice, Quot.sound] -/
#guard_msgs in #print axioms split
/-- info: 'Cert.Pieces.join' depends on axioms: [propext, Classical.choice, Quot.sound] -/
#guard_msgs in #print axioms join

end Cert.Pieces

end
-- ==== Proof.BodyRules.lean ====
/-
  The steps of one device's body under the schedule: the local copy of a chunk into the scratch, the copy of a chunk
  of the result into the partner's buffer, and the small facts about rectangles the loads and stores need.
-/
import proofs.«900410_g7700000000000411_dist_ag_v7x_xyz2x4x4_x_m1024_n512_bf16_1_alg».proof.Proof.Sched
import proofs.«900410_g7700000000000411_dist_ag_v7x_xyz2x4x4_x_m1024_n512_bf16_1_alg».proof.Proof.LibPieces
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-! ## The store's rectangle is the copy's -/

/-- The rectangle the body stores chunk `r` through (the printed store's offsets). -/
abbrev stRect (d : Dev nD) (r : Fin 4) : Rect S2048x512 := Rect.unit (s := S2048x512) (k0_off1 d (rowWord r)) S256x512.size (k0_off1_inb d r)

theorem off1_eq_off2 (d : Dev nD) (r : Fin 4) : k0_off1 d (rowWord r) = k0_off2 d (rowWord r) := (k0_off1_eq d r).trans (k0_off2_eq d r).symm

omit [FloatOps F] in
theorem unit_congr {Val : EltTy → Type} {off off' : Fin 2 → Nat} (h : off = off') (inb : ∀ a, off a + S256x512.size a ≤ S2048x512.size a)
    (inb' : ∀ a, off' a + S256x512.size a ≤ S2048x512.size a) (c : Dev nD) (f : Buf Val ((c : Thread nD τ).loc cc0_stg0_0)) (w : S256x512.Idx → Val .bf16) :
    (stgM.access (Rect.unit (s := S2048x512) off S256x512.size inb)).set = (stgM.access (Rect.unit (s := S2048x512) off' S256x512.size inb')).set
    ∧ (stgM.access (Rect.unit (s := S2048x512) off S256x512.size inb)).write Val f w Finset.univ
        = (stgM.access (Rect.unit (s := S2048x512) off' S256x512.size inb')).write Val f w Finset.univ := by
  subst h; exact ⟨rfl, rfl⟩

theorem stRect_set (d : Dev nD) (r : Fin 4) : (stgM.access (stRect d r)).set = (outM d r).view.set :=
  (unit_congr (Val := fun _ => PUnit) (off1_eq_off2 d r) _ _ d (fun _ => ⟨⟩) (fun _ => ⟨⟩)).1

theorem stRect_write (c d : Dev nD) (r : Fin 4) (f : Buf (Elt F) ((c : Thread nD τ).loc cc0_stg0_0)) (w : S256x512.Idx → Elt F .bf16) :
    (stgM.access (stRect d r)).write (Elt F) f w Finset.univ = (outM d r).view.write (Elt F) f w Finset.univ :=
  (unit_congr (off1_eq_off2 d r) _ _ c f w).2

/-! ## The steps -/

section Steps
variable (c : Dev nD) (r : Fin 4)

/-- The local copy of chunk `r` of the device's rows into its scratch pays the input cell's duty. -/
theorem wp_in {hsrc : (inSrc r).view.WordExact} {hdst : (inDst r).view.WordExact}
    {hsem : DmaTarget.Typed (nD := nD) .hbm (.dma (inSem r)) (DmaTarget.here (nD := nD) (τ := τ) (p := (c : Thread nD τ).2) (inDst r))}
    {α : Type} {Q : α → sProp 𝕄} {k : PUnit → Prog (TpuEff nD τ sig (Elt F) Λ₀ .tc) α} (κ : ℕ)
    (fd : Buf (Elt F) ((inDst r).view.loc (c : Thread nD τ))) :
    iprop(cellInv ER (agRd m) κ (inCell c r)
        ∗ ((inSrc r).view.loc (c : Thread nD τ) ↦[(inSrc r).view.set]{fullShare} xs m c)
        ∗ ((inDst r).view.loc (c : Thread nD τ) ↦[(inDst r).view.set]{fullShare} fd)
        ∗ dutyTok ER (inCell c r) 0 () ∗ reached ER (inCell c r) 0)
      ⊢ iprop((cred (tallyAt (inCell c r) () Nin) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (inSrc r) (.here (inDst r)) (.dma (inSem r)) hsrc hdst hsem) k) Q) :=
  Rounds.wp_copy_pointsTo 𝒱₀ ER (agRd m) (c : Thread nD τ) none (κ := κ) (r := 0) (d := ()) (fd := fd)
    (by rw [duties_in]; exact Finset.mem_singleton_self _) () Nin rfl (amount_in m c r ())
    (by rw [payload_in]; unfold inPay
        iintro ⟨Hd, Hs⟩
        isplitl [Hd]; · iexists fd; iexact Hd
        iexact Hs)

theorem recvPay_peer : recvPay m (peer c) r = outHolds m (peer c) c r := by unfold recvPay; rw [peer_peer]

/-- The copy of chunk `r` of the device's half into the partner's buffer (addressed to `n = peer c`) pays its own send
    cell's duty and the partner's receive cell's. -/
theorem wp_send_chunk (n : Dev nD) (hn : n = peer c)
    {hsc : (outM c r : Memref sig (Dev.tc n : Thread nD τ).2.kind .vmem S256x512 .bf16).view.ref.isScScratch = false}
    {hsrc : (outM c r).view.WordExact} {hdst : (outM c r).view.WordExact}
    {hsem : DmaTarget.Typed .vmem (.dma (recvSem r)) (.remote (Dev.tc n : Thread nD τ) (outM c r) (.dma (sendSem r)) hsc)}
    {α : Type} {Q : α → sProp 𝕄} {k : PUnit → Prog (TpuEff nD τ sig (Elt F) Λ₀ .tc) α} (κ₁ κ₂ : ℕ)
    (f : Buf (Elt F) ((outM c r).view.loc (c : Thread nD τ))) (fn : Buf (Elt F) ((outM c r).view.loc (peer c : Thread nD τ)))
    (O : CellTallies nD τ sig Unit) (W : Waits sig Unit) :
    iprop(cellInv ER (agRd m) κ₁ (sendCell c r) ∗ cellInv ER (agRd m) κ₂ (recvCell (peer c) r)
        ∗ outPts c c r ((outM c r).view.write (Elt F) f (pay m c r) Finset.univ) ∗ outPts (peer c) c r fn
        ∗ owes (c : Thread nD τ) (O + tallyAt (recvCell (peer c) r) () Nout) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () Nout) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outM c r) (.remote (Dev.tc n : Thread nD τ) (outM c r) (.dma (sendSem r)) hsc) (.dma (recvSem r)) hsrc hdst hsem) k) Q) := by
  subst hn
  unfold outPts
  exact Rounds.wp_send_pointsTo 𝒱₀ ER (agRd m) (c : Thread nD τ) none (κ₁ := κ₁) (κ₂ := κ₂)
    (r₁ := 0) (r₂ := 0) (d₁ := ()) (d₂ := ()) (fd := fn)
    (by rw [duties_send]; exact Finset.mem_singleton_self _) (by rw [duties_recv]; exact Finset.mem_singleton_self _)
    () () Nout rfl (amount_send m c r ()) (amount_recv m (peer c) r ()) O rfl (W := W)
    (by rw [payload_send]; unfold sendPay outHolds outPts
        iintro H; iexists f; iexact H)
    (by rw [payload_recv, recvPay_peer]; unfold outHolds outPts
        rw [View.read_write_univ]
        iintro H; iexists fn; iexact H)

end Steps

end Cert.KernelIdeal.AG

end
-- ==== Proof.BodyPrep.lean ====
/-
  What one device holds while it runs, and how its three buffers are cut along the chunks: its own rows (the copies'
  sources), its scratch (their destinations) and the result buffer — its own four chunks, which it stores and sends,
  and the partner's four, whose slots it gives to the partner at the handshake and gets back filled.
-/
import proofs.«900410_g7700000000000411_dist_ag_v7x_xyz2x4x4_x_m1024_n512_bf16_1_alg».proof.Proof.BodyRules
import Idealize.ShloMosaic.Lib.ValueIdx
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- The device of the pair `{c, peer c}` whose first mesh coordinate is `b` (taken mod 2). -/
def own (c : Dev nD) (b : ℕ) : Dev nD := ⟨16 * (b % 2) + c.val % 16, by show 16 * (b % 2) + c.val % 16 < 32; omega⟩

theorem own_self (c : Dev nD) : own c (c.val / 16) = c := by revert c; decide
theorem own_peer (c : Dev nD) : own c ((peer c).val / 16) = peer c := by revert c; decide
theorem own_of_peer (c : Dev nD) (b : ℕ) : own (peer c) b = own c b :=
  Fin.ext (by show 16 * (b % 2) + ((c.val + 16) % 32) % 16 = 16 * (b % 2) + c.val % 16; omega)
theorem half_le (c : Dev nD) : c.val / 16 ≤ 1 := by have := c.isLt; (have : c.val < 32 := this); omega
theorem peer_half (c : Dev nD) : (peer c).val / 16 = 1 - c.val / 16 := by revert c; decide

/-- What every device of a pair ends with in its result buffer: row `y₀` is row `y₀ mod 1024` of the rows of the
    device of the pair at first coordinate `y₀ / 1024`, each element cast to the result's format. -/
def outAt (c : Dev nD) : (cc0_stg0_0 : Ref sig .tc).ty.Contents (Elt F) := fun y =>
  FloatOps.truncf .bf16 bitsLt_bf16_f32
    (xs m (own c ((y 0).val / 1024)) (ValueIdx.ix2 (n0 := 1024) (n1 := 512) ⟨(y 0).val % 1024, Nat.mod_lt _ (by decide)⟩ (y 1)))

/-- The eight chunks of the result as writes: a device's own four, then its partner's four. -/
def outPieces (c : Dev nD) : List (View.Piece (Elt F) S2048x512 .bf16) :=
  [⟨outRect c 0, pay m c 0⟩, ⟨outRect c 1, pay m c 1⟩, ⟨outRect c 2, pay m c 2⟩, ⟨outRect c 3, pay m c 3⟩,
   ⟨outRect (peer c) 0, pay m (peer c) 0⟩, ⟨outRect (peer c) 1, pay m (peer c) 1⟩, ⟨outRect (peer c) 2, pay m (peer c) 2⟩, ⟨outRect (peer c) 3, pay m (peer c) 3⟩]

abbrev outRects (c : Dev nD) : List (Rect S2048x512) :=
  [outRect c 0, outRect c 1, outRect c 2, outRect c 3, outRect (peer c) 0, outRect (peer c) 1, outRect (peer c) 2, outRect (peer c) 3]
abbrev inRects : List (Rect S1024x512) := [inRect 0, inRect 1, inRect 2, inRect 3]

/-- The chunks of the scratch as the local copies leave them. -/
def inPieces (c : Dev nD) : List (View.Piece (Elt F) S1024x512 .f32) :=
  [⟨inRect 0, (inSrc 0).view.read (Elt F) (xs m c)⟩, ⟨inRect 1, (inSrc 1).view.read (Elt F) (xs m c)⟩,
   ⟨inRect 2, (inSrc 2).view.read (Elt F) (xs m c)⟩, ⟨inRect 3, (inSrc 3).view.read (Elt F) (xs m c)⟩]

/-! ## Disjoint chunks -/

theorem pairwise4 {α : Type} (R : α → α → Prop) (a0 a1 a2 a3 : α) (h01 : R a0 a1) (h02 : R a0 a2) (h03 : R a0 a3)
    (h12 : R a1 a2) (h13 : R a1 a3) (h23 : R a2 a3) : [a0, a1, a2, a3].Pairwise R := by
  refine List.Pairwise.cons ?_ (List.Pairwise.cons ?_ (List.Pairwise.cons ?_ (List.Pairwise.cons ?_ List.Pairwise.nil)))
  · intro a ha; simp only [List.mem_cons, List.not_mem_nil, or_false] at ha; rcases ha with rfl | rfl | rfl <;> assumption
  · intro a ha; simp only [List.mem_cons, List.not_mem_nil, or_false] at ha; rcases ha with rfl | rfl <;> assumption
  · intro a ha; simp only [List.mem_cons, List.not_mem_nil, or_false] at ha; rcases ha with rfl; assumption
  · intro a ha; exact absurd ha List.not_mem_nil

theorem inRect_set_disj (r r' : Fin 4) (h : r ≠ r') : Disjoint (inRect r).set (inRect r').set :=
  Rect.unit_disjoint 0 (by revert r r'; decide)

theorem arg_disj (r r' : Fin 4) (h : r ≠ r') : Disjoint (argM.access (inRect r)).set (argM.access (inRect r')).set := by
  show Disjoint ((View.whole main_arg0).slice (inRect r)).set ((View.whole main_arg0).slice (inRect r')).set
  rw [View.set_slice_whole, View.set_slice_whole]; exact inRect_set_disj r r' h
theorem scr_disj (r r' : Fin 4) (h : r ≠ r') : Disjoint (scrM.access (inRect r)).set (scrM.access (inRect r')).set := by
  show Disjoint ((View.whole cc0_scratch0).slice (inRect r)).set ((View.whole cc0_scratch0).slice (inRect r')).set
  rw [View.set_slice_whole, View.set_slice_whole]; exact inRect_set_disj r r' h

theorem arg_pairwise : inRects.Pairwise (fun r r' => Disjoint (argM.access r).set (argM.access r').set) :=
  pairwise4 _ _ _ _ _ (arg_disj 0 1 (by decide)) (arg_disj 0 2 (by decide)) (arg_disj 0 3 (by decide))
    (arg_disj 1 2 (by decide)) (arg_disj 1 3 (by decide)) (arg_disj 2 3 (by decide))
theorem scr_pairwise : inRects.Pairwise (fun r r' => Disjoint (scrM.access r).set (scrM.access r').set) :=
  pairwise4 _ _ _ _ _ (scr_disj 0 1 (by decide)) (scr_disj 0 2 (by decide)) (scr_disj 0 3 (by decide))
    (scr_disj 1 2 (by decide)) (scr_disj 1 3 (by decide)) (scr_disj 2 3 (by decide))

/-- Two chunks of the result whose row ranges do not meet. -/
theorem out_disj (d d' : Dev nD) (r r' : Fin 4)
    (h : 1024 * (d.val / 16) + 256 * r.val + 256 ≤ 1024 * (d'.val / 16) + 256 * r'.val
      ∨ 1024 * (d'.val / 16) + 256 * r'.val + 256 ≤ 1024 * (d.val / 16) + 256 * r.val) :
    Disjoint (stgM.access (outRect d r)).set (stgM.access (outRect d' r')).set := by
  show Disjoint ((View.whole cc0_stg0_0).slice (outRect d r)).set ((View.whole cc0_stg0_0).slice (outRect d' r')).set
  rw [View.set_slice_whole, View.set_slice_whole]
  refine Rect.unit_disjoint 0 ?_
  rw [k0_off2_eq d r, k0_off2_eq d' r']
  exact h

theorem out_disj_same (d : Dev nD) (r r' : Fin 4) (h : r ≠ r') : Disjoint (stgM.access (outRect d r)).set (stgM.access (outRect d r')).set :=
  out_disj d d r r' (by
    have h' : r.val ≠ r'.val := fun e => h (Fin.ext e)
    omega)
theorem out_disj_cross (c : Dev nD) (r r' : Fin 4) : Disjoint (stgM.access (outRect c r)).set (stgM.access (outRect (peer c) r')).set :=
  out_disj c (peer c) r r' (by
    have h1 := peer_half c; have h2 := half_le c; have := r.isLt; have := r'.isLt
    omega)

theorem out_pairwise (c : Dev nD) : (outRects c).Pairwise (fun r r' => Disjoint (stgM.access r).set (stgM.access r').set) := by
  show ([outRect c 0, outRect c 1, outRect c 2, outRect c 3] ++ [outRect (peer c) 0, outRect (peer c) 1, outRect (peer c) 2, outRect (peer c) 3]).Pairwise _
  rw [List.pairwise_append]
  refine ⟨pairwise4 _ _ _ _ _ (out_disj_same c 0 1 (by decide)) (out_disj_same c 0 2 (by decide)) (out_disj_same c 0 3 (by decide))
      (out_disj_same c 1 2 (by decide)) (out_disj_same c 1 3 (by decide)) (out_disj_same c 2 3 (by decide)),
    pairwise4 _ _ _ _ _ (out_disj_same _ 0 1 (by decide)) (out_disj_same _ 0 2 (by decide)) (out_disj_same _ 0 3 (by decide))
      (out_disj_same _ 1 2 (by decide)) (out_disj_same _ 1 3 (by decide)) (out_disj_same _ 2 3 (by decide)), ?_⟩
  intro a ha b hb
  simp only [List.mem_cons, List.not_mem_nil, or_false] at ha hb
  rcases ha with rfl | rfl | rfl | rfl <;> rcases hb with rfl | rfl | rfl | rfl <;> exact out_disj_cross c _ _

theorem scr_pairwise_pieces (c : Dev nD) :
    (inPieces m c).Pairwise (fun p p' => Disjoint (scrM.access p.1).set (scrM.access p'.1).set) :=
  List.pairwise_map.mp (show ((inPieces m c).map Sigma.fst).Pairwise _ from scr_pairwise)
theorem out_pairwise_pieces (c : Dev nD) :
    (outPieces m c).Pairwise (fun p p' => Disjoint (stgM.access p.1).set (stgM.access p'.1).set) :=
  List.pairwise_map.mp (show ((outPieces m c).map Sigma.fst).Pairwise _ from out_pairwise c)

/-! ## The buffers cut and rejoined -/

omit [FloatOps F] in
theorem whole_eq (b : Ref sig .tc) (c : Dev nD) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  show ((View.loc (c : Thread nD τ) (View.whole b)) ↦[(View.whole b).set]{fullShare} f : sProp 𝕄) = _
  rw [View.set_whole]

/-- What is left of a buffer once the chunks are carved out of it (nothing, in fact; never needed). -/
abbrev argRest (c : Dev nD) (X : Buf (Elt F) ((c : Thread nD τ).loc main_arg0)) : sProp 𝕄 :=
  argM.view.loc (c : Thread nD τ) ↦[argM.view.set \ Cert.Pieces.rectsSet (c : Thread nD τ) argM inRects]{fullShare} X
abbrev scrRest (c : Dev nD) (X : Buf (Elt F) ((c : Thread nD τ).loc cc0_scratch0)) : sProp 𝕄 :=
  scrM.view.loc (c : Thread nD τ) ↦[scrM.view.set \ Cert.Pieces.rectsSet (c : Thread nD τ) scrM inRects]{fullShare} X
abbrev stgRest (c : Dev nD) (X : Buf (Elt F) ((c : Thread nD τ).loc cc0_stg0_0)) : sProp 𝕄 :=
  stgM.view.loc (c : Thread nD τ) ↦[stgM.view.set \ Cert.Pieces.rectsSet (c : Thread nD τ) stgM (outRects c)]{fullShare} X

abbrev argChunk (c : Dev nD) (r : Fin 4) (X : Buf (Elt F) ((c : Thread nD τ).loc main_arg0)) : sProp 𝕄 :=
  (inSrc r).view.loc (c : Thread nD τ) ↦[(inSrc r).view.set]{fullShare} X
abbrev scrChunk (c : Dev nD) (r : Fin 4) (X : Buf (Elt F) ((c : Thread nD τ).loc cc0_scratch0)) : sProp 𝕄 :=
  (inDst r).view.loc (c : Thread nD τ) ↦[(inDst r).view.set]{fullShare} X

omit [FloatOps F] in
theorem arg_split (c : Dev nD) (X : Buf (Elt F) ((c : Thread nD τ).loc main_arg0)) :
    ((((c : Thread nD τ).loc main_arg0) ↦{fullShare} X) : sProp 𝕄)
      ⊢ iprop(argChunk c 0 X ∗ argChunk c 1 X ∗ argChunk c 2 X ∗ argChunk c 3 X ∗ argRest c X) := by
  rw [← whole_eq]
  refine (Cert.Pieces.split (c : Thread nD τ) argM fullShare X inRects arg_pairwise).trans ?_
  unfold Cert.Pieces.heldAt Cert.Pieces.heldAt Cert.Pieces.heldAt Cert.Pieces.heldAt Cert.Pieces.heldAt
  iintro ⟨⟨H0, H1, H2, H3, -⟩, Hr⟩
  isplitl [H0]; · iexact H0
  isplitl [H1]; · iexact H1
  isplitl [H2]; · iexact H2
  isplitl [H3]; · iexact H3
  iexact Hr

omit [FloatOps F] in
theorem arg_join (c : Dev nD) (X : Buf (Elt F) ((c : Thread nD τ).loc main_arg0)) :
    iprop(argChunk c 0 X ∗ argChunk c 1 X ∗ argChunk c 2 X ∗ argChunk c 3 X ∗ argRest c X)
      ⊢ ((((c : Thread nD τ).loc main_arg0) ↦{fullShare} X) : sProp 𝕄) := by
  rw [← whole_eq]
  refine BIBase.Entails.trans ?_ (Cert.Pieces.join (c : Thread nD τ) argM fullShare X inRects arg_pairwise)
  unfold Cert.Pieces.heldAt Cert.Pieces.heldAt Cert.Pieces.heldAt Cert.Pieces.heldAt Cert.Pieces.heldAt
  iintro ⟨H0, H1, H2, H3, Hr⟩
  isplitr [Hr]
  · isplitl [H0]; · iexact H0
    isplitl [H1]; · iexact H1
    isplitl [H2]; · iexact H2
    isplitl [H3]; · iexact H3
    iempintro
  · iexact Hr

omit [FloatOps F] in
theorem scr_split (c : Dev nD) (X : Buf (Elt F) ((c : Thread nD τ).loc cc0_scratch0)) :
    ((((c : Thread nD τ).loc cc0_scratch0) ↦{fullShare} X) : sProp 𝕄)
      ⊢ iprop(scrChunk c 0 X ∗ scrChunk c 1 X ∗ scrChunk c 2 X ∗ scrChunk c 3 X ∗ scrRest c X) := by
  rw [← whole_eq]
  refine (Cert.Pieces.split (c : Thread nD τ) scrM fullShare X inRects scr_pairwise).trans ?_
  unfold Cert.Pieces.heldAt Cert.Pieces.heldAt Cert.Pieces.heldAt Cert.Pieces.heldAt Cert.Pieces.heldAt
  iintro ⟨⟨H0, H1, H2, H3, -⟩, Hr⟩
  isplitl [H0]; · iexact H0
  isplitl [H1]; · iexact H1
  isplitl [H2]; · iexact H2
  isplitl [H3]; · iexact H3
  iexact Hr

/-- Chunk `r` of the scratch as the local copy left it. -/
abbrev scrLanded (c : Dev nD) (r : Fin 4) : sProp 𝕄 :=
  iprop(∃ f, (inDst r).view.loc (c : Thread nD τ) ↦[(inDst r).view.set]{fullShare}
    (inDst r).view.write (Elt F) f ((inSrc r).view.read (Elt F) (xs m c)) Finset.univ)

theorem scr_join (c : Dev nD) (X : Buf (Elt F) ((c : Thread nD τ).loc cc0_scratch0)) :
    iprop(scrLanded m c 0 ∗ scrLanded m c 1 ∗ scrLanded m c 2 ∗ scrLanded m c 3 ∗ scrRest c X)
      ⊢ (iprop(∃ g, ((c : Thread nD τ).loc cc0_scratch0) ↦{fullShare} g) : sProp 𝕄) := by
  iintro ⟨H0, H1, H2, H3, Hr⟩
  iexists scrM.view.writes (Elt F) X (inPieces m c)
  rw [← whole_eq]
  iapply (Memref.heldBySlice_join_rest (c : Thread nD τ) scrM fullShare (inPieces m c) (scr_pairwise_pieces m c) X)
  unfold inPieces Memref.heldBySlice Memref.heldBySlice Memref.heldBySlice Memref.heldBySlice Memref.heldBySlice
  isplitr [Hr]
  · isplitl [H0]; · iexact H0
    isplitl [H1]; · iexact H1
    isplitl [H2]; · iexact H2
    isplitl [H3]; · iexact H3
    iempintro
  · iexact Hr

omit [FloatOps F] in
theorem stg_split (c : Dev nD) (X : Buf (Elt F) ((c : Thread nD τ).loc cc0_stg0_0)) :
    ((((c : Thread nD τ).loc cc0_stg0_0) ↦{fullShare} X) : sProp 𝕄)
      ⊢ iprop((outPts c c 0 X ∗ outPts c c 1 X ∗ outPts c c 2 X ∗ outPts c c 3 X)
          ∗ (outPts c (peer c) 0 X ∗ outPts c (peer c) 1 X ∗ outPts c (peer c) 2 X ∗ outPts c (peer c) 3 X) ∗ stgRest c X) := by
  rw [← whole_eq]
  refine (Cert.Pieces.split (c : Thread nD τ) stgM fullShare X (outRects c) (out_pairwise c)).trans ?_
  unfold Cert.Pieces.heldAt Cert.Pieces.heldAt Cert.Pieces.heldAt Cert.Pieces.heldAt Cert.Pieces.heldAt Cert.Pieces.heldAt Cert.Pieces.heldAt Cert.Pieces.heldAt Cert.Pieces.heldAt
  unfold outPts
  iintro ⟨⟨H0, H1, H2, H3, H4, H5, H6, H7, -⟩, Hr⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  iexact Hr

/-- The eight chunks filled, and what was left: the result buffer whole, holding the chunks written over what it held. -/
theorem stg_join (c : Dev nD) (X : Buf (Elt F) ((c : Thread nD τ).loc cc0_stg0_0)) :
    iprop((outHolds m c c 0 ∗ outHolds m c c 1 ∗ outHolds m c c 2 ∗ outHolds m c c 3)
        ∗ (outHolds m c (peer c) 0 ∗ outHolds m c (peer c) 1 ∗ outHolds m c (peer c) 2 ∗ outHolds m c (peer c) 3) ∗ stgRest c X)
      ⊢ ((((c : Thread nD τ).loc cc0_stg0_0) ↦{fullShare} stgM.view.writes (Elt F) X (outPieces m c)) : sProp 𝕄) := by
  rw [← whole_eq]
  refine BIBase.Entails.trans ?_ (Memref.heldBySlice_join_rest (c : Thread nD τ) stgM fullShare (outPieces m c) (out_pairwise_pieces m c) X)
  unfold outPieces Memref.heldBySlice Memref.heldBySlice Memref.heldBySlice Memref.heldBySlice Memref.heldBySlice Memref.heldBySlice Memref.heldBySlice Memref.heldBySlice Memref.heldBySlice
  unfold outHolds outPts
  iintro ⟨⟨H0, H1, H2, H3⟩, ⟨H4, H5, H6, H7⟩, Hr⟩
  isplitr [Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · iexact Hr

end Cert.KernelIdeal.AG

end
-- ==== Proof.BodyDefs.lean ====
/-
  One device's body, stepped from what the launch hands it: the four local copies of its rows into the scratch, the
  handshake with the partner, then chunk by chunk the wait for the local copy, the cast and the store into its half of the
  result, and the copy of that chunk into the partner's buffer; at the end the waits for its four sends and for the
  partner's four chunks, the cells closed and the three buffers put together again.
-/
import proofs.«900410_g7700000000000411_dist_ag_v7x_xyz2x4x4_x_m1024_n512_bf16_1_alg».proof.Proof.BodyPrep
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells by number; what a device starts from -/

/-- A device's thirteen cells by number: 0 the barrier, 1–4 input, 5–8 send, 9–12 receive. -/
abbrev csem : Fin 13 → SemLoc sig := fun k => if k.val = 0 then .reg barS else .dma ⟨k.val, k.isLt⟩
abbrev kcell (ck : Dev nD × Fin 13) : GSem nD τ sig := ((ck.1 : Thread nD τ), csem ck.2)

example (c : Dev nD) : kcell (c, 0) = barCell c := rfl
example (c : Dev nD) : kcell (c, 2) = inCell c 1 := rfl
example (c : Dev nD) : kcell (c, 5) = sendCell c 0 := rfl
example (c : Dev nD) : kcell (c, 12) = recvCell c 3 := rfl

/-- The kernel's own (scoped) semaphores as the launch indexes them: DMA semaphores 1–12. -/
abbrev osem : Fin 12 → SemLoc sig := fun k => .dma ⟨k.val + 1, by have := k.isLt; show k.val + 1 < 13; omega⟩

section Ghost
variable (K : Dev nD × Fin 13 → ℕ)

/-- The invariants of the device's thirteen cells and of its partner's. -/
def invs (c : Dev nD) : sProp 𝕄 :=
  iprop((bigSep Finset.univ fun k : Fin 13 => cellInv ER (agRd m) (K (c, k)) (kcell (c, k)))
    ∗ (bigSep Finset.univ fun k : Fin 13 => cellInv ER (agRd m) (K (peer c, k)) (kcell (peer c, k))))
/-- Round 0 of all of them is reached. -/
def marks (c : Dev nD) : sProp 𝕄 :=
  iprop((bigSep Finset.univ fun k : Fin 13 => reached ER (kcell (c, k)) 0) ∗ (bigSep Finset.univ fun k : Fin 13 => reached ER (kcell (peer c, k)) 0))
/-- The device's position on each of its cells: round 0, nothing taken. -/
def poss (c : Dev nD) : sProp 𝕄 := bigSep Finset.univ fun k : Fin 13 => atPos ER (kcell (c, k)) 0 ∅ 0
/-- The tokens of the duties the device pays: the partner's barrier and four receive cells, its own input and send cells. -/
def payToks (c : Dev nD) : sProp 𝕄 :=
  iprop(dutyTok ER (barCell (peer c)) 0 () ∗ (bigSep Finset.univ fun r : Fin 4 => dutyTok ER (recvCell (peer c) r) 0 ())
    ∗ (bigSep Finset.univ fun r : Fin 4 => dutyTok ER (inCell c r) 0 ()) ∗ (bigSep Finset.univ fun r : Fin 4 => dutyTok ER (sendCell c r) 0 ()))

instance invs_persistent (c : Dev nD) : BI.Persistent (invs m K c) := by unfold invs; infer_instance
instance marks_persistent (c : Dev nD) : BI.Persistent (marks (F := F) c) := by unfold marks; infer_instance

def ghost (c : Dev nD) : sProp 𝕄 := iprop(invs m K c ∗ marks c ∗ poss c ∗ payToks c)

theorem inv_at (c : Dev nD) (k : Fin 13) :
    (bigSep Finset.univ fun k : Fin 13 => (cellInv ER (agRd m) (K (c, k)) (kcell (c, k)) : sProp 𝕄)) ⊢ cellInv ER (agRd m) (K (c, k)) (kcell (c, k)) :=
  bigSep_elim (Finset.mem_univ k)
omit [FloatOps F] in
theorem reached_at (c : Dev nD) (k : Fin 13) :
    (bigSep Finset.univ fun k : Fin 13 => (reached ER (kcell (c, k)) 0 : sProp 𝕄)) ⊢ reached ER (kcell (c, k)) 0 :=
  bigSep_elim (Finset.mem_univ k)

end Ghost

/-- The launch credit: the partner's unit on the barrier, a chunk's credit on each receive cell. -/
def creds (c : Dev nD) : sProp 𝕄 :=
  iprop(cred (tallyAt (barCell c) () 1) ∗ bigSep Finset.univ fun r : Fin 4 => cred (tallyAt (recvCell c r) () Nout))
/-- The device's own rows, as launched. -/
def argPts (c : Dev nD) : sProp 𝕄 := ((c : Thread nD τ).loc main_arg0) ↦{fullShare} xs m c
def scrAny (c : Dev nD) : sProp 𝕄 := iprop(∃ f, ((c : Thread nD τ).loc cc0_scratch0) ↦{fullShare} f)

def start (c : Dev nD) : sProp 𝕄 := iprop((∃ K, ghost m K c) ∗ creds (F := F) c ∗ levAts L lv ∗ argPts m c)
def Φ₀ (c : Dev nD) : sProp 𝕄 := iprop(start m c ∗ scrAny c)
/-- After the body: the rows unchanged, the scratch at anything, the twelve own counters at zero. -/
def Φ₁ (c : Dev nD) : sProp 𝕄 :=
  iprop(argPts m c ∗ scrAny (F := F) c ∗ bigSep Finset.univ fun k : Fin 12 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 13 → ℕ)

def bodyPre (c : Dev nD) : sProp 𝕄 :=
  iprop((ghost m K c ∗ creds (F := F) c ∗ levAts L lv ∗ argPts m c ∗ scrAny c)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (outAt m c))

end Body

end Cert.KernelIdeal.AG

end
-- ==== Proof.OutValue.lean ====
/-
  What the eight chunk writes leave in the result buffer, whatever it held before: the closed form `outAt`.
  Row `y₀` of the buffer lies in chunk `(y₀ mod 1024) / 256` of the half `y₀ / 1024`; the device of the pair holding that
  half wrote (or sent) there row `y₀ mod 1024` of its own rows, cast.
-/
import proofs.«900410_g7700000000000411_dist_ag_v7x_xyz2x4x4_x_m1024_n512_bf16_1_alg».proof.Proof.BodyPrep
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A device's rows read at an index do not depend on how the device is spelt. -/
theorem xs_congr {d d' : Dev nD} (h : d' = d) (i : S1024x512.Idx) : xs m d' i = xs m d i := by subst h; rfl

theorem inOff_zero (r : Fin 4) : inOff r 0 = 256 * r.val := by revert r; decide
theorem inOff_one (r : Fin 4) : inOff r 1 = 0 := by revert r; decide

/-- The element of chunk `(d, r)` at `x`, read off the closed form, is the chunk's payload at `x`. -/
theorem outAt_emb (c d : Dev nD) (hd : own c (d.val / 16) = d) (r : Fin 4) (x : S256x512.Idx) :
    outAt m c ((outRect d r).emb x) = pay m d r x := by
  have hx0 : (x 0).val < 256 := (x 0).isLt
  have hr := r.isLt
  have hh := half_le d
  have hy0 : (((outRect d r).emb x) 0).val = 1024 * (d.val / 16) + 256 * r.val + (x 0).val := by
    rw [Rect.emb_apply]
    show (k0_off2 d (rowWord r)) 0 + 1 * (x 0).val = _
    rw [k0_off2_eq d r]
    show 1024 * (d.val / 16) + 256 * r.val + 1 * (x 0).val = _
    omega
  have hy1 : (((outRect d r).emb x) 1).val = (x 1).val := by
    rw [Rect.emb_apply]
    show (k0_off2 d (rowWord r)) 1 + 1 * (x 1).val = _
    rw [k0_off2_eq d r]
    show 0 + 1 * (x 1).val = _
    omega
  have hdiv : (((outRect d r).emb x) 0).val / 1024 = d.val / 16 := by rw [hy0]; omega
  have hmod : (((outRect d r).emb x) 0).val % 1024 = 256 * r.val + (x 0).val := by rw [hy0]; omega
  have hidx : (ValueIdx.ix2 (n0 := 1024) (n1 := 512) ⟨(((outRect d r).emb x) 0).val % 1024, Nat.mod_lt _ (by decide)⟩ (((outRect d r).emb x) 1) : S1024x512.Idx)
      = (inRect r).emb x := by
    funext a
    match a with
    | ⟨0, _⟩ =>
      refine Fin.ext ?_
      show (((outRect d r).emb x) 0).val % 1024 = ((inRect r).emb x 0).val
      rw [hmod, Rect.emb_apply]
      show _ = inOff r 0 + 1 * (x 0).val
      rw [inOff_zero]; omega
    | ⟨1, _⟩ =>
      refine Fin.ext ?_
      show (((outRect d r).emb x) 1).val = ((inRect r).emb x 1).val
      rw [hy1, Rect.emb_apply]
      show _ = inOff r 1 + 1 * (x 1).val
      rw [inOff_one]; omega
  have hdev : own c ((((outRect d r).emb x) 0).val / 1024) = d := by rw [hdiv]; exact hd
  show FloatOps.truncf .bf16 bitsLt_bf16_f32 (xs m (own c ((((outRect d r).emb x) 0).val / 1024)) _) = FloatOps.truncf .bf16 bitsLt_bf16_f32 (xs m d ((inRect r).emb x))
  rw [xs_congr m hdev, hidx]

theorem mem_own (c : Dev nD) : ∀ r : Fin 4, (⟨outRect c r, pay m c r⟩ : View.Piece (Elt F) S2048x512 .bf16) ∈ outPieces m c
  | ⟨0, _⟩ => List.Mem.head _
  | ⟨1, _⟩ => List.Mem.tail _ (List.Mem.head _)
  | ⟨2, _⟩ => List.Mem.tail _ (List.Mem.tail _ (List.Mem.head _))
  | ⟨3, _⟩ => List.Mem.tail _ (List.Mem.tail _ (List.Mem.tail _ (List.Mem.head _)))
theorem mem_peer (c : Dev nD) : ∀ r : Fin 4, (⟨outRect (peer c) r, pay m (peer c) r⟩ : View.Piece (Elt F) S2048x512 .bf16) ∈ outPieces m c
  | ⟨0, _⟩ => List.Mem.tail _ (List.Mem.tail _ (List.Mem.tail _ (List.Mem.tail _ (List.Mem.head _))))
  | ⟨1, _⟩ => List.Mem.tail _ (List.Mem.tail _ (List.Mem.tail _ (List.Mem.tail _ (List.Mem.tail _ (List.Mem.head _)))))
  | ⟨2, _⟩ => List.Mem.tail _ (List.Mem.tail _ (List.Mem.tail _ (List.Mem.tail _ (List.Mem.tail _ (List.Mem.tail _ (List.Mem.head _))))))
  | ⟨3, _⟩ => List.Mem.tail _ (List.Mem.tail _ (List.Mem.tail _ (List.Mem.tail _ (List.Mem.tail _ (List.Mem.tail _ (List.Mem.tail _ (List.Mem.head _)))))))

/-- Every element of the result lies in one of the eight chunks. -/
theorem out_cover (c : Dev nD) (y : S2048x512.Idx) : ∃ p ∈ outPieces m c, y ∈ p.1.set := by
  have hy0 : (y 0).val < 2048 := (y 0).isLt
  have hy1 : (y 1).val < 512 := (y 1).isLt
  have hc := half_le c
  have hp := peer_half c
  have key : ∀ (d : Dev nD) (r : Fin 4), 1024 * (d.val / 16) + 256 * r.val ≤ (y 0).val →
      (y 0).val < 1024 * (d.val / 16) + 256 * r.val + 256 → y ∈ (outRect d r).set := by
    intro d r h1 h2
    show y ∈ (Rect.unit (s := S2048x512) (k0_off2 d (rowWord r)) S256x512.size (k0_off2_inb d r)).set
    rw [Rect.mem_set_unit]
    intro a
    rw [k0_off2_eq d r]
    match a with
    | ⟨0, _⟩ => exact ⟨h1, h2⟩
    | ⟨1, _⟩ => exact ⟨Nat.zero_le _, by show (y 1).val < 0 + 512; omega⟩
  obtain ⟨r, hr⟩ : ∃ r : Fin 4, r.val = ((y 0).val % 1024) / 256 := ⟨⟨((y 0).val % 1024) / 256, by omega⟩, rfl⟩
  by_cases hb : (y 0).val / 1024 = c.val / 16
  · exact ⟨⟨outRect c r, pay m c r⟩, mem_own m c r, key c r (by omega) (by omega)⟩
  · exact ⟨⟨outRect (peer c) r, pay m (peer c) r⟩, mem_peer m c r, key (peer c) r (by omega) (by omega)⟩

theorem writes_out (c : Dev nD) (X : Buf (Elt F) ((c : Thread nD τ).loc cc0_stg0_0)) :
    stgM.view.writes (Elt F) X (outPieces m c) = outAt m c := by
  funext y
  have h := View.read_writes_apply_of_pieces (v := (View.whole cc0_stg0_0 : View sig .tc _ _ _)) (f := X) (outAt m c) (outPieces m c) ?_ y (out_cover m c y)
  · rw [View.read_whole] at h; exact h
  intro p hp
  simp only [outPieces, List.mem_cons, List.not_mem_nil, or_false] at hp
  rcases hp with rfl | rfl | rfl | rfl | rfl | rfl | rfl | rfl
  · exact fun x => (outAt_emb m c c (own_self c) 0 x).symm
  · exact fun x => (outAt_emb m c c (own_self c) 1 x).symm
  · exact fun x => (outAt_emb m c c (own_self c) 2 x).symm
  · exact fun x => (outAt_emb m c c (own_self c) 3 x).symm
  · exact fun x => (outAt_emb m c (peer c) (own_peer c) 0 x).symm
  · exact fun x => (outAt_emb m c (peer c) (own_peer c) 1 x).symm
  · exact fun x => (outAt_emb m c (peer c) (own_peer c) 2 x).symm
  · exact fun x => (outAt_emb m c (peer c) (own_peer c) 3 x).symm

/-- info: 'Cert.KernelIdeal.AG.writes_out' depends on axioms: [propext, Classical.choice, Quot.sound] -/
#guard_msgs in #print axioms writes_out

end Cert.KernelIdeal.AG

end
-- ==== Proof.Body.lean ====
/-
  The body, stepped rule by rule in program order.
-/
import proofs.«900410_g7700000000000411_dist_ag_v7x_xyz2x4x4_x_m1024_n512_bf16_1_alg».proof.Proof.BodyDefs
import proofs.«900410_g7700000000000411_dist_ag_v7x_xyz2x4x4_x_m1024_n512_bf16_1_alg».proof.Proof.OutValue
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

section Body
variable (K : Dev nD × Fin 13 → ℕ)

omit [FloatOps F] in
/-- The partner's barrier duty, seen from the device that pays it: four slots of the device's own buffer and that its
    four receive cells are at round 0. -/
theorem barPay_peer (c : Dev nD) : barPay (F := F) (peer c) = iprop(
    ((∃ f, outPts (F := F) c (peer c) 0 f) ∗ reached ER (recvCell c 0) 0) ∗ ((∃ f, outPts (F := F) c (peer c) 1 f) ∗ reached ER (recvCell c 1) 0)
      ∗ ((∃ f, outPts (F := F) c (peer c) 2 f) ∗ reached ER (recvCell c 2) 0) ∗ ((∃ f, outPts (F := F) c (peer c) 3 f) ∗ reached ER (recvCell c 3) 0)) := by
  unfold barPay slotPay; rw [peer_peer]

theorem lv_bar (c : Dev nD) : lv (barCell c) () < 2 := by show (1 : ℕ) < 2; decide
theorem lv_in (c : Dev nD) (r : Fin 4) : lv (inCell c r) () < 2 := by
  show (if 9 ≤ (inSem r).val then 2 else 0) < 2
  rw [if_neg (by show ¬ 9 ≤ 1 + r.val; omega)]; decide
theorem Q1_low (c : Dev nD) : ∀ g u, 0 < Q1 c g u → 0 < Q0 c g u := fun _ _ h => Q1_le c h
theorem Q2_low (c : Dev nD) : ∀ g u, 0 < Q2 c g u → 0 < Q0 c g u := fun _ _ h => Q2_le c h
theorem Q3_low (c : Dev nD) : ∀ g u, 0 < Q3 c g u → 0 < Q0 c g u := fun _ _ h => Q3_le c h

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) cc0_scratch1 cc0_scratch2 cc0_scratch3) Kt := by
  unfold bodyPre ghost invs marks poss payToks creds scrAny argPts
  iintro ⟨⟨⟨⟨⟨#HI, #HIp⟩, ⟨#HR, #HRp⟩, Hpos, HtB, HtR, HtI, HtS⟩, ⟨HcB, HcR⟩, #Hlev, Harg, ⟨%f0, Hscr⟩⟩, Ho, ⟨%d0, %g0, %hg0, Hst⟩⟩, Hk⟩
  ihave Hpos' := (Entails.of_eq (bigSep_fin13 _)) $$ Hpos
  icases Hpos' with ⟨HaB, HaI0, HaI1, HaI2, HaI3, HaS0, HaS1, HaS2, HaS3, HaV0, HaV1, HaV2, HaV3⟩
  ihave HtR' := (Entails.of_eq (bigSep_fin4 _)) $$ HtR
  icases HtR' with ⟨HtR0, HtR1, HtR2, HtR3⟩
  ihave HtI' := (Entails.of_eq (bigSep_fin4 _)) $$ HtI
  icases HtI' with ⟨HtI0, HtI1, HtI2, HtI3⟩
  ihave HtS' := (Entails.of_eq (bigSep_fin4 _)) $$ HtS
  icases HtS' with ⟨HtS0, HtS1, HtS2, HtS3⟩
  ihave HcR' := (Entails.of_eq (bigSep_fin4 _)) $$ HcR
  icases HcR' with ⟨HcR0, HcR1, HcR2, HcR3⟩
  unfold Dat.owesAt Pipeline.owesWithin
  icases Ho with ⟨%W, %hW, HO⟩
  rw [show (dats m 0 c).owed t₀.castSucc = O₀ c from rfl]
  -- the three buffers cut along the chunks
  ihave Ha := (arg_split c (xs m c)) $$ Harg
  icases Ha with ⟨Ha0, Ha1, Ha2, Ha3, Har⟩
  ihave Hs := (scr_split c f0) $$ Hscr
  icases Hs with ⟨Hd0, Hd1, Hd2, Hd3, Hsr⟩
  ihave Hq := (stg_split c g0) $$ Hst
  icases Hq with ⟨⟨Ho0, Ho1, Ho2, Ho3⟩, ⟨Hp0, Hp1, Hp2, Hp3⟩, Hqr⟩
  unfold outPts
  simp only [cc0_body_eq_skeleton]; unfold cc0_body_skel
  rw [wp_bind]
  rw [k0_part1_eq_skeleton]; unfold k0_part1_skel
  simp only [Prog.lift, Prog.bind_op, Prog.bind_ret, Prog.pure_eq_ret, wp_deviceId]
  -- the local copy of chunk 0
  iapply (wp_in m c 0 (K (c, 1)) f0) $$ [Ha0 Hd0 HtI0]
  · isplitr; · iapply (inv_at m K c 1); iexact HI
    isplitl [Ha0]; · iexact Ha0
    isplitl [Hd0]; · iexact Hd0
    isplitl [HtI0]; · iexact HtI0
    iapply (reached_at c 1); iexact HR
  iintro HcI0
  -- the local copy of chunk 1
  iapply (wp_in m c 1 (K (c, 2)) f0) $$ [Ha1 Hd1 HtI1]
  · isplitr; · iapply (inv_at m K c 2); iexact HI
    isplitl [Ha1]; · iexact Ha1
    isplitl [Hd1]; · iexact Hd1
    isplitl [HtI1]; · iexact HtI1
    iapply (reached_at c 2); iexact HR
  iintro HcI1
  -- the local copy of chunk 2
  iapply (wp_in m c 2 (K (c, 3)) f0) $$ [Ha2 Hd2 HtI2]
  · isplitr; · iapply (inv_at m K c 3); iexact HI
    isplitl [Ha2]; · iexact Ha2
    isplitl [Hd2]; · iexact Hd2
    isplitl [HtI2]; · iexact HtI2
    iapply (reached_at c 3); iexact HR
  iintro HcI2
  -- the local copy of chunk 3
  iapply (wp_in m c 3 (K (c, 4)) f0) $$ [Ha3 Hd3 HtI3]
  · isplitr; · iapply (inv_at m K c 4); iexact HI
    isplitl [Ha3]; · iexact Ha3
    isplitl [Hd3]; · iexact Hd3
    isplitl [HtI3]; · iexact HtI3
    iapply (reached_at c 4); iexact HR
  iintro HcI3
  rw [wp_ret]; imodintro
  try dsimp only
  rw [wp_bind]
  rw [k0_part2_eq_skeleton]; unfold k0_part2_skel
  simp only [semSignalWord, semWaitWord, Prog.lift, Prog.bind_op, Prog.bind_ret, Prog.pure_eq_ret, dev1_eq c]
  -- the unit to the partner's barrier: the four slots of this buffer the partner's copies will fill go with it
  iapply (Rounds.wp_signal 𝒱₀ ER (agRd m) (c : Thread nD τ) none (dst := (peer c : Thread nD τ)) (κ := K (peer c, 0))
      (d := ()) (by rw [duties_bar]; exact Finset.mem_singleton_self _) ((amount_bar m (peer c) ()).trans (by decide)) () (Q0 c) rfl)
    $$ [HO HtB Hp0 Hp1 Hp2 Hp3]
  · isplitr; · iapply (inv_at m K (peer c) 0); iexact HIp
    isplitl [HO]; · iexact HO
    isplitl [HtB]; · iexact HtB
    isplitl [Hp0 Hp1 Hp2 Hp3]
    · rw [payload_bar, barPay_peer]
      unfold outPts
      isplitl [Hp0]
      · isplitl [Hp0]; · iexists g0; iexact Hp0
        iapply (reached_at c 9); iexact HR
      isplitl [Hp1]
      · isplitl [Hp1]; · iexists g0; iexact Hp1
        iapply (reached_at c 10); iexact HR
      isplitl [Hp2]
      · isplitl [Hp2]; · iexists g0; iexact Hp2
        iapply (reached_at c 11); iexact HR
      · isplitl [Hp3]; · iexists g0; iexact Hp3
        iapply (reached_at c 12); iexact HR
    · iapply (reached_at (peer c) 0); iexact HRp
  iintro HO
  -- the wait for the partner's unit: the partner's four slots come with it
  iapply (Rounds.wp_wait_rest_token 𝒱₀ ER (agRd m) (c : Thread nD τ) none (sm := SemLoc.reg barS) (k' := 1) (κ := K (c, 0))
      (wpE_semWait_eq 𝒱₀ (c : Thread nD τ) none Set.univ) (Set.mem_univ _) () (O := Q0 c) (W := W) (R := 0) (m := 0) (T := ∅)
      (by rw [expect_bar])) $$ [HcB HO HaB]
  · isplitr; · iapply (inv_at m K c 0); iexact HI
    isplitl [HcB]; · iexact HcB
    isplitl [HO]; · iexact HO
    isplitr; · iapply (mayWait_low c (.reg barS) (lv_bar c) (Q0 c) (fun _ _ h => h)); iexact Hlev
    iexact HaB
  iintro ⟨HO, HaB, -, Hpay⟩
  ihave Hp := (Entails.of_eq (rest_bar m c)) $$ Hpay
  unfold barPay slotPay outPts
  icases Hp with ⟨⟨⟨%fn0, Hn0⟩, #HrN0⟩, ⟨⟨%fn1, Hn1⟩, #HrN1⟩, ⟨⟨%fn2, Hn2⟩, #HrN2⟩, ⟨%fn3, Hn3⟩, #HrN3⟩
  -- chunk 0: the wait for its local copy
  iapply (Rounds.wp_wait_rest_token 𝒱₀ ER (agRd m) (c : Thread nD τ) none (sm := SemLoc.dma (inSem 0)) (k' := (inDst 0).view.dmaCredit) (κ := K (c, 1))
      (wpE_waitDma2_eq 𝒱₀ (c : Thread nD τ) none Set.univ) (Set.mem_univ _) () (O := Q0 c) (W := (insert (SemLoc.reg barS, ()) W)) (R := 0) (m := 0) (T := ∅)
      (by rw [Nat.zero_add, expect_in])) $$ [HcI0 HO HaI0]
  · isplitr; · iapply (inv_at m K c 1); iexact HI
    isplitl [HcI0]; · iexact HcI0
    isplitl [HO]; · iexact HO
    isplitr; · iapply (mayWait_low c (.dma (inSem 0)) (lv_in c 0) (Q0 c) (fun _ _ h => h)); iexact Hlev
    iexact HaI0
  iintro ⟨HO, HaI0, -, Hpay⟩
  ihave Hp := (Entails.of_eq (rest_in m c 0)) $$ Hpay
  unfold inPay
  icases Hp with ⟨⟨%fl0, Hd0⟩, Ha0⟩
  -- the chunk read from the scratch
  iapply (wp_load_rect 𝒱₀ (c : Thread nD τ) none Set.univ (m := scrM) (r := inRect 0) (Finset.Subset.refl _)) $$ Hd0; iintro Hd0
  rw [View.read_write_univ]
  -- its rows of the result read (the store's read-modify-write) and stored
  iapply (wp_load_rect 𝒱₀ (c : Thread nD τ) none Set.univ (m := stgM) (r := stRect c 0) (by rw [stRect_set])) $$ Ho0; iintro Ho0
  iapply (wp_store 𝒱₀ (c : Thread nD τ) none Set.univ (m := stgM) (r := stRect c 0) (Mk := Finset.univ) (by rw [View.setOn_univ, stRect_set])) $$ Ho0; iintro Ho0
  rw [stRect_write]
  -- the chunk copied into the partner's buffer
  iapply (wp_send_chunk m c 0 _ (dev2_eq c) (K (c, 5)) (K (peer c, 9)) g0 fn0 (Q1 c) (insert (SemLoc.dma (inSem 0), ()) (insert (SemLoc.reg barS, ()) W))) $$ [Ho0 Hn0 HO HtS0 HtR0]
  · isplitr; · iapply (inv_at m K c 5); iexact HI
    isplitr; · iapply (inv_at m K (peer c) 9); iexact HIp
    isplitl [Ho0]; · unfold outPts; iexact Ho0
    isplitl [Hn0]; · unfold outPts; iexact Hn0
    isplitl [HO]; · iexact HO
    isplitl [HtS0]; · iexact HtS0
    isplitr; · iapply (reached_at c 5); iexact HR
    isplitl [HtR0]; · iexact HtR0
    iexact HrN0
  iintro ⟨HcS0, HO⟩
  rw [wp_ret]; imodintro
  try dsimp only
  rw [wp_bind]
  rw [k0_part3_eq_skeleton]; unfold k0_part3_skel
  simp only [semSignalWord, semWaitWord, Prog.lift, Prog.bind_op, Prog.bind_ret, Prog.pure_eq_ret]
  -- chunk 1: the wait for its local copy
  iapply (Rounds.wp_wait_rest_token 𝒱₀ ER (agRd m) (c : Thread nD τ) none (sm := SemLoc.dma (inSem 1)) (k' := (inDst 1).view.dmaCredit) (κ := K (c, 2))
      (wpE_waitDma2_eq 𝒱₀ (c : Thread nD τ) none Set.univ) (Set.mem_univ _) () (O := Q1 c) (W := (insert (SemLoc.dma (inSem 0), ()) (insert (SemLoc.reg barS, ()) W))) (R := 0) (m := 0) (T := ∅)
      (by rw [Nat.zero_add, expect_in])) $$ [HcI1 HO HaI1]
  · isplitr; · iapply (inv_at m K c 2); iexact HI
    isplitl [HcI1]; · iexact HcI1
    isplitl [HO]; · iexact HO
    isplitr; · iapply (mayWait_low c (.dma (inSem 1)) (lv_in c 1) (Q1 c) (Q1_low c)); iexact Hlev
    iexact HaI1
  iintro ⟨HO, HaI1, -, Hpay⟩
  ihave Hp := (Entails.of_eq (rest_in m c 1)) $$ Hpay
  unfold inPay
  icases Hp with ⟨⟨%fl1, Hd1⟩, Ha1⟩
  -- the chunk read from the scratch
  iapply (wp_load_rect 𝒱₀ (c : Thread nD τ) none Set.univ (m := scrM) (r := inRect 1) (Finset.Subset.refl _)) $$ Hd1; iintro Hd1
  rw [View.read_write_univ]
  -- its rows of the result read (the store's read-modify-write) and stored
  iapply (wp_load_rect 𝒱₀ (c : Thread nD τ) none Set.univ (m := stgM) (r := stRect c 1) (by rw [stRect_set])) $$ Ho1; iintro Ho1
  iapply (wp_store 𝒱₀ (c : Thread nD τ) none Set.univ (m := stgM) (r := stRect c 1) (Mk := Finset.univ) (by rw [View.setOn_univ, stRect_set])) $$ Ho1; iintro Ho1
  rw [stRect_write]
  -- the chunk copied into the partner's buffer
  iapply (wp_send_chunk m c 1 _ (dev3_eq c) (K (c, 6)) (K (peer c, 10)) g0 fn1 (Q2 c) (insert (SemLoc.dma (inSem 1), ()) (insert (SemLoc.dma (inSem 0), ()) (insert (SemLoc.reg barS, ()) W)))) $$ [Ho1 Hn1 HO HtS1 HtR1]
  · isplitr; · iapply (inv_at m K c 6); iexact HI
    isplitr; · iapply (inv_at m K (peer c) 10); iexact HIp
    isplitl [Ho1]; · unfold outPts; iexact Ho1
    isplitl [Hn1]; · unfold outPts; iexact Hn1
    isplitl [HO]; · iexact HO
    isplitl [HtS1]; · iexact HtS1
    isplitr; · iapply (reached_at c 6); iexact HR
    isplitl [HtR1]; · iexact HtR1
    iexact HrN1
  iintro ⟨HcS1, HO⟩
  -- chunk 2: the wait for its local copy
  iapply (Rounds.wp_wait_rest_token 𝒱₀ ER (agRd m) (c : Thread nD τ) none (sm := SemLoc.dma (inSem 2)) (k' := (inDst 2).view.dmaCredit) (κ := K (c, 3))
      (wpE_waitDma2_eq 𝒱₀ (c : Thread nD τ) none Set.univ) (Set.mem_univ _) () (O := Q2 c) (W := (insert (SemLoc.dma (inSem 1), ()) (insert (SemLoc.dma (inSem 0), ()) (insert (SemLoc.reg barS, ()) W)))) (R := 0) (m := 0) (T := ∅)
      (by rw [Nat.zero_add, expect_in])) $$ [HcI2 HO HaI2]
  · isplitr; · iapply (inv_at m K c 3); iexact HI
    isplitl [HcI2]; · iexact HcI2
    isplitl [HO]; · iexact HO
    isplitr; · iapply (mayWait_low c (.dma (inSem 2)) (lv_in c 2) (Q2 c) (Q2_low c)); iexact Hlev
    iexact HaI2
  iintro ⟨HO, HaI2, -, Hpay⟩
  ihave Hp := (Entails.of_eq (rest_in m c 2)) $$ Hpay
  unfold inPay
  icases Hp with ⟨⟨%fl2, Hd2⟩, Ha2⟩
  -- the chunk read from the scratch
  iapply (wp_load_rect 𝒱₀ (c : Thread nD τ) none Set.univ (m := scrM) (r := inRect 2) (Finset.Subset.refl _)) $$ Hd2; iintro Hd2
  rw [View.read_write_univ]
  rw [wp_ret]; imodintro
  try dsimp only
  rw [wp_bind]
  rw [k0_part4_eq_skeleton]; unfold k0_part4_skel
  simp only [semSignalWord, semWaitWord, Prog.lift, Prog.bind_op, Prog.bind_ret, Prog.pure_eq_ret]
  -- its rows of the result read (the store's read-modify-write) and stored
  iapply (wp_load_rect 𝒱₀ (c : Thread nD τ) none Set.univ (m := stgM) (r := stRect c 2) (by rw [stRect_set])) $$ Ho2; iintro Ho2
  iapply (wp_store 𝒱₀ (c : Thread nD τ) none Set.univ (m := stgM) (r := stRect c 2) (Mk := Finset.univ) (by rw [View.setOn_univ, stRect_set])) $$ Ho2; iintro Ho2
  rw [stRect_write]
  -- the chunk copied into the partner's buffer
  iapply (wp_send_chunk m c 2 _ (dev4_eq c) (K (c, 7)) (K (peer c, 11)) g0 fn2 (Q3 c) (insert (SemLoc.dma (inSem 2), ()) (insert (SemLoc.dma (inSem 1), ()) (insert (SemLoc.dma (inSem 0), ()) (insert (SemLoc.reg barS, ()) W))))) $$ [Ho2 Hn2 HO HtS2 HtR2]
  · isplitr; · iapply (inv_at m K c 7); iexact HI
    isplitr; · iapply (inv_at m K (peer c) 11); iexact HIp
    isplitl [Ho2]; · unfold outPts; iexact Ho2
    isplitl [Hn2]; · unfold outPts; iexact Hn2
    isplitl [HO]; · iexact HO
    isplitl [HtS2]; · iexact HtS2
    isplitr; · iapply (reached_at c 7); iexact HR
    isplitl [HtR2]; · iexact HtR2
    iexact HrN2
  iintro ⟨HcS2, HO⟩
  -- chunk 3: the wait for its local copy
  iapply (Rounds.wp_wait_rest_token 𝒱₀ ER (agRd m) (c : Thread nD τ) none (sm := SemLoc.dma (inSem 3)) (k' := (inDst 3).view.dmaCredit) (κ := K (c, 4))
      (wpE_waitDma2_eq 𝒱₀ (c : Thread nD τ) none Set.univ) (Set.mem_univ _) () (O := Q3 c) (W := (insert (SemLoc.dma (inSem 2), ()) (insert (SemLoc.dma (inSem 1), ()) (insert (SemLoc.dma (inSem 0), ()) (insert (SemLoc.reg barS, ()) W))))) (R := 0) (m := 0) (T := ∅)
      (by rw [Nat.zero_add, expect_in])) $$ [HcI3 HO HaI3]
  · isplitr; · iapply (inv_at m K c 4); iexact HI
    isplitl [HcI3]; · iexact HcI3
    isplitl [HO]; · iexact HO
    isplitr; · iapply (mayWait_low c (.dma (inSem 3)) (lv_in c 3) (Q3 c) (Q3_low c)); iexact Hlev
    iexact HaI3
  iintro ⟨HO, HaI3, -, Hpay⟩
  ihave Hp := (Entails.of_eq (rest_in m c 3)) $$ Hpay
  unfold inPay
  icases Hp with ⟨⟨%fl3, Hd3⟩, Ha3⟩
  -- the chunk read from the scratch
  iapply (wp_load_rect 𝒱₀ (c : Thread nD τ) none Set.univ (m := scrM) (r := inRect 3) (Finset.Subset.refl _)) $$ Hd3; iintro Hd3
  rw [View.read_write_univ]
  -- its rows of the result read (the store's read-modify-write) and stored
  iapply (wp_load_rect 𝒱₀ (c : Thread nD τ) none Set.univ (m := stgM) (r := stRect c 3) (by rw [stRect_set])) $$ Ho3; iintro Ho3
  iapply (wp_store 𝒱₀ (c : Thread nD τ) none Set.univ (m := stgM) (r := stRect c 3) (Mk := Finset.univ) (by rw [View.setOn_univ, stRect_set])) $$ Ho3; iintro Ho3
  rw [stRect_write]
  rw [wp_ret]; imodintro
  try dsimp only
  rw [wp_bind]
  rw [k0_part5_eq_skeleton]; unfold k0_part5_skel
  simp only [semSignalWord, semWaitWord, Prog.lift, Prog.bind_op, Prog.bind_ret, Prog.pure_eq_ret]
  rw [show Q3 c = 0 + tallyAt (recvCell (peer c) 3) () Nout from (zero_add _).symm]
  -- the chunk copied into the partner's buffer
  iapply (wp_send_chunk m c 3 _ (dev5_eq c) (K (c, 8)) (K (peer c, 12)) g0 fn3 (0) (insert (SemLoc.dma (inSem 3), ()) (insert (SemLoc.dma (inSem 2), ()) (insert (SemLoc.dma (inSem 1), ()) (insert (SemLoc.dma (inSem 0), ()) (insert (SemLoc.reg barS, ()) W)))))) $$ [Ho3 Hn3 HO HtS3 HtR3]
  · isplitr; · iapply (inv_at m K c 8); iexact HI
    isplitr; · iapply (inv_at m K (peer c) 12); iexact HIp
    isplitl [Ho3]; · unfold outPts; iexact Ho3
    isplitl [Hn3]; · unfold outPts; iexact Hn3
    isplitl [HO]; · iexact HO
    isplitl [HtS3]; · iexact HtS3
    isplitr; · iapply (reached_at c 8); iexact HR
    isplitl [HtR3]; · iexact HtR3
    iexact HrN3
  iintro ⟨HcS3, HO⟩
  -- the wait for send 0: the chunk's rows back
  iapply (Rounds.wp_wait_rest_token 𝒱₀ ER (agRd m) (c : Thread nD τ) none (sm := SemLoc.dma (sendSem 0)) (k' := (outM c 0).view.dmaCredit) (κ := K (c, 5))
      (wpE_waitDma2_eq 𝒱₀ (c : Thread nD τ) none Set.univ) (Set.mem_univ _) () (O := 0) (W := (insert (SemLoc.dma (inSem 3), ()) (insert (SemLoc.dma (inSem 2), ()) (insert (SemLoc.dma (inSem 1), ()) (insert (SemLoc.dma (inSem 0), ()) (insert (SemLoc.reg barS, ()) W)))))) (R := 0) (m := 0) (T := ∅)
      (by rw [Nat.zero_add, expect_send]; rfl)) $$ [HcS0 HO HaS0]
  · isplitr; · iapply (inv_at m K c 5); iexact HI
    isplitl [HcS0]; · iexact HcS0
    isplitl [HO]; · iexact HO
    isplitr; · rw [MayWait_zero]; iempintro
    iexact HaS0
  iintro ⟨HO, HaS0, -, Hpay⟩
  ihave Ho0 := (Entails.of_eq (rest_send m c 0)) $$ Hpay
  -- the wait for the partner's chunk 0
  iapply (Rounds.wp_wait_rest_token 𝒱₀ ER (agRd m) (c : Thread nD τ) none (sm := SemLoc.dma (recvSem 0)) (k' := (outM c 0).view.dmaCredit) (κ := K (c, 9))
      (wpE_waitDma2_eq 𝒱₀ (c : Thread nD τ) none Set.univ) (Set.mem_univ _) () (O := 0) (W := (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))) (R := 0) (m := 0) (T := ∅)
      (by rw [Nat.zero_add, expect_recv]; rfl)) $$ [HcR0 HO HaV0]
  · isplitr; · iapply (inv_at m K c 9); iexact HI
    isplitl [HcR0]; · iexact HcR0
    isplitl [HO]; · iexact HO
    isplitr; · rw [MayWait_zero]; iempintro
    iexact HaV0
  iintro ⟨HO, HaV0, -, Hpay⟩
  ihave Hv0 := (Entails.of_eq (rest_recv m c 0)) $$ Hpay
  -- the wait for send 1: the chunk's rows back
  iapply (Rounds.wp_wait_rest_token 𝒱₀ ER (agRd m) (c : Thread nD τ) none (sm := SemLoc.dma (sendSem 1)) (k' := (outM c 1).view.dmaCredit) (κ := K (c, 6))
      (wpE_waitDma2_eq 𝒱₀ (c : Thread nD τ) none Set.univ) (Set.mem_univ _) () (O := 0) (W := (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))) (R := 0) (m := 0) (T := ∅)
      (by rw [Nat.zero_add, expect_send]; rfl)) $$ [HcS1 HO HaS1]
  · isplitr; · iapply (inv_at m K c 6); iexact HI
    isplitl [HcS1]; · iexact HcS1
    isplitl [HO]; · iexact HO
    isplitr; · rw [MayWait_zero]; iempintro
    iexact HaS1
  iintro ⟨HO, HaS1, -, Hpay⟩
  ihave Ho1 := (Entails.of_eq (rest_send m c 1)) $$ Hpay
  rw [wp_ret]; imodintro
  try dsimp only
  rw [wp_bind]
  rw [k0_part6_eq_skeleton]; unfold k0_part6_skel
  simp only [semSignalWord, semWaitWord, Prog.lift, Prog.bind_op, Prog.bind_ret, Prog.pure_eq_ret]
  -- the wait for the partner's chunk 1
  iapply (Rounds.wp_wait_rest_token 𝒱₀ ER (agRd m) (c : Thread nD τ) none (sm := SemLoc.dma (recvSem 1)) (k' := (outM c 1).view.dmaCredit) (κ := K (c, 10))
      (wpE_waitDma2_eq 𝒱₀ (c : Thread nD τ) none Set.univ) (Set.mem_univ _) () (O := 0) (W := (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))))) (R := 0) (m := 0) (T := ∅)
      (by rw [Nat.zero_add, expect_recv]; rfl)) $$ [HcR1 HO HaV1]
  · isplitr; · iapply (inv_at m K c 10); iexact HI
    isplitl [HcR1]; · iexact HcR1
    isplitl [HO]; · iexact HO
    isplitr; · rw [MayWait_zero]; iempintro
    iexact HaV1
  iintro ⟨HO, HaV1, -, Hpay⟩
  ihave Hv1 := (Entails.of_eq (rest_recv m c 1)) $$ Hpay
  -- the wait for send 2: the chunk's rows back
  iapply (Rounds.wp_wait_rest_token 𝒱₀ ER (agRd m) (c : Thread nD τ) none (sm := SemLoc.dma (sendSem 2)) (k' := (outM c 2).view.dmaCredit) (κ := K (c, 7))
      (wpE_waitDma2_eq 𝒱₀ (c : Thread nD τ) none Set.univ) (Set.mem_univ _) () (O := 0) (W := (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))))) (R := 0) (m := 0) (T := ∅)
      (by rw [Nat.zero_add, expect_send]; rfl)) $$ [HcS2 HO HaS2]
  · isplitr; · iapply (inv_at m K c 7); iexact HI
    isplitl [HcS2]; · iexact HcS2
    isplitl [HO]; · iexact HO
    isplitr; · rw [MayWait_zero]; iempintro
    iexact HaS2
  iintro ⟨HO, HaS2, -, Hpay⟩
  ihave Ho2 := (Entails.of_eq (rest_send m c 2)) $$ Hpay
  -- the wait for the partner's chunk 2
  iapply (Rounds.wp_wait_rest_token 𝒱₀ ER (agRd m) (c : Thread nD τ) none (sm := SemLoc.dma (recvSem 2)) (k' := (outM c 2).view.dmaCredit) (κ := K (c, 11))
      (wpE_waitDma2_eq 𝒱₀ (c : Thread nD τ) none Set.univ) (Set.mem_univ _) () (O := 0) (W := (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))))))) (R := 0) (m := 0) (T := ∅)
      (by rw [Nat.zero_add, expect_recv]; rfl)) $$ [HcR2 HO HaV2]
  · isplitr; · iapply (inv_at m K c 11); iexact HI
    isplitl [HcR2]; · iexact HcR2
    isplitl [HO]; · iexact HO
    isplitr; · rw [MayWait_zero]; iempintro
    iexact HaV2
  iintro ⟨HO, HaV2, -, Hpay⟩
  ihave Hv2 := (Entails.of_eq (rest_recv m c 2)) $$ Hpay
  -- the wait for send 3: the chunk's rows back
  iapply (Rounds.wp_wait_rest_token 𝒱₀ ER (agRd m) (c : Thread nD τ) none (sm := SemLoc.dma (sendSem 3)) (k' := (outM c 3).view.dmaCredit) (κ := K (c, 8))
      (wpE_waitDma2_eq 𝒱₀ (c : Thread nD τ) none Set.univ) (Set.mem_univ _) () (O := 0) (W := (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))))))) (R := 0) (m := 0) (T := ∅)
      (by rw [Nat.zero_add, expect_send]; rfl)) $$ [HcS3 HO HaS3]
  · isplitr; · iapply (inv_at m K c 8); iexact HI
    isplitl [HcS3]; · iexact HcS3
    isplitl [HO]; · iexact HO
    isplitr; · rw [MayWait_zero]; iempintro
    iexact HaS3
  iintro ⟨HO, HaS3, -, Hpay⟩
  ihave Ho3 := (Entails.of_eq (rest_send m c 3)) $$ Hpay
  rw [wp_ret]; imodintro
  try dsimp only
  try simp only [Prog.lift, Prog.bind_op, Prog.bind_ret, Prog.pure_eq_ret]
  -- the wait for the partner's chunk 3
  iapply (Rounds.wp_wait_rest_token 𝒱₀ ER (agRd m) (c : Thread nD τ) none (sm := SemLoc.dma (recvSem 3)) (k' := (outM c 3).view.dmaCredit) (κ := K (c, 12))
      (wpE_waitDma2_eq 𝒱₀ (c : Thread nD τ) none Set.univ) (Set.mem_univ _) () (O := 0) (W := (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))))))))) (R := 0) (m := 0) (T := ∅)
      (by rw [Nat.zero_add, expect_recv]; rfl)) $$ [HcR3 HO HaV3]
  · isplitr; · iapply (inv_at m K c 12); iexact HI
    isplitl [HcR3]; · iexact HcR3
    isplitl [HO]; · iexact HO
    isplitr; · rw [MayWait_zero]; iempintro
    iexact HaV3
  iintro ⟨HO, HaV3, -, Hpay⟩
  ihave Hv3 := (Entails.of_eq (rest_recv m c 3)) $$ Hpay
  -- the twelve own cells close: their counters at zero are the device's again
  imod (Rounds.cell_close ER (agRd m) (Set.mem_univ (K (c, 1))) (fun h => h) (R := 0 + 1) (duties_later m (kcell (c, 1)))) $$ [HaI0] with Hz1
  · isplitr; · iapply (inv_at m K c 1); iexact HI
    iexact HaI0
  imod (Rounds.cell_close ER (agRd m) (Set.mem_univ (K (c, 2))) (fun h => h) (R := 0 + 1) (duties_later m (kcell (c, 2)))) $$ [HaI1] with Hz2
  · isplitr; · iapply (inv_at m K c 2); iexact HI
    iexact HaI1
  imod (Rounds.cell_close ER (agRd m) (Set.mem_univ (K (c, 3))) (fun h => h) (R := 0 + 1) (duties_later m (kcell (c, 3)))) $$ [HaI2] with Hz3
  · isplitr; · iapply (inv_at m K c 3); iexact HI
    iexact HaI2
  imod (Rounds.cell_close ER (agRd m) (Set.mem_univ (K (c, 4))) (fun h => h) (R := 0 + 1) (duties_later m (kcell (c, 4)))) $$ [HaI3] with Hz4
  · isplitr; · iapply (inv_at m K c 4); iexact HI
    iexact HaI3
  imod (Rounds.cell_close ER (agRd m) (Set.mem_univ (K (c, 5))) (fun h => h) (R := 0 + 1) (duties_later m (kcell (c, 5)))) $$ [HaS0] with Hz5
  · isplitr; · iapply (inv_at m K c 5); iexact HI
    iexact HaS0
  imod (Rounds.cell_close ER (agRd m) (Set.mem_univ (K (c, 6))) (fun h => h) (R := 0 + 1) (duties_later m (kcell (c, 6)))) $$ [HaS1] with Hz6
  · isplitr; · iapply (inv_at m K c 6); iexact HI
    iexact HaS1
  imod (Rounds.cell_close ER (agRd m) (Set.mem_univ (K (c, 7))) (fun h => h) (R := 0 + 1) (duties_later m (kcell (c, 7)))) $$ [HaS2] with Hz7
  · isplitr; · iapply (inv_at m K c 7); iexact HI
    iexact HaS2
  imod (Rounds.cell_close ER (agRd m) (Set.mem_univ (K (c, 8))) (fun h => h) (R := 0 + 1) (duties_later m (kcell (c, 8)))) $$ [HaS3] with Hz8
  · isplitr; · iapply (inv_at m K c 8); iexact HI
    iexact HaS3
  imod (Rounds.cell_close ER (agRd m) (Set.mem_univ (K (c, 9))) (fun h => h) (R := 0 + 1) (duties_later m (kcell (c, 9)))) $$ [HaV0] with Hz9
  · isplitr; · iapply (inv_at m K c 9); iexact HI
    iexact HaV0
  imod (Rounds.cell_close ER (agRd m) (Set.mem_univ (K (c, 10))) (fun h => h) (R := 0 + 1) (duties_later m (kcell (c, 10)))) $$ [HaV1] with Hz10
  · isplitr; · iapply (inv_at m K c 10); iexact HI
    iexact HaV1
  imod (Rounds.cell_close ER (agRd m) (Set.mem_univ (K (c, 11))) (fun h => h) (R := 0 + 1) (duties_later m (kcell (c, 11)))) $$ [HaV2] with Hz11
  · isplitr; · iapply (inv_at m K c 11); iexact HI
    iexact HaV2
  imod (Rounds.cell_close ER (agRd m) (Set.mem_univ (K (c, 12))) (fun h => h) (R := 0 + 1) (duties_later m (kcell (c, 12)))) $$ [HaV3] with Hz12
  · isplitr; · iapply (inv_at m K c 12); iexact HI
    iexact HaV3
  rw [wp_ret]; imodintro
  iapply Hk
  unfold bodyPost Φ₁ Dat.owesAt Pipeline.owesWithin argPts scrAny
  rw [show (dats m 0 c).owed t₀.succ = 0 from rfl]
  isplitl [Ha0 Ha1 Ha2 Ha3 Har Hd0 Hd1 Hd2 Hd3 Hsr Hz1 Hz2 Hz3 Hz4 Hz5 Hz6 Hz7 Hz8 Hz9 Hz10 Hz11 Hz12]
  · isplitl [Ha0 Ha1 Ha2 Ha3 Har]
    · iapply (arg_join c (xs m c))
      isplitl [Ha0]; · iexact Ha0
      isplitl [Ha1]; · iexact Ha1
      isplitl [Ha2]; · iexact Ha2
      isplitl [Ha3]; · iexact Ha3
      iexact Har
    isplitl [Hd0 Hd1 Hd2 Hd3 Hsr]
    · iapply (scr_join m c f0)
      isplitl [Hd0]; · iexists fl0; iexact Hd0
      isplitl [Hd1]; · iexists fl1; iexact Hd1
      isplitl [Hd2]; · iexists fl2; iexact Hd2
      isplitl [Hd3]; · iexists fl3; iexact Hd3
      iexact Hsr
    · rw [bigSep_fin12]
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      iexact Hz12
  isplitl [HO]
  · iexists (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))))))))
    isplitr; · ipureintro; exact fun _ _ => Or.inl trivial
    iexact HO
  · iexists (stgM.view.writes (Elt F) g0 (outPieces m c))
    isplitr; · ipureintro; exact writes_out m c g0
    iapply (stg_join m c g0)
    unfold sendPay recvPay
    isplitl [Ho0 Ho1 Ho2 Ho3]
    · isplitl [Ho0]; · iexact Ho0
      isplitl [Ho1]; · iexact Ho1
      isplitl [Ho2]; · iexact Ho2
      iexact Ho3
    isplitl [Hv0 Hv1 Hv2 Hv3]
    · isplitl [Hv0]; · iexact Hv0
      isplitl [Hv1]; · iexact Hv1
      isplitl [Hv2]; · iexact Hv2
      iexact Hv3
    iexact Hqr

end Body

/-- info: 'Cert.KernelIdeal.AG.sound_body' depends on axioms: [propext, Classical.choice, Quot.sound] -/
#guard_msgs in #print axioms sound_body

end Cert.KernelIdeal.AG

end
-- ==== Proof.Launch.lean ====
/-
  The launch: the exchange's ghost state dealt to the thirty-two devices, the cells' invariants allocated for all of them
  under one update (the barrier semaphore is the runtime's, so its counters come with the launch's unscoped semaphores),
  the duty tokens dealt across each pair, the launch credit read off what each device owes, and the run of @main.
-/
import proofs.«900410_g7700000000000411_dist_ag_v7x_xyz2x4x4_x_m1024_n512_bf16_1_alg».proof.Proof.Body
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) cc0_scratch1 cc0_scratch2 cc0_scratch3) (fun _ => bodyPost m c)
  unfold bodyPre' Φ₀ start
  iintro ⟨⟨⟨⟨%K, Hg⟩, Hc, Hl, Ha⟩, Hscr⟩, Ho, Hst⟩
  iapply (sound_body m K c fun _ => bodyPost m c)
  unfold bodyPre
  isplitr []
  · isplitl [Hg Hc Hl Ha Hscr]
    · isplitl [Hg]; · iexact Hg
      isplitl [Hc]; · iexact Hc
      isplitl [Hl]; · iexact Hl
      isplitl [Ha]; · iexact Ha
      iexact Hscr
    isplitl [Ho]; · iexact Ho
    iexact Hst
  · iintro H; iexact H

/-! ## The ghost state at launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def agCells : Finset (GSem nD τ sig) := Finset.univ.map ⟨kcell, kcell_injective⟩

abbrev tokOf (ck : Dev nD × Fin 13) : GSem nD τ sig × ℕ × Unit := (kcell ck, 0, ())
theorem tokOf_injective : Function.Injective (tokOf : Dev nD × Fin 13 → GSem nD τ sig × ℕ × Unit) :=
  fun a b h => kcell_injective (congrArg Prod.fst h)
def agToks : Finset (GSem nD τ sig × ℕ × Unit) := Finset.univ.map ⟨tokOf, tokOf_injective⟩

def u₀ : UU :=
  (initOf (Pipeline.cells cfgs cellOf_inj) (Pipeline.launchToks cfgs cellOf_inj), initOf agCells agToks)

/-- The duty tokens of device `c`'s own thirteen cells. -/
def toks (c : Dev nD) : sProp 𝕄 := bigSep Finset.univ fun k : Fin 13 => dutyTok ER (kcell (c, k)) 0 ()
/-- The same, by kind of cell. -/
def toks' (c : Dev nD) : sProp 𝕄 :=
  iprop(dutyTok ER (barCell c) 0 () ∗ (bigSep Finset.univ fun r : Fin 4 => dutyTok ER (recvCell c r) 0 ())
    ∗ (bigSep Finset.univ fun r : Fin 4 => dutyTok ER (inCell c r) 0 ()) ∗ (bigSep Finset.univ fun r : Fin 4 => dutyTok ER (sendCell c r) 0 ()))

omit [FloatOps F] in
theorem toks_regroup (c : Dev nD) : (toks (F := F) c) ⊢ toks' c := by
  unfold toks toks'
  rw [bigSep_fin13, bigSep_fin4, bigSep_fin4, bigSep_fin4]
  iintro ⟨HB, HI0, HI1, HI2, HI3, HS0, HS1, HS2, HS3, HV0, HV1, HV2, HV3⟩
  isplitl [HB]; · iexact HB
  isplitl [HV0 HV1 HV2 HV3]
  · isplitl [HV0]; · iexact HV0
    isplitl [HV1]; · iexact HV1
    isplitl [HV2]; · iexact HV2
    iexact HV3
  isplitl [HI0 HI1 HI2 HI3]
  · isplitl [HI0]; · iexact HI0
    isplitl [HI1]; · iexact HI1
    isplitl [HI2]; · iexact HI2
    iexact HI3
  · isplitl [HS0]; · iexact HS0
    isplitl [HS1]; · iexact HS1
    isplitl [HS2]; · iexact HS2
    iexact HS3

/-- What the launch element deals device `c` (the theorem's `G`). -/
def G (c : Dev nD) : sProp 𝕄 :=
  iprop((bigSep Finset.univ fun k : Fin 13 => roundState ER (agRd m) (kcell (c, k)) 0)
    ∗ (bigSep Finset.univ fun k : Fin 13 => iprop(atPos ER (kcell (c, k)) 0 ∅ 0 ∗ reached ER (kcell (c, k)) 0)) ∗ toks c)

/-- What the global step makes of it (`G'`). -/
def G' (c : Dev nD) : sProp 𝕄 := iprop(∃ K, ghost m K c)

theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : Fin 13 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [unscopedSems0_eq, bigSep_fin13]
  unfold Pipeline.ownSems0
  rw [bigSep_fin12]
  iintro ⟨⟨H1, H2, H3, H4, H5, H6, H7, H8, H9, H10, H11, H12⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (agRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (agRd m) (kcell (c, k)) 0)
      ⊢ (|={Set.univ}=> bigSep Finset.univ fun k => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 13 → ℕ) : sProp 𝕄 :=
  iprop((bigSep Finset.univ fun c : Dev nD => bigSep Finset.univ fun k : Fin 13 => cellInv ER (agRd m) (K (c, k)) (kcell (c, k)))
    ∗ bigSep Finset.univ fun c : Dev nD => bigSep Finset.univ fun k : Fin 13 => reached ER (kcell (c, k)) 0)

instance records_persistent (K : Dev nD × Fin 13 → ℕ) : BI.Persistent (records m K) := by unfold records; infer_instance

/-- What stays with device `c`: its positions and the tokens of the duties IT pays. -/
def linear (c : Dev nD) : sProp 𝕄 := iprop(poss (F := F) c ∗ payToks c)

theorem rec_inv (K : Dev nD × Fin 13 → ℕ) (c : Dev nD) :
    (bigSep Finset.univ fun c : Dev nD => bigSep Finset.univ fun k : Fin 13 => (cellInv ER (agRd m) (K (c, k)) (kcell (c, k)) : sProp 𝕄))
      ⊢ bigSep Finset.univ fun k : Fin 13 => (cellInv ER (agRd m) (K (c, k)) (kcell (c, k)) : sProp 𝕄) :=
  bigSep_elim (Finset.mem_univ c)
omit [FloatOps F] in
theorem rec_reached (c : Dev nD) :
    (bigSep Finset.univ fun c : Dev nD => bigSep Finset.univ fun k : Fin 13 => (reached ER (kcell (c, k)) 0 : sProp 𝕄))
      ⊢ bigSep Finset.univ fun k : Fin 13 => (reached ER (kcell (c, k)) 0 : sProp 𝕄) :=
  bigSep_elim (Finset.mem_univ c)

theorem ghost_intro (K : Dev nD × Fin 13 → ℕ) (c : Dev nD) : iprop(records m K ∗ linear c) ⊢ G' m c := by
  unfold records linear G' ghost invs marks
  iintro ⟨⟨#HI, #HR⟩, Hpos, Htok⟩
  iexists K
  isplitr
  · isplitr
    · iapply (rec_inv m K c); iexact HI
    · iapply (rec_inv m K (peer c)); iexact HI
  isplitr
  · isplitr
    · iapply (rec_reached (F := F) c); iexact HR
    · iapply (rec_reached (F := F) (peer c)); iexact HR
  isplitl [Hpos]; · iexact Hpos
  iexact Htok

omit [FloatOps F] in
/-- The tokens dealt across each pair: a barrier's and the receive cells' tokens go to the partner. -/
theorem toks_around : (bigSep Finset.univ fun c : Dev nD => (toks' (F := F) c : sProp 𝕄)) ⊢ bigSep Finset.univ fun c : Dev nD => payToks c := by
  unfold toks' payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun r : Fin 4 => dutyTok ER (recvCell c r) 0 () : sProp 𝕄))]
  iintro ⟨H1, H2, H3, H4⟩
  isplitl [H1]; · iexact H1
  isplitl [H2]; · iexact H2
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (agRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep']
  iintro ⟨HI, ⟨Hat, #HR⟩, Htok⟩
  ihave HK := (BI.bigSep_exists_pi Finset.univ (fun (ck : Dev nD × Fin 13) (κ : ℕ) => (cellInv ER (agRd m) κ (kcell ck) : sProp 𝕄))) $$ HI
  icases HK with ⟨%K, #HI⟩
  have hmono : (bigSep Finset.univ fun c : Dev nD => (toks (F := F) c : sProp 𝕄)) ⊢ bigSep Finset.univ fun c : Dev nD => (toks' (F := F) c : sProp 𝕄) :=
    bigSep_mono fun c _ => toks_regroup (F := F) c
  ihave Htk' := hmono $$ Htok
  ihave Htk := (toks_around (F := F)) $$ Htk'
  iapply (bigSep_with_persistent (R := records m K) fun c _ => ghost_intro m K c)
  isplitr
  · unfold records; isplitl
    · rw [← bigSep_univ_prod (fun ck : Dev nD × Fin 13 => (cellInv ER (agRd m) (K ck) (kcell ck) : sProp 𝕄))]; iexact HI
    iexact HR
  · iapply ((Entails.of_eq (bigSep_sep' Finset.univ (fun c : Dev nD => (poss (F := F) c : sProp 𝕄)) payToks).symm).trans
      (bigSep_mono fun c _ => show _ ⊢ linear c from Entails.of_eq (by unfold linear; rfl)))
    isplitl [Hat]; · unfold poss; iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem creds_intro (c : Dev nD) : (Pipeline.launchCred O₀ c : sProp 𝕄) ⊢ creds c := by
  have e : (O₀ : Dev nD → CellTallies nD τ sig Unit) = fun d =>
      (((tallyAt (recvCell (peer d) 3) () Nout + tallyAt (recvCell (peer d) 2) () Nout) + tallyAt (recvCell (peer d) 1) () Nout)
        + tallyAt (recvCell (peer d) 0) () Nout) + tallyAt (barCell (peer d)) () 1 := rfl
  rw [e, Pipeline.launchCred_add, Pipeline.launchCred_add, Pipeline.launchCred_add, Pipeline.launchCred_add]
  unfold creds
  rw [bigSep_fin4]
  iintro ⟨⟨⟨⟨H3, H2⟩, H1⟩, H0⟩, HB⟩
  isplitl [HB]; · iapply (Pipeline.launchCred_tallyAt (.reg barS) peer peer peer_peer peer_peer () 1 c); iexact HB
  isplitl [H0]; · iapply (Pipeline.launchCred_tallyAt (.dma (recvSem 0)) peer peer peer_peer peer_peer () Nout c); iexact H0
  isplitl [H1]; · iapply (Pipeline.launchCred_tallyAt (.dma (recvSem 1)) peer peer peer_peer peer_peer () Nout c); iexact H1
  isplitl [H2]; · iapply (Pipeline.launchCred_tallyAt (.dma (recvSem 2)) peer peer peer_peer peer_peer () Nout c); iexact H2
  iapply (Pipeline.launchCred_tallyAt (.dma (recvSem 3)) peer peer peer_peer peer_peer () Nout c); iexact H3

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds_intro (F := F) c) $$ Hcr
  imodintro
  unfold start G' argPts
  isplitl
  · isplitl [HG]; · iexact HG
    isplitl [Hc]; · iexact Hc
    isplitl [Hlev]; · iexact Hlev
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, ⟨%f, Hr⟩⟩
  isplitl [Hs]; · iexact Hs
  iexists f; iexact Hr

theorem phi1_exit (c : Dev nD) :
    (dats m 0 c).Φ (Fin.last cfg0.N) ⊢ iprop(argPts m c ∗ Pipeline.ownSems0 osem c ∗ Pipeline.scopedRest cfg0.spec c) := by
  rw [show (dats m 0 c).Φ (Fin.last cfg0.N) = Φ₁ m c from rfl, scopedRest0_eq]
  unfold Φ₁ scrAny Pipeline.ownSems0
  iintro ⟨Ha, Hs, Hz⟩
  isplitl [Ha]; · iexact Ha
  isplitl [Hz]; · iexact Hz
  iexact Hs

theorem O₀_pos {c : Dev nD} {g : GSem nD τ sig} {u : Unit} (h : 0 < O₀ c g u) : (∃ r, g = recvCell (peer c) r) ∨ g = barCell (peer c) := by
  unfold O₀ at h
  rcases Pipeline.add_pos_cases h with h | h
  · exact Or.inl (Q0_pos h)
  · exact Or.inr (Pipeline.tallyAt_pos h).1

omit [FloatOps F] in
/-- A wait on a level-0 DMA cell (the result's staging cell) while owing what is owed at launch, or nothing. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      show (if 9 ≤ q.val then 2 else 0) = 0
      rw [if_neg (by omega)]
    rcases O₀_pos hg with ⟨r, rfl⟩ | rfl
    · exact ⟨by rw [L_tc]; exact Finset.mem_singleton_self _, by rw [h0, lv_recv]; decide⟩
    · exact ⟨by rw [L_tc]; exact Finset.mem_singleton_self _, by rw [h0]; show 0 < 1; decide⟩
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- Device `c`'s arrays after the run: the result array after the write-back. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = xs m c

set_option maxRecDepth 8000 in
/-- At the compiled mesh of thirty-two devices, from any memory with zero counters: every weakly fair execution of @main
    — the sixteen pairs handshaking on the runtime's barrier semaphore, then exchanging their rows chunk by chunk —
    terminates, and every final state has each device's result array at the computed contents and its rows unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m) (hout := phi1_exit m)
    (QY := fun c s => s.mem ((c : Thread nD τ).loc main_arg0) = xs m c)
    (hY := fun c s' => by
      unfold argPts
      iintro ⟨Hx, -, HSI⟩
      icombine HSI Hx gives %hx
      imodintro
      isplitr; · ipureintro; exact Buf.eq_of_forall_mem_univ hx
      iexact HSI)
    (hQ := fun _ h c => ⟨fun w => (h c).1 w, (h c).2.2⟩)

/-- info: 'Cert.KernelIdeal.AG.run_main' depends on axioms: [propext, Classical.choice, Quot.sound] -/
#guard_msgs in #print axioms run_main

end Cert.KernelIdeal.AG

end
-- ==== Proof.Final.lean ====
/-
  The run read back: after the write-back each device's result array is the closed form `outAt`, and when every device's
  rows are its block of one whole array (cut in two along the first mesh axis) that closed form is the whole array cast,
  element by element, on every device.
-/
import proofs.«900410_g7700000000000411_dist_ag_v7x_xyz2x4x4_x_m1024_n512_bf16_1_alg».proof.Proof.Launch
import Idealize.ShloMosaic.Lib.Layout
set_option maxRecDepth 16384

noncomputable section

namespace Cert.KernelIdeal.AG

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The one block of the result window is the whole array: the array after the write-back is what the body left. -/
theorem finalA_out (c : Dev nD) : finalA m c (0 : Fin 1) = outAt m c :=
  (dats (F := F) m 0 c).arrAt_eq_of_cover (0 : Fin 1) (outAt m c)
    (fun t _ => (Memref.read_access_unit_zero (Elt F) main_v1 (funext fun a => Nat.zero_mul _) _ (outAt m c)).symm)
    (fun i => ⟨t₀, flush0_0 t₀, by
      show i ∈ ((View.whole main_v1).slice (win0_0.rect t₀)).set
      rw [View.set_slice_whole]
      exact View.mem_set_unit_zero (funext fun a => Nat.zero_mul _) _ i⟩)

/-- The run with the result named and the rows unchanged. -/
theorem run_value : θ_run defs (onTc (τ := τ) (main (F := F))) ⟨m, fun _ => 0, ρ⟩ (fun r => ∀ c : Dev nD,
    r.2.mem ((c : Thread nD τ).loc main_v1) = outAt m c
    ∧ r.2.mem ((c : Thread nD τ).loc main_arg0) = m ((c : Thread nD τ).loc main_arg0)) :=
  (θ_run defs _ _).mono (fun r h c => ⟨((h c).1 (0 : Fin 1)).trans (finalA_out m c), (h c).2⟩) (run_main m ρ)

theorem meshLin_first (d : Dev nD) : Layout.meshLin [2, 4, 4] d.val [0] = d.val / 16 := by revert d; decide
theorem own_half (c : Dev nD) (b : ℕ) (hb : b < 2) : (own c b).val / 16 = b := by
  show (16 * (b % 2) + c.val % 16) / 16 = b
  omega

/-- When each device's rows are its block of the whole array `X` — the first mesh coordinate names the half —, every device
    ends with `X` cast, element by element. -/
theorem outAt_of_blocks (X : S2048x512.Idx → Elt F .f32)
    (h : ∀ d : Dev nD, xs m d = Layout.blockN ⟨2, ![1024, 512]⟩ ⟨2, ![2048, 512]⟩ (Layout.meshBlock [2, 4, 4] ![[0], []] d) X) (c : Dev nD) :
    outAt m c = truncf .bf16 X bitsLt_bf16_f32 := by
  funext y
  have hy0 : (y 0).val < 2048 := (y 0).isLt
  show FloatOps.truncf .bf16 bitsLt_bf16_f32 (xs m (own c ((y 0).val / 1024)) _) = FloatOps.truncf .bf16 bitsLt_bf16_f32 (X y)
  rw [h (own c ((y 0).val / 1024)), Layout.blockN_apply]
  congr 2
  funext a
  refine Fin.ext ?_
  rw [Layout.TilesN.idx_val]
  match a with
  | ⟨0, _⟩ =>
    show (Layout.meshBlock [2, 4, 4] ![[0], []] (own c ((y 0).val / 1024)) _ 0).val * 1024 + (y 0).val % 1024 = (y 0).val
    rw [Layout.meshBlock_val]
    show Layout.meshLin [2, 4, 4] (own c ((y 0).val / 1024)).val [0] * 1024 + (y 0).val % 1024 = (y 0).val
    rw [meshLin_first, own_half c _ (by omega)]
    omega
  | ⟨1, _⟩ =>
    show (Layout.meshBlock [2, 4, 4] ![[0], []] (own c ((y 0).val / 1024)) _ 1).val * 512 + (y 1).val = (y 1).val
    rw [Layout.meshBlock_val]
    show 0 * 512 + (y 1).val = (y 1).val
    omega

/-- info: 'Cert.KernelIdeal.AG.run_value' depends on axioms: [propext, Classical.choice, Quot.sound] -/
#guard_msgs in #print axioms run_value

end Cert.KernelIdeal.AG

end
-- ==== Proof.Kernel.Cells.lean ====
/-
  The pairwise exchange along the mesh's first axis: device `c` and its partner `peer c` (the device whose first
  mesh coordinate is the other one, the other two equal) each cast their own 1024 rows, four chunks of 256 rows at
  a time, into their half of a 2048-row result buffer and copy each chunk into the partner's buffer at the same rows.
  This module names the partner, the memrefs, the thirteen semaphore cells of a device and the chunk rectangles.
-/
import proofs.«900410_g7700000000000411_dist_ag_v7x_xyz2x4x4_x_m1024_n512_bf16_1_alg».proof.Proof.Gen.Kernel
import proofs.«900410_g7700000000000411_dist_ag_v7x_xyz2x4x4_x_m1024_n512_bf16_1_alg».proof.Proof.Gen.Kernel.Skeleton
import proofs.«900410_g7700000000000411_dist_ag_v7x_xyz2x4x4_x_m1024_n512_bf16_1_alg».proof.Proof.Gen.Kernel.Launch
import proofs.«900410_g7700000000000411_dist_ag_v7x_xyz2x4x4_x_m1024_n512_bf16_1_alg».proof.Proof.Gen.Kernel.Points
import Idealize.ShloMosaic.Lib.Pipeline.Launch
import Idealize.ShloMosaic.Lib.Pipeline.Kit
import Idealize.ShloMosaic.Lib.Pipeline.Value
import Idealize.ShloMosaic.Lib.HeldBySlice
import Idealize.ShloMosaic.Lib.Tactic

set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the exchange's own (one duty a round) -/

abbrev UB : Type := URounds (GSem nD τ sig) Unit
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The partner -/

/-- The device whose first mesh coordinate (of two) is the other one: sixteen away. -/
def peer (c : Dev nD) : Dev nD := ⟨(c.val + 16) % 32, Nat.mod_lt _ (by decide)⟩

theorem peer_peer (c : Dev nD) : peer (peer c) = c := by revert c; decide
theorem peer_ne (c : Dev nD) : peer c ≠ c := by revert c; decide

theorem dev1_eq (c : Dev nD) : (⟨k0_dev1 c, k0_dev1_lt c⟩ : Dev nD) = peer c := by revert c; decide +kernel
theorem dev2_eq (c : Dev nD) : (⟨k0_dev2 c, k0_dev2_lt c⟩ : Dev nD) = peer c := by revert c; decide +kernel
theorem dev3_eq (c : Dev nD) : (⟨k0_dev3 c, k0_dev3_lt c⟩ : Dev nD) = peer c := by revert c; decide +kernel
theorem dev4_eq (c : Dev nD) : (⟨k0_dev4 c, k0_dev4_lt c⟩ : Dev nD) = peer c := by revert c; decide +kernel
theorem dev5_eq (c : Dev nD) : (⟨k0_dev5 c, k0_dev5_lt c⟩ : Dev nD) = peer c := by revert c; decide +kernel

def swap : Dev nD ≃ Dev nD := ⟨peer, peer, peer_peer, peer_peer⟩

/-! ## The memrefs, the chunk rectangles and the cells -/

abbrev argM : Memref sig .tc .hbm S1024x512 .f32 := Memref.whole main_arg0
abbrev stgM : Memref sig .tc .vmem S2048x512 .bf16 := Memref.whole cc0_stg0_0
abbrev scrM : Memref sig .tc .vmem S1024x512 .f32 := Memref.whole cc0_scratch0

/-- Chunk `r`'s first row inside a device's own 1024 rows. -/
abbrev inOff : Fin 4 → Fin 2 → Nat := fun | 0 => ![0, 0] | 1 => ![256, 0] | 2 => ![512, 0] | 3 => ![768, 0]
theorem inOff_inb : ∀ (r : Fin 4) (a : Fin 2), inOff r a + S256x512.size a ≤ S1024x512.size a := by decide
/-- Rows `256 r … 256 r + 255` of a 1024-row array. -/
abbrev inRect (r : Fin 4) : Rect S1024x512 := Rect.unit (s := S1024x512) (inOff r) S256x512.size (inOff_inb r)

/-- The word the printed offsets take for chunk `r`. -/
abbrev rowWord (r : Fin 4) : BitVec 32 := BitVec.ofNat 32 (256 * r.val)
/-- Rows `1024 x + 256 r …` of the 2048-row result buffer, `x` the first mesh coordinate of `d`. -/
abbrev outRect (d : Dev nD) (r : Fin 4) : Rect S2048x512 := Rect.unit (s := S2048x512) (k0_off2 d (rowWord r)) S256x512.size (k0_off2_inb d r)

abbrev inSrc (r : Fin 4) : Memref sig .tc .hbm S256x512 .f32 := argM.slice (inRect r) (fun _ => rfl)
abbrev inDst (r : Fin 4) : Memref sig .tc .vmem S256x512 .f32 := scrM.slice (inRect r) (fun _ => rfl)
abbrev outM (d : Dev nD) (r : Fin 4) : Memref sig .tc .vmem S256x512 .bf16 := stgM.slice (outRect d r) (fun _ => rfl)

abbrev barS : Sem sig := (SemArray.scalar (sig.barrier 0 rfl) : Sems sig S_).sem
abbrev inSem (r : Fin 4) : DmaSem sig := ⟨1 + r.val, (by have := r.isLt; show 1 + r.val < 13; omega)⟩
abbrev sendSem (r : Fin 4) : DmaSem sig := ⟨5 + r.val, (by have := r.isLt; show 5 + r.val < 13; omega)⟩
abbrev recvSem (r : Fin 4) : DmaSem sig := ⟨9 + r.val, (by have := r.isLt; show 9 + r.val < 13; omega)⟩

abbrev barCell (c : Dev nD) : GSem nD τ sig := ((c : Thread nD τ), .reg barS)
abbrev inCell (c : Dev nD) (r : Fin 4) : GSem nD τ sig := ((c : Thread nD τ), .dma (inSem r))
abbrev sendCell (c : Dev nD) (r : Fin 4) : GSem nD τ sig := ((c : Thread nD τ), .dma (sendSem r))
abbrev recvCell (c : Dev nD) (r : Fin 4) : GSem nD τ sig := ((c : Thread nD τ), .dma (recvSem r))

-- checks of spelling against the printed program
example : ((cc0_scratch1.slice (Rect.unit (s := S4) ![2] S1.size inb_S4_S1_2)).squeeze S_ squeezes_S1_S_).sem = inSem 2 := rfl
example : ((cc0_scratch3.slice (Rect.unit (s := S4) ![3] S1.size inb_S4_S1_3)).squeeze S_ squeezes_S1_S_).sem = recvSem 3 := rfl
example (d0 : Dev nD) : Rect.unit (s := S2048x512) (k0_off2 d0 768#32) S256x512.size (k0_off2_inb d0 3) = outRect d0 3 := rfl
example : Rect.unit (s := S1024x512) ![256, 0] S256x512.size inb_S1024x512_S256x512_256_0 = inRect 1 := rfl

abbrev Nin : ℕ := (inDst 0).view.dmaCredit
abbrev Nout : ℕ := (stgM.slice (Rect.unit (s := S2048x512) ![0, 0] S256x512.size (by decide)) (fun _ => rfl)).view.dmaCredit
theorem Nin_pos : 0 < Nin := View.dmaCredit_pos _ (by decide)
theorem Nout_pos : 0 < Nout := View.dmaCredit_pos _ (by decide)
example (r : Fin 4) : (inDst r).view.dmaCredit = Nin := rfl
example (d : Dev nD) (r : Fin 4) : (outM d r).view.dmaCredit = Nout := rfl

variable (m : (ℓ : Loc nD τ sig) → Buf (Elt F) ℓ)

/-- Device `d`'s own rows. -/
abbrev xs (d : Dev nD) : Buf (Elt F) ((d : Thread nD τ).loc main_arg0) := m ((d : Thread nD τ).loc main_arg0)

/-- Chunk `r` of device `d`'s rows, cast to the result's format. -/
def pay (d : Dev nD) (r : Fin 4) : FVec F S256x512 .bf16 := k0_pay1 ((argM.access (inRect r)).read (Elt F) (xs m d))

example (d : Dev nD) (v) : k0_pay3 (F := F) v = k0_pay1 v := rfl

end Cert.Kernel.AG

end
-- ==== Proof.Kernel.Sched.lean ====
/-
  The exchange's schedule under the rounds discipline. Every cell has ONE round of ONE duty.
  * a device's barrier cell: one unit, paid by its partner; it hands the device the four chunk slots of the partner's
    buffer that the device's copies will fill, with the fact that the partner's four receive cells are at round 0;
  * its four input cells: the local copy of chunk `r` of its own rows into its scratch, paid by itself; it hands back
    the scratch rows holding the chunk and the source rows;
  * its four send cells: paid by itself when chunk `r` of its half of the result has been read; it hands back
    those rows holding the chunk cast;
  * its four receive cells: paid by the partner's copy of ITS chunk `r`; it hands the device those rows of its own
    buffer holding the partner's chunk cast.
  A device therefore owes, at launch, one unit to its partner's barrier and a chunk's credit to each of the partner's
  four receive cells. Levels: barrier cells 1, receive cells 2, all else 0; every wait happens while the waiter
  owes receive credit only.
-/
import proofs.«900410_g7700000000000411_dist_ag_v7x_xyz2x4x4_x_m1024_n512_bf16_1_alg».proof.Proof.Kernel.Cells
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## What a duty hands over -/

/-- Chunk `(d, r)` of device `c`'s result buffer, holding `g` there. -/
def outPts (c d : Dev nD) (r : Fin 4) (g : Buf (Elt F) ((outM d r).view.loc (c : Thread nD τ))) : sProp 𝕄 :=
  (outM d r).view.loc (c : Thread nD τ) ↦[(outM d r).view.set]{fullShare} g

/-- Chunk `(d, r)` of device `c`'s result buffer holds chunk `r` of device `d`'s rows, cast. -/
def outHolds (c d : Dev nD) (r : Fin 4) : sProp 𝕄 :=
  iprop(∃ f, outPts c d r ((outM d r).view.write (Elt F) f (pay m d r) Finset.univ))

/-- Rows `r` of device `c`'s scratch hold chunk `r` of its rows; the source rows come back with them. -/
def inPay (c : Dev nD) (r : Fin 4) : sProp 𝕄 :=
  iprop((∃ f, (inDst r).view.loc (c : Thread nD τ) ↦[(inDst r).view.set]{fullShare}
          (inDst r).view.write (Elt F) f ((inSrc r).view.read (Elt F) (xs m c)) Finset.univ)
    ∗ ((inSrc r).view.loc (c : Thread nD τ) ↦[(inSrc r).view.set]{fullShare} xs m c))

def sendPay (c : Dev nD) (r : Fin 4) : sProp 𝕄 := outHolds m c c r
def recvPay (c : Dev nD) (r : Fin 4) : sProp 𝕄 := outHolds m c (peer c) r

/-- The free slot for chunk `r` of `c`'s rows in the partner's buffer, and that the partner's receive cell `r` is at round 0. -/
def slotPay (c : Dev nD) (r : Fin 4) : sProp 𝕄 :=
  iprop((∃ f, outPts (F := F) (peer c) c r f) ∗ reached ER (recvCell (peer c) r) 0)
def barPay (c : Dev nD) : sProp 𝕄 := iprop(slotPay (F := F) c 0 ∗ slotPay (F := F) c 1 ∗ slotPay (F := F) c 2 ∗ slotPay (F := F) c 3)

/-- A DMA cell's payload by its number: 1–4 input, 5–8 send, 9–12 receive. -/
def dmaPay (c : Dev nD) (q : DmaSem sig) : sProp 𝕄 :=
  if h0 : q.val < 1 then iprop(emp)
  else if h4 : q.val < 5 then inPay m c ⟨q.val - 1, by omega⟩
  else if h8 : q.val < 9 then sendPay m c ⟨q.val - 5, by omega⟩
  else recvPay m c ⟨q.val - 9, by have := q.isLt; (have : q.val < 13 := this); omega⟩

/-- The cells of the exchange on a TensorCore: the barrier and DMA semaphores 1–12 (0 is the result's staging cell). -/
def ours : SemLoc sig → Bool
  | .reg _ => true
  | .dma q => decide (1 ≤ q.val)

def agRd : Rounds.Schedule (GSem nD τ sig) Unit 𝕄 where
  duties g r := if r = 0 ∧ g.1.2 = .tc ∧ ours g.2 = true then {()} else ∅
  unitless _ := False
  amount g _ _ := match g.2 with
    | .reg _ => 1
    | .dma q => if q.val < 5 then Nin else Nout
  payload g _ _ := match g.2 with
    | .reg _ => barPay g.1.1
    | .dma q => dmaPay m g.1.1 q
  amount_pos g _ _ _ := by
    rcases g with ⟨t, sm⟩
    cases sm with
    | reg s => exact Nat.one_pos
    | dma q => dsimp only; split
               · exact Nin_pos
               · exact Nout_pos

instance slotPay_storable (c : Dev nD) (r : Fin 4) : BI.Storable (upEmb : UEmb _ 𝕄) (slotPay (F := F) c r) := by
  unfold slotPay outPts; infer_instance
instance barPay_storable (c : Dev nD) : BI.Storable (upEmb : UEmb _ 𝕄) (barPay (F := F) c) := by
  unfold barPay; infer_instance
instance outHolds_storable (c d : Dev nD) (r : Fin 4) : BI.Storable (upEmb : UEmb _ 𝕄) (outHolds m c d r) := by
  unfold outHolds outPts; infer_instance
instance inPay_storable (c : Dev nD) (r : Fin 4) : BI.Storable (upEmb : UEmb _ 𝕄) (inPay m c r) := by
  unfold inPay; infer_instance

instance agRd_payload_storable (g : GSem nD τ sig) (r : ℕ) (d : Unit) :
    BI.Storable (upEmb : UEmb _ 𝕄) ((agRd (F := F) m).payload g r d) := by
  rcases g with ⟨t, sm⟩
  cases sm with
  | reg s => show BI.Storable upEmb (barPay t.1); infer_instance
  | dma q =>
    show BI.Storable upEmb (dmaPay m t.1 q)
    unfold dmaPay sendPay recvPay
    (repeat' split) <;> infer_instance

section Tables
variable (c : Dev nD) (r : Fin 4)

theorem duties_bar : (agRd (F := F) m).duties (barCell c) 0 = {()} := by dsimp only [agRd]; exact if_pos ⟨rfl, rfl, rfl⟩
theorem duties_in : (agRd (F := F) m).duties (inCell c r) 0 = {()} := by
  dsimp only [agRd]; exact if_pos ⟨rfl, rfl, by revert r; decide⟩
theorem duties_send : (agRd (F := F) m).duties (sendCell c r) 0 = {()} := by
  dsimp only [agRd]; exact if_pos ⟨rfl, rfl, by revert r; decide⟩
theorem duties_recv : (agRd (F := F) m).duties (recvCell c r) 0 = {()} := by
  dsimp only [agRd]; exact if_pos ⟨rfl, rfl, by revert r; decide⟩
theorem duties_later (g : GSem nD τ sig) : ∀ r, 1 ≤ r → (agRd (F := F) m).duties g r = ∅ :=
  fun r hr => by dsimp only [agRd]; rw [if_neg fun h => by omega]

theorem amount_bar (d : Unit) : (agRd (F := F) m).amount (barCell c) 0 d = 1 := rfl
theorem amount_in (d : Unit) : (agRd (F := F) m).amount (inCell c r) 0 d = Nin := by
  show (if (inSem r).val < 5 then Nin else Nout) = Nin
  rw [if_pos (by show 1 + r.val < 5; omega)]
theorem amount_send (d : Unit) : (agRd (F := F) m).amount (sendCell c r) 0 d = Nout := by
  show (if (sendSem r).val < 5 then Nin else Nout) = Nout
  rw [if_neg (by show ¬ 5 + r.val < 5; omega)]
theorem amount_recv (d : Unit) : (agRd (F := F) m).amount (recvCell c r) 0 d = Nout := by
  show (if (recvSem r).val < 5 then Nin else Nout) = Nout
  rw [if_neg (by show ¬ 9 + r.val < 5; omega)]

theorem expect_bar : (agRd (F := F) m).expect (barCell c) 0 = 1 := by
  unfold Schedule.expect Schedule.amountOf; rw [duties_bar, Finset.sum_singleton, amount_bar]
theorem expect_in : (agRd (F := F) m).expect (inCell c r) 0 = Nin := by
  unfold Schedule.expect Schedule.amountOf; rw [duties_in, Finset.sum_singleton, amount_in]
theorem expect_send : (agRd (F := F) m).expect (sendCell c r) 0 = Nout := by
  unfold Schedule.expect Schedule.amountOf; rw [duties_send, Finset.sum_singleton, amount_send]
theorem expect_recv : (agRd (F := F) m).expect (recvCell c r) 0 = Nout := by
  unfold Schedule.expect Schedule.amountOf; rw [duties_recv, Finset.sum_singleton, amount_recv]

theorem payload_bar (d : Unit) : (agRd (F := F) m).payload (barCell c) 0 d = barPay c := rfl
theorem payload_in (d : Unit) : (agRd (F := F) m).payload (inCell c r) 0 d = inPay m c r := by
  show dmaPay m c (inSem r) = _
  unfold dmaPay
  rw [dif_neg (by show ¬ 1 + r.val < 1; omega), dif_pos (by show 1 + r.val < 5; omega)]
  congr 1; exact Fin.ext (by show 1 + r.val - 1 = r.val; omega)
theorem payload_send (d : Unit) : (agRd (F := F) m).payload (sendCell c r) 0 d = sendPay m c r := by
  show dmaPay m c (sendSem r) = _
  unfold dmaPay
  rw [dif_neg (by show ¬ 5 + r.val < 1; omega), dif_neg (by show ¬ 5 + r.val < 5; omega), dif_pos (by show 5 + r.val < 9; omega)]
  congr 1; exact Fin.ext (by show 5 + r.val - 5 = r.val; omega)
theorem payload_recv (d : Unit) : (agRd (F := F) m).payload (recvCell c r) 0 d = recvPay m c r := by
  show dmaPay m c (recvSem r) = _
  unfold dmaPay
  rw [dif_neg (by show ¬ 9 + r.val < 1; omega), dif_neg (by show ¬ 9 + r.val < 5; omega), dif_neg (by show ¬ 9 + r.val < 9; omega)]
  congr 1; exact Fin.ext (by show 9 + r.val - 9 = r.val; omega)

theorem rest_bar : bigSep ((agRd (F := F) m).duties (barCell c) 0 \ ∅) (fun d => (agRd (F := F) m).payload (barCell c) 0 d) = barPay c := by
  rw [Finset.sdiff_empty, duties_bar, bigSep_singleton, payload_bar]
theorem rest_in : bigSep ((agRd (F := F) m).duties (inCell c r) 0 \ ∅) (fun d => (agRd (F := F) m).payload (inCell c r) 0 d) = inPay m c r := by
  rw [Finset.sdiff_empty, duties_in, bigSep_singleton, payload_in]
theorem rest_send : bigSep ((agRd (F := F) m).duties (sendCell c r) 0 \ ∅) (fun d => (agRd (F := F) m).payload (sendCell c r) 0 d) = sendPay m c r := by
  rw [Finset.sdiff_empty, duties_send, bigSep_singleton, payload_send]
theorem rest_recv : bigSep ((agRd (F := F) m).duties (recvCell c r) 0 \ ∅) (fun d => (agRd (F := F) m).payload (recvCell c r) 0 d) = recvPay m c r := by
  rw [Finset.sdiff_empty, duties_recv, bigSep_singleton, payload_recv]

end Tables

/-! ## What each device owes at launch; the levels -/

/-- What device `c` still owes before its copy of chunk 3, 2, 1, 0; and at launch. -/
def Q3 (c : Dev nD) : CellTallies nD τ sig Unit := tallyAt (recvCell (peer c) 3) () Nout
def Q2 (c : Dev nD) : CellTallies nD τ sig Unit := Q3 c + tallyAt (recvCell (peer c) 2) () Nout
def Q1 (c : Dev nD) : CellTallies nD τ sig Unit := Q2 c + tallyAt (recvCell (peer c) 1) () Nout
def Q0 (c : Dev nD) : CellTallies nD τ sig Unit := Q1 c + tallyAt (recvCell (peer c) 0) () Nout
def O₀ (c : Dev nD) : CellTallies nD τ sig Unit := Q0 c + tallyAt (barCell (peer c)) () 1

def L (g : GSem nD τ sig) : Finset Unit := if g.1.2 = .tc then {()} else ∅
def lv (g : GSem nD τ sig) (_ : Unit) : ℕ := match g.2 with
  | .reg _ => 1
  | .dma q => if 9 ≤ q.val then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_recv (c : Dev nD) (r : Fin 4) : lv (recvCell c r) () = 2 := by
  show (if 9 ≤ (recvSem r).val then 2 else 0) = 2
  rw [if_pos (by show 9 ≤ 9 + r.val; omega)]

/-- Everything in `Q0 c` is a receive cell of the partner. -/
theorem Q0_pos {c : Dev nD} {g : GSem nD τ sig} {u : Unit} (h : 0 < Q0 c g u) : ∃ r, g = recvCell (peer c) r := by
  unfold Q0 Q1 Q2 Q3 at h
  rcases Pipeline.add_pos_cases h with h | h
  · rcases Pipeline.add_pos_cases h with h | h
    · rcases Pipeline.add_pos_cases h with h | h
      · exact ⟨3, (Pipeline.tallyAt_pos h).1⟩
      · exact ⟨2, (Pipeline.tallyAt_pos h).1⟩
    · exact ⟨1, (Pipeline.tallyAt_pos h).1⟩
  · exact ⟨0, (Pipeline.tallyAt_pos h).1⟩

theorem Q1_le (c : Dev nD) {g u} (h : 0 < Q1 c g u) : 0 < Q0 c g u := by
  unfold Q0; rw [Pi.add_apply, Finsupp.add_apply]; omega
theorem Q2_le (c : Dev nD) {g u} (h : 0 < Q2 c g u) : 0 < Q0 c g u := by
  apply Q1_le; unfold Q1; rw [Pi.add_apply, Finsupp.add_apply]; omega
theorem Q3_le (c : Dev nD) {g u} (h : 0 < Q3 c g u) : 0 < Q0 c g u := by
  apply Q2_le; unfold Q2; rw [Pi.add_apply, Finsupp.add_apply]; omega

/-- A wait on a cell below level 2 while owing at most the partner's receive credits. -/
theorem mayWait_low (c : Dev nD) (sm : SemLoc sig) (hsm : lv ((c : Thread nD τ), sm) () < 2) (O : CellTallies nD τ sig Unit)
    (hO : ∀ g u, 0 < O g u → 0 < Q0 c g u) :
    (levAts L lv : sProp 𝕄) ⊢ MayWait (c : Thread nD τ) sm () O :=
  Pipeline.mayWait_of_levAts (by rw [L_tc]; exact Finset.mem_singleton_self _) fun g u hg => by
    obtain ⟨r, rfl⟩ := Q0_pos (hO g u hg)
    exact ⟨by rw [L_tc]; exact Finset.mem_singleton_self _, by rw [lv_recv]; exact hsm⟩

end Cert.Kernel.AG

end
-- ==== Proof.Kernel.BodyRules.lean ====
/-
  The steps of one device's body under the schedule: the local copy of a chunk into the scratch, the copy of a chunk
  of the result into the partner's buffer, and the small facts about rectangles the loads and stores need.
-/
import proofs.«900410_g7700000000000411_dist_ag_v7x_xyz2x4x4_x_m1024_n512_bf16_1_alg».proof.Proof.Kernel.Sched
import proofs.«900410_g7700000000000411_dist_ag_v7x_xyz2x4x4_x_m1024_n512_bf16_1_alg».proof.Proof.LibPieces
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

/-! ## The store's rectangle is the copy's -/

/-- The rectangle the body stores chunk `r` through (the printed store's offsets). -/
abbrev stRect (d : Dev nD) (r : Fin 4) : Rect S2048x512 := Rect.unit (s := S2048x512) (k0_off1 d (rowWord r)) S256x512.size (k0_off1_inb d r)

theorem off1_eq_off2 (d : Dev nD) (r : Fin 4) : k0_off1 d (rowWord r) = k0_off2 d (rowWord r) := (k0_off1_eq d r).trans (k0_off2_eq d r).symm

omit [FloatOps F] in
theorem unit_congr {Val : EltTy → Type} {off off' : Fin 2 → Nat} (h : off = off') (inb : ∀ a, off a + S256x512.size a ≤ S2048x512.size a)
    (inb' : ∀ a, off' a + S256x512.size a ≤ S2048x512.size a) (c : Dev nD) (f : Buf Val ((c : Thread nD τ).loc cc0_stg0_0)) (w : S256x512.Idx → Val .bf16) :
    (stgM.access (Rect.unit (s := S2048x512) off S256x512.size inb)).set = (stgM.access (Rect.unit (s := S2048x512) off' S256x512.size inb')).set
    ∧ (stgM.access (Rect.unit (s := S2048x512) off S256x512.size inb)).write Val f w Finset.univ
        = (stgM.access (Rect.unit (s := S2048x512) off' S256x512.size inb')).write Val f w Finset.univ := by
  subst h; exact ⟨rfl, rfl⟩

theorem stRect_set (d : Dev nD) (r : Fin 4) : (stgM.access (stRect d r)).set = (outM d r).view.set :=
  (unit_congr (Val := fun _ => PUnit) (off1_eq_off2 d r) _ _ d (fun _ => ⟨⟩) (fun _ => ⟨⟩)).1

theorem stRect_write (c d : Dev nD) (r : Fin 4) (f : Buf (Elt F) ((c : Thread nD τ).loc cc0_stg0_0)) (w : S256x512.Idx → Elt F .bf16) :
    (stgM.access (stRect d r)).write (Elt F) f w Finset.univ = (outM d r).view.write (Elt F) f w Finset.univ :=
  (unit_congr (off1_eq_off2 d r) _ _ c f w).2

/-! ## The steps -/

section Steps
variable (c : Dev nD) (r : Fin 4)

/-- The local copy of chunk `r` of the device's rows into its scratch pays the input cell's duty. -/
theorem wp_in {hsrc : (inSrc r).view.WordExact} {hdst : (inDst r).view.WordExact}
    {hsem : DmaTarget.Typed (nD := nD) .hbm (.dma (inSem r)) (DmaTarget.here (nD := nD) (τ := τ) (p := (c : Thread nD τ).2) (inDst r))}
    {α : Type} {Q : α → sProp 𝕄} {k : PUnit → Prog (TpuEff nD τ sig (Elt F) Λ₀ .tc) α} (κ : ℕ)
    (fd : Buf (Elt F) ((inDst r).view.loc (c : Thread nD τ))) :
    iprop(cellInv ER (agRd m) κ (inCell c r)
        ∗ ((inSrc r).view.loc (c : Thread nD τ) ↦[(inSrc r).view.set]{fullShare} xs m c)
        ∗ ((inDst r).view.loc (c : Thread nD τ) ↦[(inDst r).view.set]{fullShare} fd)
        ∗ dutyTok ER (inCell c r) 0 () ∗ reached ER (inCell c r) 0)
      ⊢ iprop((cred (tallyAt (inCell c r) () Nin) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (inSrc r) (.here (inDst r)) (.dma (inSem r)) hsrc hdst hsem) k) Q) :=
  Rounds.wp_copy_pointsTo 𝒱₀ ER (agRd m) (c : Thread nD τ) none (κ := κ) (r := 0) (d := ()) (fd := fd)
    (by rw [duties_in]; exact Finset.mem_singleton_self _) () Nin rfl (amount_in m c r ())
    (by rw [payload_in]; unfold inPay
        iintro ⟨Hd, Hs⟩
        isplitl [Hd]; · iexists fd; iexact Hd
        iexact Hs)

theorem recvPay_peer : recvPay m (peer c) r = outHolds m (peer c) c r := by unfold recvPay; rw [peer_peer]

/-- The copy of chunk `r` of the device's half into the partner's buffer (addressed to `n = peer c`) pays its own send
    cell's duty and the partner's receive cell's. -/
theorem wp_send_chunk (n : Dev nD) (hn : n = peer c)
    {hsc : (outM c r : Memref sig (Dev.tc n : Thread nD τ).2.kind .vmem S256x512 .bf16).view.ref.isScScratch = false}
    {hsrc : (outM c r).view.WordExact} {hdst : (outM c r).view.WordExact}
    {hsem : DmaTarget.Typed .vmem (.dma (recvSem r)) (.remote (Dev.tc n : Thread nD τ) (outM c r) (.dma (sendSem r)) hsc)}
    {α : Type} {Q : α → sProp 𝕄} {k : PUnit → Prog (TpuEff nD τ sig (Elt F) Λ₀ .tc) α} (κ₁ κ₂ : ℕ)
    (f : Buf (Elt F) ((outM c r).view.loc (c : Thread nD τ))) (fn : Buf (Elt F) ((outM c r).view.loc (peer c : Thread nD τ)))
    (O : CellTallies nD τ sig Unit) (W : Waits sig Unit) :
    iprop(cellInv ER (agRd m) κ₁ (sendCell c r) ∗ cellInv ER (agRd m) κ₂ (recvCell (peer c) r)
        ∗ outPts c c r ((outM c r).view.write (Elt F) f (pay m c r) Finset.univ) ∗ outPts (peer c) c r fn
        ∗ owes (c : Thread nD τ) (O + tallyAt (recvCell (peer c) r) () Nout) W
        ∗ dutyTok ER (sendCell c r) 0 () ∗ reached ER (sendCell c r) 0
        ∗ dutyTok ER (recvCell (peer c) r) 0 () ∗ reached ER (recvCell (peer c) r) 0)
      ⊢ iprop(((cred (tallyAt (sendCell c r) () Nout) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (outM c r) (.remote (Dev.tc n : Thread nD τ) (outM c r) (.dma (sendSem r)) hsc) (.dma (recvSem r)) hsrc hdst hsem) k) Q) := by
  subst hn
  unfold outPts
  exact Rounds.wp_send_pointsTo 𝒱₀ ER (agRd m) (c : Thread nD τ) none (κ₁ := κ₁) (κ₂ := κ₂)
    (r₁ := 0) (r₂ := 0) (d₁ := ()) (d₂ := ()) (fd := fn)
    (by rw [duties_send]; exact Finset.mem_singleton_self _) (by rw [duties_recv]; exact Finset.mem_singleton_self _)
    () () Nout rfl (amount_send m c r ()) (amount_recv m (peer c) r ()) O rfl (W := W)
    (by rw [payload_send]; unfold sendPay outHolds outPts
        iintro H; iexists f; iexact H)
    (by rw [payload_recv, recvPay_peer]; unfold outHolds outPts
        rw [View.read_write_univ]
        iintro H; iexists fn; iexact H)

end Steps

end Cert.Kernel.AG

end
-- ==== Proof.Kernel.BodyPrep.lean ====
/-
  What one device holds while it runs, and how its three buffers are cut along the chunks: its own rows (the copies'
  sources), its scratch (their destinations) and the result buffer — its own four chunks, which it stores and sends,
  and the partner's four, whose slots it gives to the partner at the handshake and gets back filled.
-/
import proofs.«900410_g7700000000000411_dist_ag_v7x_xyz2x4x4_x_m1024_n512_bf16_1_alg».proof.Proof.Kernel.BodyRules
import Idealize.ShloMosaic.Lib.ValueIdx
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The result -/

/-- The device of the pair `{c, peer c}` whose first mesh coordinate is `b` (taken mod 2). -/
def own (c : Dev nD) (b : ℕ) : Dev nD := ⟨16 * (b % 2) + c.val % 16, by show 16 * (b % 2) + c.val % 16 < 32; omega⟩

theorem own_self (c : Dev nD) : own c (c.val / 16) = c := by revert c; decide
theorem own_peer (c : Dev nD) : own c ((peer c).val / 16) = peer c := by revert c; decide
theorem own_of_peer (c : Dev nD) (b : ℕ) : own (peer c) b = own c b :=
  Fin.ext (by show 16 * (b % 2) + ((c.val + 16) % 32) % 16 = 16 * (b % 2) + c.val % 16; omega)
theorem half_le (c : Dev nD) : c.val / 16 ≤ 1 := by have := c.isLt; (have : c.val < 32 := this); omega
theorem peer_half (c : Dev nD) : (peer c).val / 16 = 1 - c.val / 16 := by revert c; decide

/-- What every device of a pair ends with in its result buffer: row `y₀` is row `y₀ mod 1024` of the rows of the
    device of the pair at first coordinate `y₀ / 1024`, each element cast to the result's format. -/
def outAt (c : Dev nD) : (cc0_stg0_0 : Ref sig .tc).ty.Contents (Elt F) := fun y =>
  FloatOps.truncf .bf16 bitsLt_bf16_f32
    (xs m (own c ((y 0).val / 1024)) (ValueIdx.ix2 (n0 := 1024) (n1 := 512) ⟨(y 0).val % 1024, Nat.mod_lt _ (by decide)⟩ (y 1)))

/-- The eight chunks of the result as writes: a device's own four, then its partner's four. -/
def outPieces (c : Dev nD) : List (View.Piece (Elt F) S2048x512 .bf16) :=
  [⟨outRect c 0, pay m c 0⟩, ⟨outRect c 1, pay m c 1⟩, ⟨outRect c 2, pay m c 2⟩, ⟨outRect c 3, pay m c 3⟩,
   ⟨outRect (peer c) 0, pay m (peer c) 0⟩, ⟨outRect (peer c) 1, pay m (peer c) 1⟩, ⟨outRect (peer c) 2, pay m (peer c) 2⟩, ⟨outRect (peer c) 3, pay m (peer c) 3⟩]

abbrev outRects (c : Dev nD) : List (Rect S2048x512) :=
  [outRect c 0, outRect c 1, outRect c 2, outRect c 3, outRect (peer c) 0, outRect (peer c) 1, outRect (peer c) 2, outRect (peer c) 3]
abbrev inRects : List (Rect S1024x512) := [inRect 0, inRect 1, inRect 2, inRect 3]

/-- The chunks of the scratch as the local copies leave them. -/
def inPieces (c : Dev nD) : List (View.Piece (Elt F) S1024x512 .f32) :=
  [⟨inRect 0, (inSrc 0).view.read (Elt F) (xs m c)⟩, ⟨inRect 1, (inSrc 1).view.read (Elt F) (xs m c)⟩,
   ⟨inRect 2, (inSrc 2).view.read (Elt F) (xs m c)⟩, ⟨inRect 3, (inSrc 3).view.read (Elt F) (xs m c)⟩]

/-! ## Disjoint chunks -/

theorem pairwise4 {α : Type} (R : α → α → Prop) (a0 a1 a2 a3 : α) (h01 : R a0 a1) (h02 : R a0 a2) (h03 : R a0 a3)
    (h12 : R a1 a2) (h13 : R a1 a3) (h23 : R a2 a3) : [a0, a1, a2, a3].Pairwise R := by
  refine List.Pairwise.cons ?_ (List.Pairwise.cons ?_ (List.Pairwise.cons ?_ (List.Pairwise.cons ?_ List.Pairwise.nil)))
  · intro a ha; simp only [List.mem_cons, List.not_mem_nil, or_false] at ha; rcases ha with rfl | rfl | rfl <;> assumption
  · intro a ha; simp only [List.mem_cons, List.not_mem_nil, or_false] at ha; rcases ha with rfl | rfl <;> assumption
  · intro a ha; simp only [List.mem_cons, List.not_mem_nil, or_false] at ha; rcases ha with rfl; assumption
  · intro a ha; exact absurd ha List.not_mem_nil

theorem inRect_set_disj (r r' : Fin 4) (h : r ≠ r') : Disjoint (inRect r).set (inRect r').set :=
  Rect.unit_disjoint 0 (by revert r r'; decide)

theorem arg_disj (r r' : Fin 4) (h : r ≠ r') : Disjoint (argM.access (inRect r)).set (argM.access (inRect r')).set := by
  show Disjoint ((View.whole main_arg0).slice (inRect r)).set ((View.whole main_arg0).slice (inRect r')).set
  rw [View.set_slice_whole, View.set_slice_whole]; exact inRect_set_disj r r' h
theorem scr_disj (r r' : Fin 4) (h : r ≠ r') : Disjoint (scrM.access (inRect r)).set (scrM.access (inRect r')).set := by
  show Disjoint ((View.whole cc0_scratch0).slice (inRect r)).set ((View.whole cc0_scratch0).slice (inRect r')).set
  rw [View.set_slice_whole, View.set_slice_whole]; exact inRect_set_disj r r' h

theorem arg_pairwise : inRects.Pairwise (fun r r' => Disjoint (argM.access r).set (argM.access r').set) :=
  pairwise4 _ _ _ _ _ (arg_disj 0 1 (by decide)) (arg_disj 0 2 (by decide)) (arg_disj 0 3 (by decide))
    (arg_disj 1 2 (by decide)) (arg_disj 1 3 (by decide)) (arg_disj 2 3 (by decide))
theorem scr_pairwise : inRects.Pairwise (fun r r' => Disjoint (scrM.access r).set (scrM.access r').set) :=
  pairwise4 _ _ _ _ _ (scr_disj 0 1 (by decide)) (scr_disj 0 2 (by decide)) (scr_disj 0 3 (by decide))
    (scr_disj 1 2 (by decide)) (scr_disj 1 3 (by decide)) (scr_disj 2 3 (by decide))

/-- Two chunks of the result whose row ranges do not meet. -/
theorem out_disj (d d' : Dev nD) (r r' : Fin 4)
    (h : 1024 * (d.val / 16) + 256 * r.val + 256 ≤ 1024 * (d'.val / 16) + 256 * r'.val
      ∨ 1024 * (d'.val / 16) + 256 * r'.val + 256 ≤ 1024 * (d.val / 16) + 256 * r.val) :
    Disjoint (stgM.access (outRect d r)).set (stgM.access (outRect d' r')).set := by
  show Disjoint ((View.whole cc0_stg0_0).slice (outRect d r)).set ((View.whole cc0_stg0_0).slice (outRect d' r')).set
  rw [View.set_slice_whole, View.set_slice_whole]
  refine Rect.unit_disjoint 0 ?_
  rw [k0_off2_eq d r, k0_off2_eq d' r']
  exact h

theorem out_disj_same (d : Dev nD) (r r' : Fin 4) (h : r ≠ r') : Disjoint (stgM.access (outRect d r)).set (stgM.access (outRect d r')).set :=
  out_disj d d r r' (by
    have h' : r.val ≠ r'.val := fun e => h (Fin.ext e)
    omega)
theorem out_disj_cross (c : Dev nD) (r r' : Fin 4) : Disjoint (stgM.access (outRect c r)).set (stgM.access (outRect (peer c) r')).set :=
  out_disj c (peer c) r r' (by
    have h1 := peer_half c; have h2 := half_le c; have := r.isLt; have := r'.isLt
    omega)

theorem out_pairwise (c : Dev nD) : (outRects c).Pairwise (fun r r' => Disjoint (stgM.access r).set (stgM.access r').set) := by
  show ([outRect c 0, outRect c 1, outRect c 2, outRect c 3] ++ [outRect (peer c) 0, outRect (peer c) 1, outRect (peer c) 2, outRect (peer c) 3]).Pairwise _
  rw [List.pairwise_append]
  refine ⟨pairwise4 _ _ _ _ _ (out_disj_same c 0 1 (by decide)) (out_disj_same c 0 2 (by decide)) (out_disj_same c 0 3 (by decide))
      (out_disj_same c 1 2 (by decide)) (out_disj_same c 1 3 (by decide)) (out_disj_same c 2 3 (by decide)),
    pairwise4 _ _ _ _ _ (out_disj_same _ 0 1 (by decide)) (out_disj_same _ 0 2 (by decide)) (out_disj_same _ 0 3 (by decide))
      (out_disj_same _ 1 2 (by decide)) (out_disj_same _ 1 3 (by decide)) (out_disj_same _ 2 3 (by decide)), ?_⟩
  intro a ha b hb
  simp only [List.mem_cons, List.not_mem_nil, or_false] at ha hb
  rcases ha with rfl | rfl | rfl | rfl <;> rcases hb with rfl | rfl | rfl | rfl <;> exact out_disj_cross c _ _

theorem scr_pairwise_pieces (c : Dev nD) :
    (inPieces m c).Pairwise (fun p p' => Disjoint (scrM.access p.1).set (scrM.access p'.1).set) :=
  List.pairwise_map.mp (show ((inPieces m c).map Sigma.fst).Pairwise _ from scr_pairwise)
theorem out_pairwise_pieces (c : Dev nD) :
    (outPieces m c).Pairwise (fun p p' => Disjoint (stgM.access p.1).set (stgM.access p'.1).set) :=
  List.pairwise_map.mp (show ((outPieces m c).map Sigma.fst).Pairwise _ from out_pairwise c)

/-! ## The buffers cut and rejoined -/

omit [FloatOps F] in
theorem whole_eq (b : Ref sig .tc) (c : Dev nD) (f : Buf (Elt F) ((c : Thread nD τ).loc b)) :
    (((Memref.whole b : Memref sig .tc _ _ _).view.loc (c : Thread nD τ)) ↦[(Memref.whole b : Memref sig .tc _ _ _).view.set]{fullShare} f : sProp 𝕄)
      = (((c : Thread nD τ).loc b) ↦{fullShare} f) := by
  show ((View.loc (c : Thread nD τ) (View.whole b)) ↦[(View.whole b).set]{fullShare} f : sProp 𝕄) = _
  rw [View.set_whole]

/-- What is left of a buffer once the chunks are carved out of it (nothing, in fact; never needed). -/
abbrev argRest (c : Dev nD) (X : Buf (Elt F) ((c : Thread nD τ).loc main_arg0)) : sProp 𝕄 :=
  argM.view.loc (c : Thread nD τ) ↦[argM.view.set \ Cert.Pieces.rectsSet (c : Thread nD τ) argM inRects]{fullShare} X
abbrev scrRest (c : Dev nD) (X : Buf (Elt F) ((c : Thread nD τ).loc cc0_scratch0)) : sProp 𝕄 :=
  scrM.view.loc (c : Thread nD τ) ↦[scrM.view.set \ Cert.Pieces.rectsSet (c : Thread nD τ) scrM inRects]{fullShare} X
abbrev stgRest (c : Dev nD) (X : Buf (Elt F) ((c : Thread nD τ).loc cc0_stg0_0)) : sProp 𝕄 :=
  stgM.view.loc (c : Thread nD τ) ↦[stgM.view.set \ Cert.Pieces.rectsSet (c : Thread nD τ) stgM (outRects c)]{fullShare} X

abbrev argChunk (c : Dev nD) (r : Fin 4) (X : Buf (Elt F) ((c : Thread nD τ).loc main_arg0)) : sProp 𝕄 :=
  (inSrc r).view.loc (c : Thread nD τ) ↦[(inSrc r).view.set]{fullShare} X
abbrev scrChunk (c : Dev nD) (r : Fin 4) (X : Buf (Elt F) ((c : Thread nD τ).loc cc0_scratch0)) : sProp 𝕄 :=
  (inDst r).view.loc (c : Thread nD τ) ↦[(inDst r).view.set]{fullShare} X

omit [FloatOps F] in
theorem arg_split (c : Dev nD) (X : Buf (Elt F) ((c : Thread nD τ).loc main_arg0)) :
    ((((c : Thread nD τ).loc main_arg0) ↦{fullShare} X) : sProp 𝕄)
      ⊢ iprop(argChunk c 0 X ∗ argChunk c 1 X ∗ argChunk c 2 X ∗ argChunk c 3 X ∗ argRest c X) := by
  rw [← whole_eq]
  refine (Cert.Pieces.split (c : Thread nD τ) argM fullShare X inRects arg_pairwise).trans ?_
  unfold Cert.Pieces.heldAt Cert.Pieces.heldAt Cert.Pieces.heldAt Cert.Pieces.heldAt Cert.Pieces.heldAt
  iintro ⟨⟨H0, H1, H2, H3, -⟩, Hr⟩
  isplitl [H0]; · iexact H0
  isplitl [H1]; · iexact H1
  isplitl [H2]; · iexact H2
  isplitl [H3]; · iexact H3
  iexact Hr

omit [FloatOps F] in
theorem arg_join (c : Dev nD) (X : Buf (Elt F) ((c : Thread nD τ).loc main_arg0)) :
    iprop(argChunk c 0 X ∗ argChunk c 1 X ∗ argChunk c 2 X ∗ argChunk c 3 X ∗ argRest c X)
      ⊢ ((((c : Thread nD τ).loc main_arg0) ↦{fullShare} X) : sProp 𝕄) := by
  rw [← whole_eq]
  refine BIBase.Entails.trans ?_ (Cert.Pieces.join (c : Thread nD τ) argM fullShare X inRects arg_pairwise)
  unfold Cert.Pieces.heldAt Cert.Pieces.heldAt Cert.Pieces.heldAt Cert.Pieces.heldAt Cert.Pieces.heldAt
  iintro ⟨H0, H1, H2, H3, Hr⟩
  isplitr [Hr]
  · isplitl [H0]; · iexact H0
    isplitl [H1]; · iexact H1
    isplitl [H2]; · iexact H2
    isplitl [H3]; · iexact H3
    iempintro
  · iexact Hr

omit [FloatOps F] in
theorem scr_split (c : Dev nD) (X : Buf (Elt F) ((c : Thread nD τ).loc cc0_scratch0)) :
    ((((c : Thread nD τ).loc cc0_scratch0) ↦{fullShare} X) : sProp 𝕄)
      ⊢ iprop(scrChunk c 0 X ∗ scrChunk c 1 X ∗ scrChunk c 2 X ∗ scrChunk c 3 X ∗ scrRest c X) := by
  rw [← whole_eq]
  refine (Cert.Pieces.split (c : Thread nD τ) scrM fullShare X inRects scr_pairwise).trans ?_
  unfold Cert.Pieces.heldAt Cert.Pieces.heldAt Cert.Pieces.heldAt Cert.Pieces.heldAt Cert.Pieces.heldAt
  iintro ⟨⟨H0, H1, H2, H3, -⟩, Hr⟩
  isplitl [H0]; · iexact H0
  isplitl [H1]; · iexact H1
  isplitl [H2]; · iexact H2
  isplitl [H3]; · iexact H3
  iexact Hr

/-- Chunk `r` of the scratch as the local copy left it. -/
abbrev scrLanded (c : Dev nD) (r : Fin 4) : sProp 𝕄 :=
  iprop(∃ f, (inDst r).view.loc (c : Thread nD τ) ↦[(inDst r).view.set]{fullShare}
    (inDst r).view.write (Elt F) f ((inSrc r).view.read (Elt F) (xs m c)) Finset.univ)

theorem scr_join (c : Dev nD) (X : Buf (Elt F) ((c : Thread nD τ).loc cc0_scratch0)) :
    iprop(scrLanded m c 0 ∗ scrLanded m c 1 ∗ scrLanded m c 2 ∗ scrLanded m c 3 ∗ scrRest c X)
      ⊢ (iprop(∃ g, ((c : Thread nD τ).loc cc0_scratch0) ↦{fullShare} g) : sProp 𝕄) := by
  iintro ⟨H0, H1, H2, H3, Hr⟩
  iexists scrM.view.writes (Elt F) X (inPieces m c)
  rw [← whole_eq]
  iapply (Memref.heldBySlice_join_rest (c : Thread nD τ) scrM fullShare (inPieces m c) (scr_pairwise_pieces m c) X)
  unfold inPieces Memref.heldBySlice Memref.heldBySlice Memref.heldBySlice Memref.heldBySlice Memref.heldBySlice
  isplitr [Hr]
  · isplitl [H0]; · iexact H0
    isplitl [H1]; · iexact H1
    isplitl [H2]; · iexact H2
    isplitl [H3]; · iexact H3
    iempintro
  · iexact Hr

omit [FloatOps F] in
theorem stg_split (c : Dev nD) (X : Buf (Elt F) ((c : Thread nD τ).loc cc0_stg0_0)) :
    ((((c : Thread nD τ).loc cc0_stg0_0) ↦{fullShare} X) : sProp 𝕄)
      ⊢ iprop((outPts c c 0 X ∗ outPts c c 1 X ∗ outPts c c 2 X ∗ outPts c c 3 X)
          ∗ (outPts c (peer c) 0 X ∗ outPts c (peer c) 1 X ∗ outPts c (peer c) 2 X ∗ outPts c (peer c) 3 X) ∗ stgRest c X) := by
  rw [← whole_eq]
  refine (Cert.Pieces.split (c : Thread nD τ) stgM fullShare X (outRects c) (out_pairwise c)).trans ?_
  unfold Cert.Pieces.heldAt Cert.Pieces.heldAt Cert.Pieces.heldAt Cert.Pieces.heldAt Cert.Pieces.heldAt Cert.Pieces.heldAt Cert.Pieces.heldAt Cert.Pieces.heldAt Cert.Pieces.heldAt
  unfold outPts
  iintro ⟨⟨H0, H1, H2, H3, H4, H5, H6, H7, -⟩, Hr⟩
  isplitl [H0 H1 H2 H3]
  · isplitl [H0]; · iexact H0
    isplitl [H1]; · iexact H1
    isplitl [H2]; · iexact H2
    iexact H3
  isplitl [H4 H5 H6 H7]
  · isplitl [H4]; · iexact H4
    isplitl [H5]; · iexact H5
    isplitl [H6]; · iexact H6
    iexact H7
  iexact Hr

/-- The eight chunks filled, and what was left: the result buffer whole, holding the chunks written over what it held. -/
theorem stg_join (c : Dev nD) (X : Buf (Elt F) ((c : Thread nD τ).loc cc0_stg0_0)) :
    iprop((outHolds m c c 0 ∗ outHolds m c c 1 ∗ outHolds m c c 2 ∗ outHolds m c c 3)
        ∗ (outHolds m c (peer c) 0 ∗ outHolds m c (peer c) 1 ∗ outHolds m c (peer c) 2 ∗ outHolds m c (peer c) 3) ∗ stgRest c X)
      ⊢ ((((c : Thread nD τ).loc cc0_stg0_0) ↦{fullShare} stgM.view.writes (Elt F) X (outPieces m c)) : sProp 𝕄) := by
  rw [← whole_eq]
  refine BIBase.Entails.trans ?_ (Memref.heldBySlice_join_rest (c : Thread nD τ) stgM fullShare (outPieces m c) (out_pairwise_pieces m c) X)
  unfold outPieces Memref.heldBySlice Memref.heldBySlice Memref.heldBySlice Memref.heldBySlice Memref.heldBySlice Memref.heldBySlice Memref.heldBySlice Memref.heldBySlice Memref.heldBySlice
  unfold outHolds outPts
  iintro ⟨⟨H0, H1, H2, H3⟩, ⟨H4, H5, H6, H7⟩, Hr⟩
  isplitr [Hr]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iempintro
  · iexact Hr

end Cert.Kernel.AG

end
-- ==== Proof.Kernel.BodyDefs.lean ====
/-
  One device's body, stepped from what the launch hands it: the four local copies of its rows into the scratch, the
  handshake with the partner, then chunk by chunk the wait for the local copy, the cast and the store into its half of the
  result, and the copy of that chunk into the partner's buffer; at the end the waits for its four sends and for the
  partner's four chunks, the cells closed and the three buffers put together again.
-/
import proofs.«900410_g7700000000000411_dist_ag_v7x_xyz2x4x4_x_m1024_n512_bf16_1_alg».proof.Proof.Kernel.BodyPrep
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The cells by number; what a device starts from -/

/-- A device's thirteen cells by number: 0 the barrier, 1–4 input, 5–8 send, 9–12 receive. -/
abbrev csem : Fin 13 → SemLoc sig := fun k => if k.val = 0 then .reg barS else .dma ⟨k.val, k.isLt⟩
abbrev kcell (ck : Dev nD × Fin 13) : GSem nD τ sig := ((ck.1 : Thread nD τ), csem ck.2)

example (c : Dev nD) : kcell (c, 0) = barCell c := rfl
example (c : Dev nD) : kcell (c, 2) = inCell c 1 := rfl
example (c : Dev nD) : kcell (c, 5) = sendCell c 0 := rfl
example (c : Dev nD) : kcell (c, 12) = recvCell c 3 := rfl

/-- The kernel's own (scoped) semaphores as the launch indexes them: DMA semaphores 1–12. -/
abbrev osem : Fin 12 → SemLoc sig := fun k => .dma ⟨k.val + 1, by have := k.isLt; show k.val + 1 < 13; omega⟩

section Ghost
variable (K : Dev nD × Fin 13 → ℕ)

/-- The invariants of the device's thirteen cells and of its partner's. -/
def invs (c : Dev nD) : sProp 𝕄 :=
  iprop((bigSep Finset.univ fun k : Fin 13 => cellInv ER (agRd m) (K (c, k)) (kcell (c, k)))
    ∗ (bigSep Finset.univ fun k : Fin 13 => cellInv ER (agRd m) (K (peer c, k)) (kcell (peer c, k))))
/-- Round 0 of all of them is reached. -/
def marks (c : Dev nD) : sProp 𝕄 :=
  iprop((bigSep Finset.univ fun k : Fin 13 => reached ER (kcell (c, k)) 0) ∗ (bigSep Finset.univ fun k : Fin 13 => reached ER (kcell (peer c, k)) 0))
/-- The device's position on each of its cells: round 0, nothing taken. -/
def poss (c : Dev nD) : sProp 𝕄 := bigSep Finset.univ fun k : Fin 13 => atPos ER (kcell (c, k)) 0 ∅ 0
/-- The tokens of the duties the device pays: the partner's barrier and four receive cells, its own input and send cells. -/
def payToks (c : Dev nD) : sProp 𝕄 :=
  iprop(dutyTok ER (barCell (peer c)) 0 () ∗ (bigSep Finset.univ fun r : Fin 4 => dutyTok ER (recvCell (peer c) r) 0 ())
    ∗ (bigSep Finset.univ fun r : Fin 4 => dutyTok ER (inCell c r) 0 ()) ∗ (bigSep Finset.univ fun r : Fin 4 => dutyTok ER (sendCell c r) 0 ()))

instance invs_persistent (c : Dev nD) : BI.Persistent (invs m K c) := by unfold invs; infer_instance
instance marks_persistent (c : Dev nD) : BI.Persistent (marks (F := F) c) := by unfold marks; infer_instance

def ghost (c : Dev nD) : sProp 𝕄 := iprop(invs m K c ∗ marks c ∗ poss c ∗ payToks c)

theorem inv_at (c : Dev nD) (k : Fin 13) :
    (bigSep Finset.univ fun k : Fin 13 => (cellInv ER (agRd m) (K (c, k)) (kcell (c, k)) : sProp 𝕄)) ⊢ cellInv ER (agRd m) (K (c, k)) (kcell (c, k)) :=
  bigSep_elim (Finset.mem_univ k)
omit [FloatOps F] in
theorem reached_at (c : Dev nD) (k : Fin 13) :
    (bigSep Finset.univ fun k : Fin 13 => (reached ER (kcell (c, k)) 0 : sProp 𝕄)) ⊢ reached ER (kcell (c, k)) 0 :=
  bigSep_elim (Finset.mem_univ k)

end Ghost

/-- The launch credit: the partner's unit on the barrier, a chunk's credit on each receive cell. -/
def creds (c : Dev nD) : sProp 𝕄 :=
  iprop(cred (tallyAt (barCell c) () 1) ∗ bigSep Finset.univ fun r : Fin 4 => cred (tallyAt (recvCell c r) () Nout))
/-- The device's own rows, as launched. -/
def argPts (c : Dev nD) : sProp 𝕄 := ((c : Thread nD τ).loc main_arg0) ↦{fullShare} xs m c
def scrAny (c : Dev nD) : sProp 𝕄 := iprop(∃ f, ((c : Thread nD τ).loc cc0_scratch0) ↦{fullShare} f)

def start (c : Dev nD) : sProp 𝕄 := iprop((∃ K, ghost m K c) ∗ creds (F := F) c ∗ levAts L lv ∗ argPts m c)
def Φ₀ (c : Dev nD) : sProp 𝕄 := iprop(start m c ∗ scrAny c)
/-- After the body: the rows unchanged, the scratch at anything, the twelve own counters at zero. -/
def Φ₁ (c : Dev nD) : sProp 𝕄 :=
  iprop(argPts m c ∗ scrAny (F := F) c ∗ bigSep Finset.univ fun k : Fin 12 => semVal ((c : Thread nD τ), osem k) 0)

/-! ## The pipeline's proof data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

def dats (_ : Fin 1) (c : Dev nD) : Dat τ (Elt F) Unit ℕ UU ℕ cfg0 c where
  A w := m ((cfg0.win w).arr.view.loc (c : Thread nD τ))
  after w _ := match w with
    | ⟨0, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

section Body
variable (K : Dev nD × Fin 13 → ℕ)

def bodyPre (c : Dev nD) : sProp 𝕄 :=
  iprop((ghost m K c ∗ creds (F := F) c ∗ levAts L lv ∗ argPts m c ∗ scrAny c)
    ∗ (dats m 0 c).owesAt () t₀.castSucc
    ∗ (∃ d, stg c cc0_stg0_0 ((dats m 0 c).before (0 : Fin 1) t₀ d)))

def bodyPost (c : Dev nD) : sProp 𝕄 :=
  iprop(Φ₁ m c ∗ (dats m 0 c).owesAt () t₀.succ ∗ stg c cc0_stg0_0 (outAt m c))

end Body

end Cert.Kernel.AG

end
-- ==== Proof.Kernel.OutValue.lean ====
/-
  What the eight chunk writes leave in the result buffer, whatever it held before: the closed form `outAt`.
  Row `y₀` of the buffer lies in chunk `(y₀ mod 1024) / 256` of the half `y₀ / 1024`; the device of the pair holding that
  half wrote (or sent) there row `y₀ mod 1024` of its own rows, cast.
-/
import proofs.«900410_g7700000000000411_dist_ag_v7x_xyz2x4x4_x_m1024_n512_bf16_1_alg».proof.Proof.Kernel.BodyPrep
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
/-- A device's rows read at an index do not depend on how the device is spelt. -/
theorem xs_congr {d d' : Dev nD} (h : d' = d) (i : S1024x512.Idx) : xs m d' i = xs m d i := by subst h; rfl

theorem inOff_zero (r : Fin 4) : inOff r 0 = 256 * r.val := by revert r; decide
theorem inOff_one (r : Fin 4) : inOff r 1 = 0 := by revert r; decide

/-- The element of chunk `(d, r)` at `x`, read off the closed form, is the chunk's payload at `x`. -/
theorem outAt_emb (c d : Dev nD) (hd : own c (d.val / 16) = d) (r : Fin 4) (x : S256x512.Idx) :
    outAt m c ((outRect d r).emb x) = pay m d r x := by
  have hx0 : (x 0).val < 256 := (x 0).isLt
  have hr := r.isLt
  have hh := half_le d
  have hy0 : (((outRect d r).emb x) 0).val = 1024 * (d.val / 16) + 256 * r.val + (x 0).val := by
    rw [Rect.emb_apply]
    show (k0_off2 d (rowWord r)) 0 + 1 * (x 0).val = _
    rw [k0_off2_eq d r]
    show 1024 * (d.val / 16) + 256 * r.val + 1 * (x 0).val = _
    omega
  have hy1 : (((outRect d r).emb x) 1).val = (x 1).val := by
    rw [Rect.emb_apply]
    show (k0_off2 d (rowWord r)) 1 + 1 * (x 1).val = _
    rw [k0_off2_eq d r]
    show 0 + 1 * (x 1).val = _
    omega
  have hdiv : (((outRect d r).emb x) 0).val / 1024 = d.val / 16 := by rw [hy0]; omega
  have hmod : (((outRect d r).emb x) 0).val % 1024 = 256 * r.val + (x 0).val := by rw [hy0]; omega
  have hidx : (ValueIdx.ix2 (n0 := 1024) (n1 := 512) ⟨(((outRect d r).emb x) 0).val % 1024, Nat.mod_lt _ (by decide)⟩ (((outRect d r).emb x) 1) : S1024x512.Idx)
      = (inRect r).emb x := by
    funext a
    match a with
    | ⟨0, _⟩ =>
      refine Fin.ext ?_
      show (((outRect d r).emb x) 0).val % 1024 = ((inRect r).emb x 0).val
      rw [hmod, Rect.emb_apply]
      show _ = inOff r 0 + 1 * (x 0).val
      rw [inOff_zero]; omega
    | ⟨1, _⟩ =>
      refine Fin.ext ?_
      show (((outRect d r).emb x) 1).val = ((inRect r).emb x 1).val
      rw [hy1, Rect.emb_apply]
      show _ = inOff r 1 + 1 * (x 1).val
      rw [inOff_one]; omega
  have hdev : own c ((((outRect d r).emb x) 0).val / 1024) = d := by rw [hdiv]; exact hd
  show FloatOps.truncf .bf16 bitsLt_bf16_f32 (xs m (own c ((((outRect d r).emb x) 0).val / 1024)) _) = FloatOps.truncf .bf16 bitsLt_bf16_f32 (xs m d ((inRect r).emb x))
  rw [xs_congr m hdev, hidx]

theorem mem_own (c : Dev nD) : ∀ r : Fin 4, (⟨outRect c r, pay m c r⟩ : View.Piece (Elt F) S2048x512 .bf16) ∈ outPieces m c
  | ⟨0, _⟩ => List.Mem.head _
  | ⟨1, _⟩ => List.Mem.tail _ (List.Mem.head _)
  | ⟨2, _⟩ => List.Mem.tail _ (List.Mem.tail _ (List.Mem.head _))
  | ⟨3, _⟩ => List.Mem.tail _ (List.Mem.tail _ (List.Mem.tail _ (List.Mem.head _)))
theorem mem_peer (c : Dev nD) : ∀ r : Fin 4, (⟨outRect (peer c) r, pay m (peer c) r⟩ : View.Piece (Elt F) S2048x512 .bf16) ∈ outPieces m c
  | ⟨0, _⟩ => List.Mem.tail _ (List.Mem.tail _ (List.Mem.tail _ (List.Mem.tail _ (List.Mem.head _))))
  | ⟨1, _⟩ => List.Mem.tail _ (List.Mem.tail _ (List.Mem.tail _ (List.Mem.tail _ (List.Mem.tail _ (List.Mem.head _)))))
  | ⟨2, _⟩ => List.Mem.tail _ (List.Mem.tail _ (List.Mem.tail _ (List.Mem.tail _ (List.Mem.tail _ (List.Mem.tail _ (List.Mem.head _))))))
  | ⟨3, _⟩ => List.Mem.tail _ (List.Mem.tail _ (List.Mem.tail _ (List.Mem.tail _ (List.Mem.tail _ (List.Mem.tail _ (List.Mem.tail _ (List.Mem.head _)))))))

/-- Every element of the result lies in one of the eight chunks. -/
theorem out_cover (c : Dev nD) (y : S2048x512.Idx) : ∃ p ∈ outPieces m c, y ∈ p.1.set := by
  have hy0 : (y 0).val < 2048 := (y 0).isLt
  have hy1 : (y 1).val < 512 := (y 1).isLt
  have hc := half_le c
  have hp := peer_half c
  have key : ∀ (d : Dev nD) (r : Fin 4), 1024 * (d.val / 16) + 256 * r.val ≤ (y 0).val →
      (y 0).val < 1024 * (d.val / 16) + 256 * r.val + 256 → y ∈ (outRect d r).set := by
    intro d r h1 h2
    show y ∈ (Rect.unit (s := S2048x512) (k0_off2 d (rowWord r)) S256x512.size (k0_off2_inb d r)).set
    rw [Rect.mem_set_unit]
    intro a
    rw [k0_off2_eq d r]
    match a with
    | ⟨0, _⟩ => exact ⟨h1, h2⟩
    | ⟨1, _⟩ => exact ⟨Nat.zero_le _, by show (y 1).val < 0 + 512; omega⟩
  obtain ⟨r, hr⟩ : ∃ r : Fin 4, r.val = ((y 0).val % 1024) / 256 := ⟨⟨((y 0).val % 1024) / 256, by omega⟩, rfl⟩
  by_cases hb : (y 0).val / 1024 = c.val / 16
  · exact ⟨⟨outRect c r, pay m c r⟩, mem_own m c r, key c r (by omega) (by omega)⟩
  · exact ⟨⟨outRect (peer c) r, pay m (peer c) r⟩, mem_peer m c r, key (peer c) r (by omega) (by omega)⟩

theorem writes_out (c : Dev nD) (X : Buf (Elt F) ((c : Thread nD τ).loc cc0_stg0_0)) :
    stgM.view.writes (Elt F) X (outPieces m c) = outAt m c := by
  funext y
  have h := View.read_writes_apply_of_pieces (v := (View.whole cc0_stg0_0 : View sig .tc _ _ _)) (f := X) (outAt m c) (outPieces m c) ?_ y (out_cover m c y)
  · rw [View.read_whole] at h; exact h
  intro p hp
  simp only [outPieces, List.mem_cons, List.not_mem_nil, or_false] at hp
  rcases hp with rfl | rfl | rfl | rfl | rfl | rfl | rfl | rfl
  · exact fun x => (outAt_emb m c c (own_self c) 0 x).symm
  · exact fun x => (outAt_emb m c c (own_self c) 1 x).symm
  · exact fun x => (outAt_emb m c c (own_self c) 2 x).symm
  · exact fun x => (outAt_emb m c c (own_self c) 3 x).symm
  · exact fun x => (outAt_emb m c (peer c) (own_peer c) 0 x).symm
  · exact fun x => (outAt_emb m c (peer c) (own_peer c) 1 x).symm
  · exact fun x => (outAt_emb m c (peer c) (own_peer c) 2 x).symm
  · exact fun x => (outAt_emb m c (peer c) (own_peer c) 3 x).symm

/-- info: 'Cert.Kernel.AG.writes_out' depends on axioms: [propext, Classical.choice, Quot.sound] -/
#guard_msgs in #print axioms writes_out

end Cert.Kernel.AG

end
-- ==== Proof.Kernel.Body.lean ====
/-
  The body, stepped rule by rule in program order.
-/
import proofs.«900410_g7700000000000411_dist_ag_v7x_xyz2x4x4_x_m1024_n512_bf16_1_alg».proof.Proof.Kernel.BodyDefs
import proofs.«900410_g7700000000000411_dist_ag_v7x_xyz2x4x4_x_m1024_n512_bf16_1_alg».proof.Proof.Kernel.OutValue
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

omit [FloatOps F] in
theorem bigSep_fin13 (Φ : Fin 13 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12) :=
  bigSep_univ_eq_bigSepL [0, 1, 2, 3, 4, 5, 6, 7, 8, 9, 10, 11, 12] (by decide) (by decide) Φ
omit [FloatOps F] in
theorem bigSep_fin12 (Φ : Fin 12 → sProp 𝕄) :
    bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11) :=
  bigSep_univ_eq_bigSepL [0, 1, 2, 3, 4, 5, 6, 7, 8, 9, 10, 11] (by decide) (by decide) Φ

section Body
variable (K : Dev nD × Fin 13 → ℕ)

omit [FloatOps F] in
/-- The partner's barrier duty, seen from the device that pays it: four slots of the device's own buffer and that its
    four receive cells are at round 0. -/
theorem barPay_peer (c : Dev nD) : barPay (F := F) (peer c) = iprop(
    ((∃ f, outPts (F := F) c (peer c) 0 f) ∗ reached ER (recvCell c 0) 0) ∗ ((∃ f, outPts (F := F) c (peer c) 1 f) ∗ reached ER (recvCell c 1) 0)
      ∗ ((∃ f, outPts (F := F) c (peer c) 2 f) ∗ reached ER (recvCell c 2) 0) ∗ ((∃ f, outPts (F := F) c (peer c) 3 f) ∗ reached ER (recvCell c 3) 0)) := by
  unfold barPay slotPay; rw [peer_peer]

theorem lv_bar (c : Dev nD) : lv (barCell c) () < 2 := by show (1 : ℕ) < 2; decide
theorem lv_in (c : Dev nD) (r : Fin 4) : lv (inCell c r) () < 2 := by
  show (if 9 ≤ (inSem r).val then 2 else 0) < 2
  rw [if_neg (by show ¬ 9 ≤ 1 + r.val; omega)]; decide
theorem Q1_low (c : Dev nD) : ∀ g u, 0 < Q1 c g u → 0 < Q0 c g u := fun _ _ h => Q1_le c h
theorem Q2_low (c : Dev nD) : ∀ g u, 0 < Q2 c g u → 0 < Q0 c g u := fun _ _ h => Q2_le c h
theorem Q3_low (c : Dev nD) : ∀ g u, 0 < Q3 c g u → 0 < Q0 c g u := fun _ _ h => Q3_le c h

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body (Memref.whole main_arg0) (Memref.isWhole_whole _) (Memref.whole cc0_stg0_0) (Memref.isWhole_whole _)
            (Memref.whole cc0_scratch0) (Memref.isWhole_whole _) cc0_scratch1 cc0_scratch2 cc0_scratch3) Kt := by
  unfold bodyPre ghost invs marks poss payToks creds scrAny argPts
  iintro ⟨⟨⟨⟨⟨#HI, #HIp⟩, ⟨#HR, #HRp⟩, Hpos, HtB, HtR, HtI, HtS⟩, ⟨HcB, HcR⟩, #Hlev, Harg, ⟨%f0, Hscr⟩⟩, Ho, ⟨%d0, %g0, %hg0, Hst⟩⟩, Hk⟩
  ihave Hpos' := (Entails.of_eq (bigSep_fin13 _)) $$ Hpos
  icases Hpos' with ⟨HaB, HaI0, HaI1, HaI2, HaI3, HaS0, HaS1, HaS2, HaS3, HaV0, HaV1, HaV2, HaV3⟩
  ihave HtR' := (Entails.of_eq (bigSep_fin4 _)) $$ HtR
  icases HtR' with ⟨HtR0, HtR1, HtR2, HtR3⟩
  ihave HtI' := (Entails.of_eq (bigSep_fin4 _)) $$ HtI
  icases HtI' with ⟨HtI0, HtI1, HtI2, HtI3⟩
  ihave HtS' := (Entails.of_eq (bigSep_fin4 _)) $$ HtS
  icases HtS' with ⟨HtS0, HtS1, HtS2, HtS3⟩
  ihave HcR' := (Entails.of_eq (bigSep_fin4 _)) $$ HcR
  icases HcR' with ⟨HcR0, HcR1, HcR2, HcR3⟩
  unfold Dat.owesAt Pipeline.owesWithin
  icases Ho with ⟨%W, %hW, HO⟩
  rw [show (dats m 0 c).owed t₀.castSucc = O₀ c from rfl]
  -- the three buffers cut along the chunks
  ihave Ha := (arg_split c (xs m c)) $$ Harg
  icases Ha with ⟨Ha0, Ha1, Ha2, Ha3, Har⟩
  ihave Hs := (scr_split c f0) $$ Hscr
  icases Hs with ⟨Hd0, Hd1, Hd2, Hd3, Hsr⟩
  ihave Hq := (stg_split c g0) $$ Hst
  icases Hq with ⟨⟨Ho0, Ho1, Ho2, Ho3⟩, ⟨Hp0, Hp1, Hp2, Hp3⟩, Hqr⟩
  unfold outPts
  simp only [cc0_body_eq_skeleton]; unfold cc0_body_skel
  rw [wp_bind]
  rw [k0_part1_eq_skeleton]; unfold k0_part1_skel
  simp only [Prog.lift, Prog.bind_op, Prog.bind_ret, Prog.pure_eq_ret, wp_deviceId]
  -- the local copy of chunk 0
  iapply (wp_in m c 0 (K (c, 1)) f0) $$ [Ha0 Hd0 HtI0]
  · isplitr; · iapply (inv_at m K c 1); iexact HI
    isplitl [Ha0]; · iexact Ha0
    isplitl [Hd0]; · iexact Hd0
    isplitl [HtI0]; · iexact HtI0
    iapply (reached_at c 1); iexact HR
  iintro HcI0
  -- the local copy of chunk 1
  iapply (wp_in m c 1 (K (c, 2)) f0) $$ [Ha1 Hd1 HtI1]
  · isplitr; · iapply (inv_at m K c 2); iexact HI
    isplitl [Ha1]; · iexact Ha1
    isplitl [Hd1]; · iexact Hd1
    isplitl [HtI1]; · iexact HtI1
    iapply (reached_at c 2); iexact HR
  iintro HcI1
  -- the local copy of chunk 2
  iapply (wp_in m c 2 (K (c, 3)) f0) $$ [Ha2 Hd2 HtI2]
  · isplitr; · iapply (inv_at m K c 3); iexact HI
    isplitl [Ha2]; · iexact Ha2
    isplitl [Hd2]; · iexact Hd2
    isplitl [HtI2]; · iexact HtI2
    iapply (reached_at c 3); iexact HR
  iintro HcI2
  -- the local copy of chunk 3
  iapply (wp_in m c 3 (K (c, 4)) f0) $$ [Ha3 Hd3 HtI3]
  · isplitr; · iapply (inv_at m K c 4); iexact HI
    isplitl [Ha3]; · iexact Ha3
    isplitl [Hd3]; · iexact Hd3
    isplitl [HtI3]; · iexact HtI3
    iapply (reached_at c 4); iexact HR
  iintro HcI3
  rw [wp_ret]; imodintro
  try dsimp only
  rw [wp_bind]
  rw [k0_part2_eq_skeleton]; unfold k0_part2_skel
  simp only [semSignalWord, semWaitWord, Prog.lift, Prog.bind_op, Prog.bind_ret, Prog.pure_eq_ret, dev1_eq c]
  -- the unit to the partner's barrier: the four slots of this buffer the partner's copies will fill go with it
  iapply (Rounds.wp_signal 𝒱₀ ER (agRd m) (c : Thread nD τ) none (dst := (peer c : Thread nD τ)) (κ := K (peer c, 0))
      (d := ()) (by rw [duties_bar]; exact Finset.mem_singleton_self _) ((amount_bar m (peer c) ()).trans (by decide)) () (Q0 c) rfl)
    $$ [HO HtB Hp0 Hp1 Hp2 Hp3]
  · isplitr; · iapply (inv_at m K (peer c) 0); iexact HIp
    isplitl [HO]; · iexact HO
    isplitl [HtB]; · iexact HtB
    isplitl [Hp0 Hp1 Hp2 Hp3]
    · rw [payload_bar, barPay_peer]
      unfold outPts
      isplitl [Hp0]
      · isplitl [Hp0]; · iexists g0; iexact Hp0
        iapply (reached_at c 9); iexact HR
      isplitl [Hp1]
      · isplitl [Hp1]; · iexists g0; iexact Hp1
        iapply (reached_at c 10); iexact HR
      isplitl [Hp2]
      · isplitl [Hp2]; · iexists g0; iexact Hp2
        iapply (reached_at c 11); iexact HR
      · isplitl [Hp3]; · iexists g0; iexact Hp3
        iapply (reached_at c 12); iexact HR
    · iapply (reached_at (peer c) 0); iexact HRp
  iintro HO
  -- the wait for the partner's unit: the partner's four slots come with it
  iapply (Rounds.wp_wait_rest_token 𝒱₀ ER (agRd m) (c : Thread nD τ) none (sm := SemLoc.reg barS) (k' := 1) (κ := K (c, 0))
      (wpE_semWait_eq 𝒱₀ (c : Thread nD τ) none Set.univ) (Set.mem_univ _) () (O := Q0 c) (W := W) (R := 0) (m := 0) (T := ∅)
      (by rw [expect_bar])) $$ [HcB HO HaB]
  · isplitr; · iapply (inv_at m K c 0); iexact HI
    isplitl [HcB]; · iexact HcB
    isplitl [HO]; · iexact HO
    isplitr; · iapply (mayWait_low c (.reg barS) (lv_bar c) (Q0 c) (fun _ _ h => h)); iexact Hlev
    iexact HaB
  iintro ⟨HO, HaB, -, Hpay⟩
  ihave Hp := (Entails.of_eq (rest_bar m c)) $$ Hpay
  unfold barPay slotPay outPts
  icases Hp with ⟨⟨⟨%fn0, Hn0⟩, #HrN0⟩, ⟨⟨%fn1, Hn1⟩, #HrN1⟩, ⟨⟨%fn2, Hn2⟩, #HrN2⟩, ⟨%fn3, Hn3⟩, #HrN3⟩
  -- chunk 0: the wait for its local copy
  iapply (Rounds.wp_wait_rest_token 𝒱₀ ER (agRd m) (c : Thread nD τ) none (sm := SemLoc.dma (inSem 0)) (k' := (inDst 0).view.dmaCredit) (κ := K (c, 1))
      (wpE_waitDma2_eq 𝒱₀ (c : Thread nD τ) none Set.univ) (Set.mem_univ _) () (O := Q0 c) (W := (insert (SemLoc.reg barS, ()) W)) (R := 0) (m := 0) (T := ∅)
      (by rw [Nat.zero_add, expect_in])) $$ [HcI0 HO HaI0]
  · isplitr; · iapply (inv_at m K c 1); iexact HI
    isplitl [HcI0]; · iexact HcI0
    isplitl [HO]; · iexact HO
    isplitr; · iapply (mayWait_low c (.dma (inSem 0)) (lv_in c 0) (Q0 c) (fun _ _ h => h)); iexact Hlev
    iexact HaI0
  iintro ⟨HO, HaI0, -, Hpay⟩
  ihave Hp := (Entails.of_eq (rest_in m c 0)) $$ Hpay
  unfold inPay
  icases Hp with ⟨⟨%fl0, Hd0⟩, Ha0⟩
  -- the chunk read from the scratch
  iapply (wp_load_rect 𝒱₀ (c : Thread nD τ) none Set.univ (m := scrM) (r := inRect 0) (Finset.Subset.refl _)) $$ Hd0; iintro Hd0
  rw [View.read_write_univ]
  -- its rows of the result read (the store's read-modify-write) and stored
  iapply (wp_load_rect 𝒱₀ (c : Thread nD τ) none Set.univ (m := stgM) (r := stRect c 0) (by rw [stRect_set])) $$ Ho0; iintro Ho0
  iapply (wp_store 𝒱₀ (c : Thread nD τ) none Set.univ (m := stgM) (r := stRect c 0) (Mk := Finset.univ) (by rw [View.setOn_univ, stRect_set])) $$ Ho0; iintro Ho0
  rw [stRect_write]
  -- the chunk copied into the partner's buffer
  iapply (wp_send_chunk m c 0 _ (dev2_eq c) (K (c, 5)) (K (peer c, 9)) g0 fn0 (Q1 c) (insert (SemLoc.dma (inSem 0), ()) (insert (SemLoc.reg barS, ()) W))) $$ [Ho0 Hn0 HO HtS0 HtR0]
  · isplitr; · iapply (inv_at m K c 5); iexact HI
    isplitr; · iapply (inv_at m K (peer c) 9); iexact HIp
    isplitl [Ho0]; · unfold outPts; iexact Ho0
    isplitl [Hn0]; · unfold outPts; iexact Hn0
    isplitl [HO]; · iexact HO
    isplitl [HtS0]; · iexact HtS0
    isplitr; · iapply (reached_at c 5); iexact HR
    isplitl [HtR0]; · iexact HtR0
    iexact HrN0
  iintro ⟨HcS0, HO⟩
  rw [wp_ret]; imodintro
  try dsimp only
  rw [wp_bind]
  rw [k0_part3_eq_skeleton]; unfold k0_part3_skel
  simp only [semSignalWord, semWaitWord, Prog.lift, Prog.bind_op, Prog.bind_ret, Prog.pure_eq_ret]
  -- chunk 1: the wait for its local copy
  iapply (Rounds.wp_wait_rest_token 𝒱₀ ER (agRd m) (c : Thread nD τ) none (sm := SemLoc.dma (inSem 1)) (k' := (inDst 1).view.dmaCredit) (κ := K (c, 2))
      (wpE_waitDma2_eq 𝒱₀ (c : Thread nD τ) none Set.univ) (Set.mem_univ _) () (O := Q1 c) (W := (insert (SemLoc.dma (inSem 0), ()) (insert (SemLoc.reg barS, ()) W))) (R := 0) (m := 0) (T := ∅)
      (by rw [Nat.zero_add, expect_in])) $$ [HcI1 HO HaI1]
  · isplitr; · iapply (inv_at m K c 2); iexact HI
    isplitl [HcI1]; · iexact HcI1
    isplitl [HO]; · iexact HO
    isplitr; · iapply (mayWait_low c (.dma (inSem 1)) (lv_in c 1) (Q1 c) (Q1_low c)); iexact Hlev
    iexact HaI1
  iintro ⟨HO, HaI1, -, Hpay⟩
  ihave Hp := (Entails.of_eq (rest_in m c 1)) $$ Hpay
  unfold inPay
  icases Hp with ⟨⟨%fl1, Hd1⟩, Ha1⟩
  -- the chunk read from the scratch
  iapply (wp_load_rect 𝒱₀ (c : Thread nD τ) none Set.univ (m := scrM) (r := inRect 1) (Finset.Subset.refl _)) $$ Hd1; iintro Hd1
  rw [View.read_write_univ]
  -- its rows of the result read (the store's read-modify-write) and stored
  iapply (wp_load_rect 𝒱₀ (c : Thread nD τ) none Set.univ (m := stgM) (r := stRect c 1) (by rw [stRect_set])) $$ Ho1; iintro Ho1
  iapply (wp_store 𝒱₀ (c : Thread nD τ) none Set.univ (m := stgM) (r := stRect c 1) (Mk := Finset.univ) (by rw [View.setOn_univ, stRect_set])) $$ Ho1; iintro Ho1
  rw [stRect_write]
  -- the chunk copied into the partner's buffer
  iapply (wp_send_chunk m c 1 _ (dev3_eq c) (K (c, 6)) (K (peer c, 10)) g0 fn1 (Q2 c) (insert (SemLoc.dma (inSem 1), ()) (insert (SemLoc.dma (inSem 0), ()) (insert (SemLoc.reg barS, ()) W)))) $$ [Ho1 Hn1 HO HtS1 HtR1]
  · isplitr; · iapply (inv_at m K c 6); iexact HI
    isplitr; · iapply (inv_at m K (peer c) 10); iexact HIp
    isplitl [Ho1]; · unfold outPts; iexact Ho1
    isplitl [Hn1]; · unfold outPts; iexact Hn1
    isplitl [HO]; · iexact HO
    isplitl [HtS1]; · iexact HtS1
    isplitr; · iapply (reached_at c 6); iexact HR
    isplitl [HtR1]; · iexact HtR1
    iexact HrN1
  iintro ⟨HcS1, HO⟩
  -- chunk 2: the wait for its local copy
  iapply (Rounds.wp_wait_rest_token 𝒱₀ ER (agRd m) (c : Thread nD τ) none (sm := SemLoc.dma (inSem 2)) (k' := (inDst 2).view.dmaCredit) (κ := K (c, 3))
      (wpE_waitDma2_eq 𝒱₀ (c : Thread nD τ) none Set.univ) (Set.mem_univ _) () (O := Q2 c) (W := (insert (SemLoc.dma (inSem 1), ()) (insert (SemLoc.dma (inSem 0), ()) (insert (SemLoc.reg barS, ()) W)))) (R := 0) (m := 0) (T := ∅)
      (by rw [Nat.zero_add, expect_in])) $$ [HcI2 HO HaI2]
  · isplitr; · iapply (inv_at m K c 3); iexact HI
    isplitl [HcI2]; · iexact HcI2
    isplitl [HO]; · iexact HO
    isplitr; · iapply (mayWait_low c (.dma (inSem 2)) (lv_in c 2) (Q2 c) (Q2_low c)); iexact Hlev
    iexact HaI2
  iintro ⟨HO, HaI2, -, Hpay⟩
  ihave Hp := (Entails.of_eq (rest_in m c 2)) $$ Hpay
  unfold inPay
  icases Hp with ⟨⟨%fl2, Hd2⟩, Ha2⟩
  -- the chunk read from the scratch
  iapply (wp_load_rect 𝒱₀ (c : Thread nD τ) none Set.univ (m := scrM) (r := inRect 2) (Finset.Subset.refl _)) $$ Hd2; iintro Hd2
  rw [View.read_write_univ]
  rw [wp_ret]; imodintro
  try dsimp only
  rw [wp_bind]
  rw [k0_part4_eq_skeleton]; unfold k0_part4_skel
  simp only [semSignalWord, semWaitWord, Prog.lift, Prog.bind_op, Prog.bind_ret, Prog.pure_eq_ret]
  -- its rows of the result read (the store's read-modify-write) and stored
  iapply (wp_load_rect 𝒱₀ (c : Thread nD τ) none Set.univ (m := stgM) (r := stRect c 2) (by rw [stRect_set])) $$ Ho2; iintro Ho2
  iapply (wp_store 𝒱₀ (c : Thread nD τ) none Set.univ (m := stgM) (r := stRect c 2) (Mk := Finset.univ) (by rw [View.setOn_univ, stRect_set])) $$ Ho2; iintro Ho2
  rw [stRect_write]
  -- the chunk copied into the partner's buffer
  iapply (wp_send_chunk m c 2 _ (dev4_eq c) (K (c, 7)) (K (peer c, 11)) g0 fn2 (Q3 c) (insert (SemLoc.dma (inSem 2), ()) (insert (SemLoc.dma (inSem 1), ()) (insert (SemLoc.dma (inSem 0), ()) (insert (SemLoc.reg barS, ()) W))))) $$ [Ho2 Hn2 HO HtS2 HtR2]
  · isplitr; · iapply (inv_at m K c 7); iexact HI
    isplitr; · iapply (inv_at m K (peer c) 11); iexact HIp
    isplitl [Ho2]; · unfold outPts; iexact Ho2
    isplitl [Hn2]; · unfold outPts; iexact Hn2
    isplitl [HO]; · iexact HO
    isplitl [HtS2]; · iexact HtS2
    isplitr; · iapply (reached_at c 7); iexact HR
    isplitl [HtR2]; · iexact HtR2
    iexact HrN2
  iintro ⟨HcS2, HO⟩
  -- chunk 3: the wait for its local copy
  iapply (Rounds.wp_wait_rest_token 𝒱₀ ER (agRd m) (c : Thread nD τ) none (sm := SemLoc.dma (inSem 3)) (k' := (inDst 3).view.dmaCredit) (κ := K (c, 4))
      (wpE_waitDma2_eq 𝒱₀ (c : Thread nD τ) none Set.univ) (Set.mem_univ _) () (O := Q3 c) (W := (insert (SemLoc.dma (inSem 2), ()) (insert (SemLoc.dma (inSem 1), ()) (insert (SemLoc.dma (inSem 0), ()) (insert (SemLoc.reg barS, ()) W))))) (R := 0) (m := 0) (T := ∅)
      (by rw [Nat.zero_add, expect_in])) $$ [HcI3 HO HaI3]
  · isplitr; · iapply (inv_at m K c 4); iexact HI
    isplitl [HcI3]; · iexact HcI3
    isplitl [HO]; · iexact HO
    isplitr; · iapply (mayWait_low c (.dma (inSem 3)) (lv_in c 3) (Q3 c) (Q3_low c)); iexact Hlev
    iexact HaI3
  iintro ⟨HO, HaI3, -, Hpay⟩
  ihave Hp := (Entails.of_eq (rest_in m c 3)) $$ Hpay
  unfold inPay
  icases Hp with ⟨⟨%fl3, Hd3⟩, Ha3⟩
  -- the chunk read from the scratch
  iapply (wp_load_rect 𝒱₀ (c : Thread nD τ) none Set.univ (m := scrM) (r := inRect 3) (Finset.Subset.refl _)) $$ Hd3; iintro Hd3
  rw [View.read_write_univ]
  -- its rows of the result read (the store's read-modify-write) and stored
  iapply (wp_load_rect 𝒱₀ (c : Thread nD τ) none Set.univ (m := stgM) (r := stRect c 3) (by rw [stRect_set])) $$ Ho3; iintro Ho3
  iapply (wp_store 𝒱₀ (c : Thread nD τ) none Set.univ (m := stgM) (r := stRect c 3) (Mk := Finset.univ) (by rw [View.setOn_univ, stRect_set])) $$ Ho3; iintro Ho3
  rw [stRect_write]
  rw [wp_ret]; imodintro
  try dsimp only
  rw [wp_bind]
  rw [k0_part5_eq_skeleton]; unfold k0_part5_skel
  simp only [semSignalWord, semWaitWord, Prog.lift, Prog.bind_op, Prog.bind_ret, Prog.pure_eq_ret]
  rw [show Q3 c = 0 + tallyAt (recvCell (peer c) 3) () Nout from (zero_add _).symm]
  -- the chunk copied into the partner's buffer
  iapply (wp_send_chunk m c 3 _ (dev5_eq c) (K (c, 8)) (K (peer c, 12)) g0 fn3 (0) (insert (SemLoc.dma (inSem 3), ()) (insert (SemLoc.dma (inSem 2), ()) (insert (SemLoc.dma (inSem 1), ()) (insert (SemLoc.dma (inSem 0), ()) (insert (SemLoc.reg barS, ()) W)))))) $$ [Ho3 Hn3 HO HtS3 HtR3]
  · isplitr; · iapply (inv_at m K c 8); iexact HI
    isplitr; · iapply (inv_at m K (peer c) 12); iexact HIp
    isplitl [Ho3]; · unfold outPts; iexact Ho3
    isplitl [Hn3]; · unfold outPts; iexact Hn3
    isplitl [HO]; · iexact HO
    isplitl [HtS3]; · iexact HtS3
    isplitr; · iapply (reached_at c 8); iexact HR
    isplitl [HtR3]; · iexact HtR3
    iexact HrN3
  iintro ⟨HcS3, HO⟩
  -- the wait for send 0: the chunk's rows back
  iapply (Rounds.wp_wait_rest_token 𝒱₀ ER (agRd m) (c : Thread nD τ) none (sm := SemLoc.dma (sendSem 0)) (k' := (outM c 0).view.dmaCredit) (κ := K (c, 5))
      (wpE_waitDma2_eq 𝒱₀ (c : Thread nD τ) none Set.univ) (Set.mem_univ _) () (O := 0) (W := (insert (SemLoc.dma (inSem 3), ()) (insert (SemLoc.dma (inSem 2), ()) (insert (SemLoc.dma (inSem 1), ()) (insert (SemLoc.dma (inSem 0), ()) (insert (SemLoc.reg barS, ()) W)))))) (R := 0) (m := 0) (T := ∅)
      (by rw [Nat.zero_add, expect_send]; rfl)) $$ [HcS0 HO HaS0]
  · isplitr; · iapply (inv_at m K c 5); iexact HI
    isplitl [HcS0]; · iexact HcS0
    isplitl [HO]; · iexact HO
    isplitr; · rw [MayWait_zero]; iempintro
    iexact HaS0
  iintro ⟨HO, HaS0, -, Hpay⟩
  ihave Ho0 := (Entails.of_eq (rest_send m c 0)) $$ Hpay
  -- the wait for the partner's chunk 0
  iapply (Rounds.wp_wait_rest_token 𝒱₀ ER (agRd m) (c : Thread nD τ) none (sm := SemLoc.dma (recvSem 0)) (k' := (outM c 0).view.dmaCredit) (κ := K (c, 9))
      (wpE_waitDma2_eq 𝒱₀ (c : Thread nD τ) none Set.univ) (Set.mem_univ _) () (O := 0) (W := (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))) (R := 0) (m := 0) (T := ∅)
      (by rw [Nat.zero_add, expect_recv]; rfl)) $$ [HcR0 HO HaV0]
  · isplitr; · iapply (inv_at m K c 9); iexact HI
    isplitl [HcR0]; · iexact HcR0
    isplitl [HO]; · iexact HO
    isplitr; · rw [MayWait_zero]; iempintro
    iexact HaV0
  iintro ⟨HO, HaV0, -, Hpay⟩
  ihave Hv0 := (Entails.of_eq (rest_recv m c 0)) $$ Hpay
  -- the wait for send 1: the chunk's rows back
  iapply (Rounds.wp_wait_rest_token 𝒱₀ ER (agRd m) (c : Thread nD τ) none (sm := SemLoc.dma (sendSem 1)) (k' := (outM c 1).view.dmaCredit) (κ := K (c, 6))
      (wpE_waitDma2_eq 𝒱₀ (c : Thread nD τ) none Set.univ) (Set.mem_univ _) () (O := 0) (W := (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))) (R := 0) (m := 0) (T := ∅)
      (by rw [Nat.zero_add, expect_send]; rfl)) $$ [HcS1 HO HaS1]
  · isplitr; · iapply (inv_at m K c 6); iexact HI
    isplitl [HcS1]; · iexact HcS1
    isplitl [HO]; · iexact HO
    isplitr; · rw [MayWait_zero]; iempintro
    iexact HaS1
  iintro ⟨HO, HaS1, -, Hpay⟩
  ihave Ho1 := (Entails.of_eq (rest_send m c 1)) $$ Hpay
  rw [wp_ret]; imodintro
  try dsimp only
  rw [wp_bind]
  rw [k0_part6_eq_skeleton]; unfold k0_part6_skel
  simp only [semSignalWord, semWaitWord, Prog.lift, Prog.bind_op, Prog.bind_ret, Prog.pure_eq_ret]
  -- the wait for the partner's chunk 1
  iapply (Rounds.wp_wait_rest_token 𝒱₀ ER (agRd m) (c : Thread nD τ) none (sm := SemLoc.dma (recvSem 1)) (k' := (outM c 1).view.dmaCredit) (κ := K (c, 10))
      (wpE_waitDma2_eq 𝒱₀ (c : Thread nD τ) none Set.univ) (Set.mem_univ _) () (O := 0) (W := (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))))) (R := 0) (m := 0) (T := ∅)
      (by rw [Nat.zero_add, expect_recv]; rfl)) $$ [HcR1 HO HaV1]
  · isplitr; · iapply (inv_at m K c 10); iexact HI
    isplitl [HcR1]; · iexact HcR1
    isplitl [HO]; · iexact HO
    isplitr; · rw [MayWait_zero]; iempintro
    iexact HaV1
  iintro ⟨HO, HaV1, -, Hpay⟩
  ihave Hv1 := (Entails.of_eq (rest_recv m c 1)) $$ Hpay
  -- the wait for send 2: the chunk's rows back
  iapply (Rounds.wp_wait_rest_token 𝒱₀ ER (agRd m) (c : Thread nD τ) none (sm := SemLoc.dma (sendSem 2)) (k' := (outM c 2).view.dmaCredit) (κ := K (c, 7))
      (wpE_waitDma2_eq 𝒱₀ (c : Thread nD τ) none Set.univ) (Set.mem_univ _) () (O := 0) (W := (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))))) (R := 0) (m := 0) (T := ∅)
      (by rw [Nat.zero_add, expect_send]; rfl)) $$ [HcS2 HO HaS2]
  · isplitr; · iapply (inv_at m K c 7); iexact HI
    isplitl [HcS2]; · iexact HcS2
    isplitl [HO]; · iexact HO
    isplitr; · rw [MayWait_zero]; iempintro
    iexact HaS2
  iintro ⟨HO, HaS2, -, Hpay⟩
  ihave Ho2 := (Entails.of_eq (rest_send m c 2)) $$ Hpay
  -- the wait for the partner's chunk 2
  iapply (Rounds.wp_wait_rest_token 𝒱₀ ER (agRd m) (c : Thread nD τ) none (sm := SemLoc.dma (recvSem 2)) (k' := (outM c 2).view.dmaCredit) (κ := K (c, 11))
      (wpE_waitDma2_eq 𝒱₀ (c : Thread nD τ) none Set.univ) (Set.mem_univ _) () (O := 0) (W := (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))))))) (R := 0) (m := 0) (T := ∅)
      (by rw [Nat.zero_add, expect_recv]; rfl)) $$ [HcR2 HO HaV2]
  · isplitr; · iapply (inv_at m K c 11); iexact HI
    isplitl [HcR2]; · iexact HcR2
    isplitl [HO]; · iexact HO
    isplitr; · rw [MayWait_zero]; iempintro
    iexact HaV2
  iintro ⟨HO, HaV2, -, Hpay⟩
  ihave Hv2 := (Entails.of_eq (rest_recv m c 2)) $$ Hpay
  -- the wait for send 3: the chunk's rows back
  iapply (Rounds.wp_wait_rest_token 𝒱₀ ER (agRd m) (c : Thread nD τ) none (sm := SemLoc.dma (sendSem 3)) (k' := (outM c 3).view.dmaCredit) (κ := K (c, 8))
      (wpE_waitDma2_eq 𝒱₀ (c : Thread nD τ) none Set.univ) (Set.mem_univ _) () (O := 0) (W := (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))))))) (R := 0) (m := 0) (T := ∅)
      (by rw [Nat.zero_add, expect_send]; rfl)) $$ [HcS3 HO HaS3]
  · isplitr; · iapply (inv_at m K c 8); iexact HI
    isplitl [HcS3]; · iexact HcS3
    isplitl [HO]; · iexact HO
    isplitr; · rw [MayWait_zero]; iempintro
    iexact HaS3
  iintro ⟨HO, HaS3, -, Hpay⟩
  ihave Ho3 := (Entails.of_eq (rest_send m c 3)) $$ Hpay
  rw [wp_ret]; imodintro
  try dsimp only
  try simp only [Prog.lift, Prog.bind_op, Prog.bind_ret, Prog.pure_eq_ret]
  -- the wait for the partner's chunk 3
  iapply (Rounds.wp_wait_rest_token 𝒱₀ ER (agRd m) (c : Thread nD τ) none (sm := SemLoc.dma (recvSem 3)) (k' := (outM c 3).view.dmaCredit) (κ := K (c, 12))
      (wpE_waitDma2_eq 𝒱₀ (c : Thread nD τ) none Set.univ) (Set.mem_univ _) () (O := 0) (W := (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W))))))))))))) (R := 0) (m := 0) (T := ∅)
      (by rw [Nat.zero_add, expect_recv]; rfl)) $$ [HcR3 HO HaV3]
  · isplitr; · iapply (inv_at m K c 12); iexact HI
    isplitl [HcR3]; · iexact HcR3
    isplitl [HO]; · iexact HO
    isplitr; · rw [MayWait_zero]; iempintro
    iexact HaV3
  iintro ⟨HO, HaV3, -, Hpay⟩
  ihave Hv3 := (Entails.of_eq (rest_recv m c 3)) $$ Hpay
  -- the twelve own cells close: their counters at zero are the device's again
  imod (Rounds.cell_close ER (agRd m) (Set.mem_univ (K (c, 1))) (fun h => h) (R := 0 + 1) (duties_later m (kcell (c, 1)))) $$ [HaI0] with Hz1
  · isplitr; · iapply (inv_at m K c 1); iexact HI
    iexact HaI0
  imod (Rounds.cell_close ER (agRd m) (Set.mem_univ (K (c, 2))) (fun h => h) (R := 0 + 1) (duties_later m (kcell (c, 2)))) $$ [HaI1] with Hz2
  · isplitr; · iapply (inv_at m K c 2); iexact HI
    iexact HaI1
  imod (Rounds.cell_close ER (agRd m) (Set.mem_univ (K (c, 3))) (fun h => h) (R := 0 + 1) (duties_later m (kcell (c, 3)))) $$ [HaI2] with Hz3
  · isplitr; · iapply (inv_at m K c 3); iexact HI
    iexact HaI2
  imod (Rounds.cell_close ER (agRd m) (Set.mem_univ (K (c, 4))) (fun h => h) (R := 0 + 1) (duties_later m (kcell (c, 4)))) $$ [HaI3] with Hz4
  · isplitr; · iapply (inv_at m K c 4); iexact HI
    iexact HaI3
  imod (Rounds.cell_close ER (agRd m) (Set.mem_univ (K (c, 5))) (fun h => h) (R := 0 + 1) (duties_later m (kcell (c, 5)))) $$ [HaS0] with Hz5
  · isplitr; · iapply (inv_at m K c 5); iexact HI
    iexact HaS0
  imod (Rounds.cell_close ER (agRd m) (Set.mem_univ (K (c, 6))) (fun h => h) (R := 0 + 1) (duties_later m (kcell (c, 6)))) $$ [HaS1] with Hz6
  · isplitr; · iapply (inv_at m K c 6); iexact HI
    iexact HaS1
  imod (Rounds.cell_close ER (agRd m) (Set.mem_univ (K (c, 7))) (fun h => h) (R := 0 + 1) (duties_later m (kcell (c, 7)))) $$ [HaS2] with Hz7
  · isplitr; · iapply (inv_at m K c 7); iexact HI
    iexact HaS2
  imod (Rounds.cell_close ER (agRd m) (Set.mem_univ (K (c, 8))) (fun h => h) (R := 0 + 1) (duties_later m (kcell (c, 8)))) $$ [HaS3] with Hz8
  · isplitr; · iapply (inv_at m K c 8); iexact HI
    iexact HaS3
  imod (Rounds.cell_close ER (agRd m) (Set.mem_univ (K (c, 9))) (fun h => h) (R := 0 + 1) (duties_later m (kcell (c, 9)))) $$ [HaV0] with Hz9
  · isplitr; · iapply (inv_at m K c 9); iexact HI
    iexact HaV0
  imod (Rounds.cell_close ER (agRd m) (Set.mem_univ (K (c, 10))) (fun h => h) (R := 0 + 1) (duties_later m (kcell (c, 10)))) $$ [HaV1] with Hz10
  · isplitr; · iapply (inv_at m K c 10); iexact HI
    iexact HaV1
  imod (Rounds.cell_close ER (agRd m) (Set.mem_univ (K (c, 11))) (fun h => h) (R := 0 + 1) (duties_later m (kcell (c, 11)))) $$ [HaV2] with Hz11
  · isplitr; · iapply (inv_at m K c 11); iexact HI
    iexact HaV2
  imod (Rounds.cell_close ER (agRd m) (Set.mem_univ (K (c, 12))) (fun h => h) (R := 0 + 1) (duties_later m (kcell (c, 12)))) $$ [HaV3] with Hz12
  · isplitr; · iapply (inv_at m K c 12); iexact HI
    iexact HaV3
  rw [wp_ret]; imodintro
  iapply Hk
  unfold bodyPost Φ₁ Dat.owesAt Pipeline.owesWithin argPts scrAny
  rw [show (dats m 0 c).owed t₀.succ = 0 from rfl]
  isplitl [Ha0 Ha1 Ha2 Ha3 Har Hd0 Hd1 Hd2 Hd3 Hsr Hz1 Hz2 Hz3 Hz4 Hz5 Hz6 Hz7 Hz8 Hz9 Hz10 Hz11 Hz12]
  · isplitl [Ha0 Ha1 Ha2 Ha3 Har]
    · iapply (arg_join c (xs m c))
      isplitl [Ha0]; · iexact Ha0
      isplitl [Ha1]; · iexact Ha1
      isplitl [Ha2]; · iexact Ha2
      isplitl [Ha3]; · iexact Ha3
      iexact Har
    isplitl [Hd0 Hd1 Hd2 Hd3 Hsr]
    · iapply (scr_join m c f0)
      isplitl [Hd0]; · iexists fl0; iexact Hd0
      isplitl [Hd1]; · iexists fl1; iexact Hd1
      isplitl [Hd2]; · iexists fl2; iexact Hd2
      isplitl [Hd3]; · iexists fl3; iexact Hd3
      iexact Hsr
    · rw [bigSep_fin12]
      isplitl [Hz1]; · iexact Hz1
      isplitl [Hz2]; · iexact Hz2
      isplitl [Hz3]; · iexact Hz3
      isplitl [Hz4]; · iexact Hz4
      isplitl [Hz5]; · iexact Hz5
      isplitl [Hz6]; · iexact Hz6
      isplitl [Hz7]; · iexact Hz7
      isplitl [Hz8]; · iexact Hz8
      isplitl [Hz9]; · iexact Hz9
      isplitl [Hz10]; · iexact Hz10
      isplitl [Hz11]; · iexact Hz11
      iexact Hz12
  isplitl [HO]
  · iexists (insert (SemLoc.dma (recvSem 3), ()) (insert (SemLoc.dma (sendSem 3), ()) (insert (SemLoc.dma (recvSem 2), ()) (insert (SemLoc.dma (sendSem 2), ()) (insert (SemLoc.dma (recvSem 1), ()) (insert (SemLoc.dma (sendSem 1), ()) (insert (SemLoc.dma (recvSem 0), ()) (insert (SemLoc.dma (sendSem 0), ()) (insert (SemLoc.dma (inSem 3), ()) (insert (SemLoc.dma (inSem 2), ()) (insert (SemLoc.dma (inSem 1), ()) (insert (SemLoc.dma (inSem 0), ()) (insert (SemLoc.reg barS, ()) W)))))))))))))
    isplitr; · ipureintro; exact fun _ _ => Or.inl trivial
    iexact HO
  · iexists (stgM.view.writes (Elt F) g0 (outPieces m c))
    isplitr; · ipureintro; exact writes_out m c g0
    iapply (stg_join m c g0)
    unfold sendPay recvPay
    isplitl [Ho0 Ho1 Ho2 Ho3]
    · isplitl [Ho0]; · iexact Ho0
      isplitl [Ho1]; · iexact Ho1
      isplitl [Ho2]; · iexact Ho2
      iexact Ho3
    isplitl [Hv0 Hv1 Hv2 Hv3]
    · isplitl [Hv0]; · iexact Hv0
      isplitl [Hv1]; · iexact Hv1
      isplitl [Hv2]; · iexact Hv2
      iexact Hv3
    iexact Hqr

end Body

/-- info: 'Cert.Kernel.AG.sound_body' depends on axioms: [propext, Classical.choice, Quot.sound] -/
#guard_msgs in #print axioms sound_body

end Cert.Kernel.AG

end
-- ==== Proof.Kernel.Launch.lean ====
/-
  The launch: the exchange's ghost state dealt to the thirty-two devices, the cells' invariants allocated for all of them
  under one update (the barrier semaphore is the runtime's, so its counters come with the launch's unscoped semaphores),
  the duty tokens dealt across each pair, the launch credit read off what each device owes, and the run of @main.
-/
import proofs.«900410_g7700000000000411_dist_ag_v7x_xyz2x4x4_x_m1024_n512_bf16_1_alg».proof.Proof.Kernel.Body
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The body obligation -/

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 4000 in
def bodyPre' (c : Dev nD) : sProp 𝕄 :=
  iprop(Φ₀ m c ∗ (dats m 0 c).owesAt () t₀.castSucc
    ∗ (∃ d, stg c cc0_stg0_0 ((dats m 0 c).before (0 : Fin 1) t₀ d)))

set_option maxRecDepth 4000 in
/-- The library's body obligation on device `c`. -/
theorem body_obligation (c : Dev nD) : BodyObligation (dats (F := F) m 0 c) (defs₀ (F := F)) 𝒱₀ () Set.univ := fun t => by
  rw [fin_N t]
  rw [bigSep_W0, bigSep_W0]
  simp only [owns_whole_eq]
  show bodyPre' m c ⊢ wp frame (wpE (defs₀ (F := F)) 𝒱₀ c none) Set.univ
    (cc0_body (Memref.whole main_arg0) (Memref.isWhole_whole _) (Memref.whole cc0_stg0_0) (Memref.isWhole_whole _)
      (Memref.whole cc0_scratch0) (Memref.isWhole_whole _) cc0_scratch1 cc0_scratch2 cc0_scratch3) (fun _ => bodyPost m c)
  unfold bodyPre' Φ₀ start
  iintro ⟨⟨⟨⟨%K, Hg⟩, Hc, Hl, Ha⟩, Hscr⟩, Ho, Hst⟩
  iapply (sound_body m K c fun _ => bodyPost m c)
  unfold bodyPre
  isplitr []
  · isplitl [Hg Hc Hl Ha Hscr]
    · isplitl [Hg]; · iexact Hg
      isplitl [Hc]; · iexact Hc
      isplitl [Hl]; · iexact Hl
      isplitl [Ha]; · iexact Ha
      iexact Hscr
    isplitl [Ho]; · iexact Ho
    iexact Hst
  · iintro H; iexact H

/-! ## The ghost state at launch -/

theorem ownSemFacts : Pipeline.OwnSemFacts cfg0.spec osem := by decide

theorem share_eq (c : Dev nD) (w : Fin cfg0.W) : (dats m 0 c).share w = fullShare := by unfold Dat.share; split <;> rfl

theorem csem_injective : Function.Injective csem := by decide
theorem kcell_injective : Function.Injective (kcell : Dev nD × Fin 13 → GSem nD τ sig) := by
  rintro ⟨c, k⟩ ⟨c', k'⟩ h
  have h1 : c = c' := by have := congrArg (fun g : GSem nD τ sig => g.1.1) h; exact this
  subst h1
  have h2 : csem k = csem k' := congrArg Prod.snd h
  have : k = k' := csem_injective h2
  subst this; rfl
def agCells : Finset (GSem nD τ sig) := Finset.univ.map ⟨kcell, kcell_injective⟩

abbrev tokOf (ck : Dev nD × Fin 13) : GSem nD τ sig × ℕ × Unit := (kcell ck, 0, ())
theorem tokOf_injective : Function.Injective (tokOf : Dev nD × Fin 13 → GSem nD τ sig × ℕ × Unit) :=
  fun a b h => kcell_injective (congrArg Prod.fst h)
def agToks : Finset (GSem nD τ sig × ℕ × Unit) := Finset.univ.map ⟨tokOf, tokOf_injective⟩

def u₀ : UU :=
  (initOf (Pipeline.cells cfgs cellOf_inj) (Pipeline.launchToks cfgs cellOf_inj), initOf agCells agToks)

/-- The duty tokens of device `c`'s own thirteen cells. -/
def toks (c : Dev nD) : sProp 𝕄 := bigSep Finset.univ fun k : Fin 13 => dutyTok ER (kcell (c, k)) 0 ()
/-- The same, by kind of cell. -/
def toks' (c : Dev nD) : sProp 𝕄 :=
  iprop(dutyTok ER (barCell c) 0 () ∗ (bigSep Finset.univ fun r : Fin 4 => dutyTok ER (recvCell c r) 0 ())
    ∗ (bigSep Finset.univ fun r : Fin 4 => dutyTok ER (inCell c r) 0 ()) ∗ (bigSep Finset.univ fun r : Fin 4 => dutyTok ER (sendCell c r) 0 ()))

omit [FloatOps F] in
theorem toks_regroup (c : Dev nD) : (toks (F := F) c) ⊢ toks' c := by
  unfold toks toks'
  rw [bigSep_fin13, bigSep_fin4, bigSep_fin4, bigSep_fin4]
  iintro ⟨HB, HI0, HI1, HI2, HI3, HS0, HS1, HS2, HS3, HV0, HV1, HV2, HV3⟩
  isplitl [HB]; · iexact HB
  isplitl [HV0 HV1 HV2 HV3]
  · isplitl [HV0]; · iexact HV0
    isplitl [HV1]; · iexact HV1
    isplitl [HV2]; · iexact HV2
    iexact HV3
  isplitl [HI0 HI1 HI2 HI3]
  · isplitl [HI0]; · iexact HI0
    isplitl [HI1]; · iexact HI1
    isplitl [HI2]; · iexact HI2
    iexact HI3
  · isplitl [HS0]; · iexact HS0
    isplitl [HS1]; · iexact HS1
    isplitl [HS2]; · iexact HS2
    iexact HS3

/-- What the launch element deals device `c` (the theorem's `G`). -/
def G (c : Dev nD) : sProp 𝕄 :=
  iprop((bigSep Finset.univ fun k : Fin 13 => roundState ER (agRd m) (kcell (c, k)) 0)
    ∗ (bigSep Finset.univ fun k : Fin 13 => iprop(atPos ER (kcell (c, k)) 0 ∅ 0 ∗ reached ER (kcell (c, k)) 0)) ∗ toks c)

/-- What the global step makes of it (`G'`). -/
def G' (c : Dev nD) : sProp 𝕄 := iprop(∃ K, ghost m K c)

theorem fund_ag : BI.own (ER (initOf agCells agToks)) ⊢ (|==> bigSep Finset.univ (G m) : sProp 𝕄) := by
  have hX (Φ : GSem nD τ sig → sProp 𝕄) : bigSep agCells Φ = bigSep Finset.univ fun c : Dev nD => bigSep Finset.univ fun k : Fin 13 => Φ (kcell (c, k)) := by
    unfold agCells; rw [bigSep_map, bigSep_univ_prod]; rfl
  have hT : bigSep agToks (fun x => (dutyTok ER x.1 x.2.1 x.2.2 : sProp 𝕄)) = bigSep Finset.univ fun c : Dev nD => toks c := by
    unfold agToks; rw [bigSep_map, bigSep_univ_prod]; rfl
  iintro HX
  imod (Rounds.fund ER (agRd m) agCells agToks) $$ HX with ⟨Hst, Hr, Hat, Htok⟩
  imodintro
  ihave Hst' := (Entails.of_eq (hX fun g => roundState ER (agRd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
/-- The barrier semaphore is the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 13 => semVal (kcell (c, k)) 0 : sProp 𝕄) := by
  rw [unscopedSems0_eq, bigSep_fin13]
  unfold Pipeline.ownSems0
  rw [bigSep_fin12]
  iintro ⟨⟨H1, H2, H3, H4, H5, H6, H7, H8, H9, H10, H11, H12⟩, HB⟩
  isplitl [HB]; · iexact HB
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (agRd m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 13 => semVal (kcell (c, k)) 0) ∗ bigSep Finset.univ fun k : Fin 13 => roundState ER (agRd m) (kcell (c, k)) 0)
      ⊢ (|={Set.univ}=> bigSep Finset.univ fun k => iprop(∃ κ : ℕ, cellInv ER (agRd m) κ (kcell (c, k))) : sProp 𝕄) from by
        rw [← bigSep_sep']
        exact (bigSep_mono fun k _ => (Rounds.body_intro ER (agRd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

def records (K : Dev nD × Fin 13 → ℕ) : sProp 𝕄 :=
  iprop((bigSep Finset.univ fun c : Dev nD => bigSep Finset.univ fun k : Fin 13 => cellInv ER (agRd m) (K (c, k)) (kcell (c, k)))
    ∗ bigSep Finset.univ fun c : Dev nD => bigSep Finset.univ fun k : Fin 13 => reached ER (kcell (c, k)) 0)

instance records_persistent (K : Dev nD × Fin 13 → ℕ) : BI.Persistent (records m K) := by unfold records; infer_instance

/-- What stays with device `c`: its positions and the tokens of the duties IT pays. -/
def linear (c : Dev nD) : sProp 𝕄 := iprop(poss (F := F) c ∗ payToks c)

theorem rec_inv (K : Dev nD × Fin 13 → ℕ) (c : Dev nD) :
    (bigSep Finset.univ fun c : Dev nD => bigSep Finset.univ fun k : Fin 13 => (cellInv ER (agRd m) (K (c, k)) (kcell (c, k)) : sProp 𝕄))
      ⊢ bigSep Finset.univ fun k : Fin 13 => (cellInv ER (agRd m) (K (c, k)) (kcell (c, k)) : sProp 𝕄) :=
  bigSep_elim (Finset.mem_univ c)
omit [FloatOps F] in
theorem rec_reached (c : Dev nD) :
    (bigSep Finset.univ fun c : Dev nD => bigSep Finset.univ fun k : Fin 13 => (reached ER (kcell (c, k)) 0 : sProp 𝕄))
      ⊢ bigSep Finset.univ fun k : Fin 13 => (reached ER (kcell (c, k)) 0 : sProp 𝕄) :=
  bigSep_elim (Finset.mem_univ c)

theorem ghost_intro (K : Dev nD × Fin 13 → ℕ) (c : Dev nD) : iprop(records m K ∗ linear c) ⊢ G' m c := by
  unfold records linear G' ghost invs marks
  iintro ⟨⟨#HI, #HR⟩, Hpos, Htok⟩
  iexists K
  isplitr
  · isplitr
    · iapply (rec_inv m K c); iexact HI
    · iapply (rec_inv m K (peer c)); iexact HI
  isplitr
  · isplitr
    · iapply (rec_reached (F := F) c); iexact HR
    · iapply (rec_reached (F := F) (peer c)); iexact HR
  isplitl [Hpos]; · iexact Hpos
  iexact Htok

omit [FloatOps F] in
/-- The tokens dealt across each pair: a barrier's and the receive cells' tokens go to the partner. -/
theorem toks_around : (bigSep Finset.univ fun c : Dev nD => (toks' (F := F) c : sProp 𝕄)) ⊢ bigSep Finset.univ fun c : Dev nD => payToks c := by
  unfold toks' payToks
  rw [bigSep_sep', bigSep_sep', bigSep_sep', bigSep_sep', bigSep_sep', bigSep_sep',
    bigSep_univ_equiv swap (fun c : Dev nD => (dutyTok ER (barCell c) 0 () : sProp 𝕄)),
    bigSep_univ_equiv swap (fun c : Dev nD => (bigSep Finset.univ fun r : Fin 4 => dutyTok ER (recvCell c r) 0 () : sProp 𝕄))]
  iintro ⟨H1, H2, H3, H4⟩
  isplitl [H1]; · iexact H1
  isplitl [H2]; · iexact H2
  isplitl [H3]; · iexact H3
  iexact H4

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (agRd m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 13 => iprop(∃ κ : ℕ, cellInv ER (agRd m) κ (kcell ck))),
    bigSep_congr (s := Finset.univ) (fun (c : Dev nD) _ => bigSep_sep' Finset.univ (fun k : Fin 13 => (atPos ER (kcell (c, k)) 0 ∅ 0 : sProp 𝕄)) (fun k => reached ER (kcell (c, k)) 0)),
    bigSep_sep']
  iintro ⟨HI, ⟨Hat, #HR⟩, Htok⟩
  ihave HK := (BI.bigSep_exists_pi Finset.univ (fun (ck : Dev nD × Fin 13) (κ : ℕ) => (cellInv ER (agRd m) κ (kcell ck) : sProp 𝕄))) $$ HI
  icases HK with ⟨%K, #HI⟩
  have hmono : (bigSep Finset.univ fun c : Dev nD => (toks (F := F) c : sProp 𝕄)) ⊢ bigSep Finset.univ fun c : Dev nD => (toks' (F := F) c : sProp 𝕄) :=
    bigSep_mono fun c _ => toks_regroup (F := F) c
  ihave Htk' := hmono $$ Htok
  ihave Htk := (toks_around (F := F)) $$ Htk'
  iapply (bigSep_with_persistent (R := records m K) fun c _ => ghost_intro m K c)
  isplitr
  · unfold records; isplitl
    · rw [← bigSep_univ_prod (fun ck : Dev nD × Fin 13 => (cellInv ER (agRd m) (K ck) (kcell ck) : sProp 𝕄))]; iexact HI
    iexact HR
  · iapply ((Entails.of_eq (bigSep_sep' Finset.univ (fun c : Dev nD => (poss (F := F) c : sProp 𝕄)) payToks).symm).trans
      (bigSep_mono fun c _ => show _ ⊢ linear c from Entails.of_eq (by unfold linear; rfl)))
    isplitl [Hat]; · unfold poss; iexact Hat
    iexact Htk

/-- The global step (`hglob`): own AND unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ### The launch credit -/

omit [FloatOps F] in
theorem creds_intro (c : Dev nD) : (Pipeline.launchCred O₀ c : sProp 𝕄) ⊢ creds c := by
  have e : (O₀ : Dev nD → CellTallies nD τ sig Unit) = fun d =>
      (((tallyAt (recvCell (peer d) 3) () Nout + tallyAt (recvCell (peer d) 2) () Nout) + tallyAt (recvCell (peer d) 1) () Nout)
        + tallyAt (recvCell (peer d) 0) () Nout) + tallyAt (barCell (peer d)) () 1 := rfl
  rw [e, Pipeline.launchCred_add, Pipeline.launchCred_add, Pipeline.launchCred_add, Pipeline.launchCred_add]
  unfold creds
  rw [bigSep_fin4]
  iintro ⟨⟨⟨⟨H3, H2⟩, H1⟩, H0⟩, HB⟩
  isplitl [HB]; · iapply (Pipeline.launchCred_tallyAt (.reg barS) peer peer peer_peer peer_peer () 1 c); iexact HB
  isplitl [H0]; · iapply (Pipeline.launchCred_tallyAt (.dma (recvSem 0)) peer peer peer_peer peer_peer () Nout c); iexact H0
  isplitl [H1]; · iapply (Pipeline.launchCred_tallyAt (.dma (recvSem 1)) peer peer peer_peer peer_peer () Nout c); iexact H1
  isplitl [H2]; · iapply (Pipeline.launchCred_tallyAt (.dma (recvSem 2)) peer peer peer_peer peer_peer () Nout c); iexact H2
  iapply (Pipeline.launchCred_tallyAt (.dma (recvSem 3)) peer peer peer_peer peer_peer () Nout c); iexact H3

/-! ### The theorem's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨Harg, Hlev, Hcr, -, HG⟩
  ihave Hc := (creds_intro (F := F) c) $$ Hcr
  imodintro
  unfold start G' argPts
  isplitl
  · isplitl [HG]; · iexact HG
    isplitl [Hc]; · iexact Hc
    isplitl [Hlev]; · iexact Hlev
    iexact Harg
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrAny
  iintro ⟨Hs, -, ⟨%f, Hr⟩⟩
  isplitl [Hs]; · iexact Hs
  iexists f; iexact Hr

theorem phi1_exit (c : Dev nD) :
    (dats m 0 c).Φ (Fin.last cfg0.N) ⊢ iprop(argPts m c ∗ Pipeline.ownSems0 osem c ∗ Pipeline.scopedRest cfg0.spec c) := by
  rw [show (dats m 0 c).Φ (Fin.last cfg0.N) = Φ₁ m c from rfl, scopedRest0_eq]
  unfold Φ₁ scrAny Pipeline.ownSems0
  iintro ⟨Ha, Hs, Hz⟩
  isplitl [Ha]; · iexact Ha
  isplitl [Hz]; · iexact Hz
  iexact Hs

theorem O₀_pos {c : Dev nD} {g : GSem nD τ sig} {u : Unit} (h : 0 < O₀ c g u) : (∃ r, g = recvCell (peer c) r) ∨ g = barCell (peer c) := by
  unfold O₀ at h
  rcases Pipeline.add_pos_cases h with h | h
  · exact Or.inl (Q0_pos h)
  · exact Or.inr (Pipeline.tallyAt_pos h).1

omit [FloatOps F] in
/-- A wait on a level-0 DMA cell (the result's staging cell) while owing what is owed at launch, or nothing. -/
theorem mayWait_stage (c : Dev nD) (q : DmaSem sig) (hq : q.val < 9) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    have h0 : lv ((c : Thread nD τ), SemLoc.dma q) () = 0 := by
      show (if 9 ≤ q.val then 2 else 0) = 0
      rw [if_neg (by omega)]
    rcases O₀_pos hg with ⟨r, rfl⟩ | rfl
    · exact ⟨by rw [L_tc]; exact Finset.mem_singleton_self _, by rw [h0, lv_recv]; decide⟩
    · exact ⟨by rw [L_tc]; exact Finset.mem_singleton_self _, by rw [h0]; show 0 < 1; decide⟩
  · rw [MayWait_zero]; iintro -; iempintro

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ### The run -/

/-- Device `c`'s arrays after the run: the result array after the write-back. -/
def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, (∀ w : Fin cfg0.W, r.2.mem ((cfg0.win w).arr.view.loc (c : Thread nD τ)) = finalA m c w)
    ∧ r.2.mem ((c : Thread nD τ).loc main_arg0) = xs m c

set_option maxRecDepth 8000 in
/-- At the compiled mesh of thirty-two devices, from any memory with zero counters: every weakly fair execution of @main
    — the sixteen pairs handshaking on the runtime's barrier semaphore, then exchanging their rows chunk by chunk —
    terminates, and every final state has each device's result array at the computed contents and its rows unchanged. -/
theorem run_main : θ_run defs (onTc (τ := τ) (main (F := F))) ⟨m, fun _ => 0, ρ⟩ (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ag m) $$ HX with HG
      imodintro
      isplitl [HP] <;> iassumption)
    (hglob := glob m)
    (hA := fun _ _ => rfl) (hpf := fun _ k => k.elim0)
    (X := start m) (Y := argPts m) (Z := fun _ => iprop(emp))
    (hX := start_intro m ρ) (hin := phi0_intro m) (hout := phi1_exit m)
    (QY := fun c s => s.mem ((c : Thread nD τ).loc main_arg0) = xs m c)
    (hY := fun c s' => by
      unfold argPts
      iintro ⟨Hx, -, HSI⟩
      icombine HSI Hx gives %hx
      imodintro
      isplitr; · ipureintro; exact Buf.eq_of_forall_mem_univ hx
      iexact HSI)
    (hQ := fun _ h c => ⟨fun w => (h c).1 w, (h c).2.2⟩)

/-- info: 'Cert.Kernel.AG.run_main' depends on axioms: [propext, Classical.choice, Quot.sound] -/
#guard_msgs in #print axioms run_main

end Cert.Kernel.AG

end
-- ==== Proof.Kernel.Final.lean ====
/-
  The run read back: after the write-back each device's result array is the closed form `outAt`, and when every device's
  rows are its block of one whole array (cut in two along the first mesh axis) that closed form is the whole array cast,
  element by element, on every device.
-/
import proofs.«900410_g7700000000000411_dist_ag_v7x_xyz2x4x4_x_m1024_n512_bf16_1_alg».proof.Proof.Kernel.Launch
import Idealize.ShloMosaic.Lib.Layout
set_option maxRecDepth 16384

noncomputable section

namespace Cert.Kernel.AG

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-- The one block of the result window is the whole array: the array after the write-back is what the body left. -/
theorem finalA_out (c : Dev nD) : finalA m c (0 : Fin 1) = outAt m c :=
  (dats (F := F) m 0 c).arrAt_eq_of_cover (0 : Fin 1) (outAt m c)
    (fun t _ => (Memref.read_access_unit_zero (Elt F) main_v1 (funext fun a => Nat.zero_mul _) _ (outAt m c)).symm)
    (fun i => ⟨t₀, flush0_0 t₀, by
      show i ∈ ((View.whole main_v1).slice (win0_0.rect t₀)).set
      rw [View.set_slice_whole]
      exact View.mem_set_unit_zero (funext fun a => Nat.zero_mul _) _ i⟩)

/-- The run with the result named and the rows unchanged. -/
theorem run_value : θ_run defs (onTc (τ := τ) (main (F := F))) ⟨m, fun _ => 0, ρ⟩ (fun r => ∀ c : Dev nD,
    r.2.mem ((c : Thread nD τ).loc main_v1) = outAt m c
    ∧ r.2.mem ((c : Thread nD τ).loc main_arg0) = m ((c : Thread nD τ).loc main_arg0)) :=
  (θ_run defs _ _).mono (fun r h c => ⟨((h c).1 (0 : Fin 1)).trans (finalA_out m c), (h c).2⟩) (run_main m ρ)

theorem meshLin_first (d : Dev nD) : Layout.meshLin [2, 4, 4] d.val [0] = d.val / 16 := by revert d; decide
theorem own_half (c : Dev nD) (b : ℕ) (hb : b < 2) : (own c b).val / 16 = b := by
  show (16 * (b % 2) + c.val % 16) / 16 = b
  omega

/-- When each device's rows are its block of the whole array `X` — the first mesh coordinate names the half —, every device
    ends with `X` cast, element by element. -/
theorem outAt_of_blocks (X : S2048x512.Idx → Elt F .f32)
    (h : ∀ d : Dev nD, xs m d = Layout.blockN ⟨2, ![1024, 512]⟩ ⟨2, ![2048, 512]⟩ (Layout.meshBlock [2, 4, 4] ![[0], []] d) X) (c : Dev nD) :
    outAt m c = truncf .bf16 X bitsLt_bf16_f32 := by
  funext y
  have hy0 : (y 0).val < 2048 := (y 0).isLt
  show FloatOps.truncf .bf16 bitsLt_bf16_f32 (xs m (own c ((y 0).val / 1024)) _) = FloatOps.truncf .bf16 bitsLt_bf16_f32 (X y)
  rw [h (own c ((y 0).val / 1024)), Layout.blockN_apply]
  congr 2
  funext a
  refine Fin.ext ?_
  rw [Layout.TilesN.idx_val]
  match a with
  | ⟨0, _⟩ =>
    show (Layout.meshBlock [2, 4, 4] ![[0], []] (own c ((y 0).val / 1024)) _ 0).val * 1024 + (y 0).val % 1024 = (y 0).val
    rw [Layout.meshBlock_val]
    show Layout.meshLin [2, 4, 4] (own c ((y 0).val / 1024)).val [0] * 1024 + (y 0).val % 1024 = (y 0).val
    rw [meshLin_first, own_half c _ (by omega)]
    omega
  | ⟨1, _⟩ =>
    show (Layout.meshBlock [2, 4, 4] ![[0], []] (own c ((y 0).val / 1024)) _ 1).val * 512 + (y 1).val = (y 1).val
    rw [Layout.meshBlock_val]
    show 0 * 512 + (y 1).val = (y 1).val
    omega

/-- info: 'Cert.Kernel.AG.run_value' depends on axioms: [propext, Classical.choice, Quot.sound] -/
#guard_msgs in #print axioms run_value

end Cert.Kernel.AG

end
-- ==== Proof.lean ====
/-
  The claim. On the thirty-two devices of the mesh (2 × 4 × 4) each device holds 1024 rows of a 2048-row array, the half
  its first mesh coordinate names. The kernel pairs each device with the one at the other first coordinate: after a
  handshake on the barrier semaphore each casts its rows to the result's format, four chunks of 256 rows at a time, into
  its half of a 2048-row result buffer and copies each chunk into the partner's buffer at the same rows; it waits for its
  four sends and for the partner's four chunks, and the buffer is written back. So every device ends with all 2048 rows
  cast — which is what the reference computes on one device from the whole array: at the ideal instance both are the
  whole array element by element (a change of format is the identity there).

  The three frames are the runs with the values dropped; the ideal pass rewrote nothing, so `preserves` is trivial;
  `algebraic` joins the kernel's closed form, read at each device's block of the whole array, to the reference's run.
-/
import proofs.«900410_g7700000000000411_dist_ag_v7x_xyz2x4x4_x_m1024_n512_bf16_1_alg».proof.Defs
import proofs.«900410_g7700000000000411_dist_ag_v7x_xyz2x4x4_x_m1024_n512_bf16_1_alg».proof.Proof.Final
import proofs.«900410_g7700000000000411_dist_ag_v7x_xyz2x4x4_x_m1024_n512_bf16_1_alg».proof.Proof.Kernel.Final
import proofs.«900410_g7700000000000411_dist_ag_v7x_xyz2x4x4_x_m1024_n512_bf16_1_alg».proof.Proof.Gen.ReferenceIdeal
import proofs.«900410_g7700000000000411_dist_ag_v7x_xyz2x4x4_x_m1024_n512_bf16_1_alg».proof.Proof.Gen.ReferenceIdeal.Run
import proofs.«900410_g7700000000000411_dist_ag_v7x_xyz2x4x4_x_m1024_n512_bf16_1_alg».proof.Proof.Gen.ReferenceIdeal.Read
import proofs.«900410_g7700000000000411_dist_ag_v7x_xyz2x4x4_x_m1024_n512_bf16_1_alg».proof.Proof.Gen.Pre_finite_inputs_Kernel
import proofs.«900410_g7700000000000411_dist_ag_v7x_xyz2x4x4_x_m1024_n512_bf16_1_alg».proof.Proof.Gen.Pre_finite_inputs_ReferenceIdeal
import Idealize.ShloMosaic.Adequacy
import Idealize.ShloMosaic.Init

noncomputable section

namespace Cert.Proof

open Idealize.ShloMosaic Idealize.ShloMosaic.TcCoe Idealize.SL.Sem

/-- The word-level kernel runs to the end on every device and leaves each device's rows as they were. -/
theorem frame_k : Cert.frame_Kernel := fun m ρ _ =>
  (θ_run Cert.Kernel.defs _ _).mono (fun _ h c => (h c).2) (Cert.Kernel.AG.run_value (F := Bits) m ρ)

/-- So does the idealized kernel. -/
theorem frame_ki : Cert.frame_KernelIdeal := fun m ρ _ =>
  (θ_run Cert.KernelIdeal.defs _ _).mono (fun _ h c => (h c).2) (Cert.KernelIdeal.AG.run_value (F := Ideal) m ρ)

/-- The reference is one host operation: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Every device's result is the whole array cast element by element, which is the reference's result. -/
theorem algebraic : Cert.algebraic_KernelIdeal_ReferenceIdeal := by
  intro m g m' g' _ hagree
  have href := (θ_run Cert.ReferenceIdeal.defs _ _).mono (fun _ h => h 0) (Cert.ReferenceIdeal.Value.run (F := Ideal) m' g')
  refine ⟨_, ?_, href⟩
  refine (θ_run Cert.KernelIdeal.defs _ _).mono (fun _ h c => ⟨(h c).1.trans ?_, (h c).2⟩) (Cert.KernelIdeal.AG.run_value (F := Ideal) m g)
  exact Cert.KernelIdeal.AG.outAt_of_blocks m _ hagree c

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
